-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S49152 : Shape := ⟨1, ![49152]⟩
abbrev S49152x512 : Shape := ⟨2, ![49152, 512]⟩
abbrev S512 : Shape := ⟨1, ![512]⟩
abbrev S_ : Shape := ⟨0, ![]⟩

class Facts : Prop where
  bcast_S_S49152x512 : S_.BroadcastsInDim S49152x512 (![] : Fin 0 → Fin S49152x512.rank)
  reducesTo_S49152x512_S_d0_1 : S49152x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : IVec S49152 32) (main_arg1 : FVec F S49152x512 .f32) (main_arg2 : FVec F S512 .f32) : IVec S_ 1 :=
  let main_v0 : FVec F S49152x512 .f32 := Host.absf main_arg1
  let main_cst : FVec F S_ .f32 := constant S_ .f32 0x7F800000#32
  let main_v1 : FVec F S49152x512 .f32 := broadcastInDim S49152x512 ![] bcast_S_S49152x512 main_cst
  let main_v2 : IVec S49152x512 1 := cmpf .olt main_v0 main_v1
  let main_c : IVec S_ 1 := constantI S_ 1 1#1
  let main_v3 : IVec S_ 1 := (fun x v => Host.reduce IntOp.andi x v reducesTo_S49152x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Kernel.lean ====
abbrev S49152 : Shape := ⟨1, ![49152]⟩
abbrev S49152x512 : Shape := ⟨2, ![49152, 512]⟩
abbrev S512 : Shape := ⟨1, ![512]⟩
abbrev S1x512 : Shape := ⟨2, ![1, 512]⟩
abbrev S49152x1 : Shape := ⟨2, ![49152, 1]⟩
abbrev S4096x512 : Shape := ⟨2, ![4096, 512]⟩
abbrev S4096x1 : Shape := ⟨2, ![4096, 1]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 258
  | .vmem => 5
  | .smem => 0
  | _ => 0

abbrev hbmTy0_0 (i : Nat) : BufTy := match i % 128 with
  | 0 => ⟨S49152, .i32⟩
  | 1 => ⟨S49152x512, .f32⟩
  | 2 => ⟨S512, .f32⟩
  | 3 => ⟨S1x512, .f32⟩
  | 4 => ⟨S49152x1, .f32⟩
  | 5 => ⟨S49152, .f32⟩
  | 6 => ⟨S_, .i32⟩
  | 7 => ⟨S49152, .i32⟩
  | 8 => ⟨S49152, .i1⟩
  | 9 => ⟨S49152, .i32⟩
  | 10 => ⟨S_, .i32⟩
  | 11 => ⟨S_, .i32⟩
  | 12 => ⟨S49152, .i32⟩
  | 13 => ⟨S_, .i32⟩
  | 14 => ⟨S16384, .i32⟩
  | 15 => ⟨S_, .i32⟩
  | 16 => ⟨S_, .i32⟩
  | 17 => ⟨S49152, .i32⟩
  | 18 => ⟨S49152, .i32⟩
  | 19 => ⟨S_, .i32⟩
  | 20 => ⟨S49152, .i32⟩
  | 21 => ⟨S49152, .i1⟩
  | 22 => ⟨S_, .i32⟩
  | 23 => ⟨S49152, .i32⟩
  | 24 => ⟨S49152, .i32⟩
  | 25 => ⟨S49152, .i32⟩
  | 26 => ⟨S49152x1, .i32⟩
  | 27 => ⟨S_, .i32⟩
  | 28 => ⟨S49152, .i32⟩
  | 29 => ⟨S16384, .i32⟩
  | 30 => ⟨S_, .i32⟩
  | 31 => ⟨S_, .i32⟩
  | 32 => ⟨S16384, .i32⟩
  | 33 => ⟨S_, .i32⟩
  | 34 => ⟨S16384, .i32⟩
  | 35 => ⟨S16384, .i32⟩
  | 36 => ⟨S16384, .i32⟩
  | 37 => ⟨S_, .i32⟩
  | 38 => ⟨S16384, .i32⟩
  | 39 => ⟨S16384, .i1⟩
  | 40 => ⟨S16384, .i32⟩
  | 41 => ⟨S16384, .i32⟩
  | 42 => ⟨S_, .i32⟩
  | 43 => ⟨S16384, .i32⟩
  | 44 => ⟨S16384, .i1⟩
  | 45 => ⟨S16384, .i1⟩
  | 46 => ⟨S_, .i32⟩
  | 47 => ⟨S16384, .i32⟩
  | 48 => ⟨S16384, .i32⟩
  | 49 => ⟨S16384, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i1⟩
  | 61 => ⟨S_, .i32⟩
  | 62 => ⟨S16384, .i32⟩
  | 63 => ⟨S16384, .i1⟩
  | 64 => ⟨S_, .i32⟩
  | 65 => ⟨S_, .i1⟩
  | 66 => ⟨S16384, .i1⟩
  | 67 => ⟨S16384, .i1⟩
  | 68 => ⟨S16384, .i1⟩
  | 69 => ⟨S16384, .i32⟩
  | 70 => ⟨S16384, .i32⟩
  | 71 => ⟨S16384, .i32⟩
  | 72 => ⟨S_, .i32⟩
  | 73 => ⟨S49152, .i32⟩
  | 74 => ⟨S49152, .i1⟩
  | 75 => ⟨S49152, .i32⟩
  | 76 => ⟨S_, .i32⟩
  | 77 => ⟨S_, .i32⟩
  | 78 => ⟨S49152, .i32⟩
  | 79 => ⟨S_, .i32⟩
  | 80 => ⟨S16384, .i32⟩
  | 81 => ⟨S_, .i32⟩
  | 82 => ⟨S_, .i32⟩
  | 83 => ⟨S49152, .i32⟩
  | 84 => ⟨S49152, .i32⟩
  | 85 => ⟨S_, .i32⟩
  | 86 => ⟨S49152, .i32⟩
  | 87 => ⟨S49152, .i1⟩
  | 88 => ⟨S_, .i32⟩
  | 89 => ⟨S49152, .i32⟩
  | 90 => ⟨S49152, .i32⟩
  | 91 => ⟨S49152, .i32⟩
  | 92 => ⟨S49152x1, .i32⟩
  | 93 => ⟨S_, .i32⟩
  | 94 => ⟨S49152, .i32⟩
  | 95 => ⟨S16384, .i32⟩
  | 96 => ⟨S_, .i32⟩
  | 97 => ⟨S_, .i32⟩
  | 98 => ⟨S16384, .i32⟩
  | 99 => ⟨S_, .i32⟩
  | 100 => ⟨S16384, .i32⟩
  | 101 => ⟨S16384, .i32⟩
  | 102 => ⟨S16384, .i32⟩
  | 103 => ⟨S_, .i32⟩
  | 104 => ⟨S16384, .i32⟩
  | 105 => ⟨S16384, .i1⟩
  | 106 => ⟨S16384, .i32⟩
  | 107 => ⟨S16384, .i32⟩
  | 108 => ⟨S_, .i32⟩
  | 109 => ⟨S16384, .i32⟩
  | 110 => ⟨S16384, .i1⟩
  | 111 => ⟨S16384, .i1⟩
  | 112 => ⟨S_, .i32⟩
  | 113 => ⟨S16384, .i32⟩
  | 114 => ⟨S16384, .i32⟩
  | 115 => ⟨S16384, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S16384, .i32⟩
  | 123 => ⟨S16384, .i32⟩
  | 124 => ⟨S_, .i32⟩
  | 125 => ⟨S16384, .i32⟩
  | 126 => ⟨S16384, .i1⟩
  | 127 => ⟨S_, .i32⟩
  | _ => ⟨S49152, .i32⟩

abbrev hbmTy0_1 (i : Nat) : BufTy := match i % 128 with
  | 0 => ⟨S16384, .i32⟩
  | 1 => ⟨S16384, .i1⟩
  | 2 => ⟨S_, .i32⟩
  | 3 => ⟨S_, .i1⟩
  | 4 => ⟨S16384, .i1⟩
  | 5 => ⟨S16384, .i1⟩
  | 6 => ⟨S16384, .i1⟩
  | 7 => ⟨S16384, .i32⟩
  | 8 => ⟨S16384, .i32⟩
  | 9 => ⟨S16384, .i32⟩
  | 10 => ⟨S_, .i32⟩
  | 11 => ⟨S49152, .i32⟩
  | 12 => ⟨S49152, .i1⟩
  | 13 => ⟨S49152, .i32⟩
  | 14 => ⟨S_, .i32⟩
  | 15 => ⟨S_, .i32⟩
  | 16 => ⟨S49152, .i32⟩
  | 17 => ⟨S_, .i32⟩
  | 18 => ⟨S16384, .i32⟩
  | 19 => ⟨S_, .i32⟩
  | 20 => ⟨S_, .i32⟩
  | 21 => ⟨S49152, .i32⟩
  | 22 => ⟨S49152, .i32⟩
  | 23 => ⟨S_, .i32⟩
  | 24 => ⟨S49152, .i32⟩
  | 25 => ⟨S49152, .i1⟩
  | 26 => ⟨S_, .i32⟩
  | 27 => ⟨S49152, .i32⟩
  | 28 => ⟨S49152, .i32⟩
  | 29 => ⟨S49152, .i32⟩
  | 30 => ⟨S49152x1, .i32⟩
  | 31 => ⟨S_, .i32⟩
  | 32 => ⟨S49152, .i32⟩
  | 33 => ⟨S16384, .i32⟩
  | 34 => ⟨S_, .i32⟩
  | 35 => ⟨S_, .i32⟩
  | 36 => ⟨S16384, .i32⟩
  | 37 => ⟨S_, .i32⟩
  | 38 => ⟨S16384, .i32⟩
  | 39 => ⟨S16384, .i32⟩
  | 40 => ⟨S16384, .i32⟩
  | 41 => ⟨S_, .i32⟩
  | 42 => ⟨S16384, .i32⟩
  | 43 => ⟨S16384, .i1⟩
  | 44 => ⟨S16384, .i32⟩
  | 45 => ⟨S16384, .i32⟩
  | 46 => ⟨S_, .i32⟩
  | 47 => ⟨S16384, .i32⟩
  | 48 => ⟨S16384, .i1⟩
  | 49 => ⟨S16384, .i1⟩
  | 50 => ⟨S_, .i32⟩
  | 51 => ⟨S16384, .i32⟩
  | 52 => ⟨S16384, .i32⟩
  | 53 => ⟨S16384, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S16384, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i1⟩
  | 68 => ⟨S_, .i32⟩
  | 69 => ⟨S_, .i1⟩
  | 70 => ⟨S16384, .i1⟩
  | 71 => ⟨S16384, .i1⟩
  | 72 => ⟨S16384, .i1⟩
  | 73 => ⟨S16384, .i32⟩
  | 74 => ⟨S16384, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S16384, .f32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S16384, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16384, .f32⟩
  | 103 => ⟨S16384, .f32⟩
  | 104 => ⟨S_, .f32⟩
  | 105 => ⟨S16384, .f32⟩
  | 106 => ⟨S16384, .f32⟩
  | 107 => ⟨S_, .f32⟩
  | 108 => ⟨S16384, .f32⟩
  | 109 => ⟨S16384, .f32⟩
  | 110 => ⟨S16384, .f32⟩
  | 111 => ⟨S_, .f32⟩
  | 112 => ⟨S16384, .f32⟩
  | 113 => ⟨S16384, .f32⟩
  | 114 => ⟨S_, .f32⟩
  | 115 => ⟨S16384, .f32⟩
  | 116 => ⟨S16384, .f32⟩
  | 117 => ⟨S16384, .f32⟩
  | 118 => ⟨S16384, .f32⟩
  | 119 => ⟨S_, .f32⟩
  | 120 => ⟨S16384, .f32⟩
  | 121 => ⟨S16384, .f32⟩
  | 122 => ⟨S_, .f32⟩
  | 123 => ⟨S16384, .f32⟩
  | 124 => ⟨S16384, .f32⟩
  | 125 => ⟨S16384, .f32⟩
  | 126 => ⟨S_, .f32⟩
  | 127 => ⟨S_, .f32⟩
  | _ => ⟨S49152, .i32⟩

abbrev hbmTy0_2 (i : Nat) : BufTy := match i % 128 with
  | 0 => ⟨S_, .f32⟩
  | 1 => ⟨S_, .f32⟩
  | _ => ⟨S49152, .i32⟩

abbrev hbmTy (i : Nat) : BufTy := match i / 128 with
  | 0 => hbmTy0_0 i
  | 1 => hbmTy0_1 i
  | 2 => hbmTy0_2 i
  | _ => ⟨S49152, .i32⟩

abbrev bufTy : (tb : Table) → Fin (tcTables nBuf tb) → BufTy
  | .hbm, ⟨i, _⟩ => hbmTy i
  | .local _ .vmem, ⟨0, _⟩ => ⟨S1x512, .f32⟩
  | .local _ .vmem, ⟨1, _⟩ => ⟨S4096x512, .f32⟩
  | .local _ .vmem, ⟨2, _⟩ => ⟨S4096x512, .f32⟩
  | .local _ .vmem, ⟨3, _⟩ => ⟨S4096x1, .f32⟩
  | .local _ .vmem, ⟨4, _⟩ => ⟨S4096x1, .f32⟩
  | _, _ => ⟨S49152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_call0_c : Ref sig .tc := ⟨.hbm, 10, rfl⟩
abbrev main_call0_call0_v0 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_call1_v1 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_call2_call0_c : Ref sig .tc := ⟨.hbm, 30, rfl⟩
abbrev main_call2_call0_v0 : Ref sig .tc := ⟨.hbm, 31, rfl⟩
abbrev main_v16 : Ref sig .tc := ⟨.hbm, 32, rfl⟩
abbrev main_c_5 : Ref sig .tc := ⟨.hbm, 33, rfl⟩
abbrev main_call3_v0 : Ref sig .tc := ⟨.hbm, 34, rfl⟩
abbrev main_call3_v1 : Ref sig .tc := ⟨.hbm, 35, rfl⟩
abbrev main_call3_v2 : Ref sig .tc := ⟨.hbm, 36, rfl⟩
abbrev main_call3_v3 : Ref sig .tc := ⟨.hbm, 37, rfl⟩
abbrev main_call3_v4 : Ref sig .tc := ⟨.hbm, 38, rfl⟩
abbrev main_call3_v5 : Ref sig .tc := ⟨.hbm, 39, rfl⟩
abbrev main_call3_v6 : Ref sig .tc := ⟨.hbm, 40, rfl⟩
abbrev main_call3_v7 : Ref sig .tc := ⟨.hbm, 41, rfl⟩
abbrev main_call3_c : Ref sig .tc := ⟨.hbm, 42, rfl⟩
abbrev main_call3_v8 : Ref sig .tc := ⟨.hbm, 43, rfl⟩
abbrev main_call3_v9 : Ref sig .tc := ⟨.hbm, 44, rfl⟩
abbrev main_call3_v10 : Ref sig .tc := ⟨.hbm, 45, rfl⟩
abbrev main_call3_c_0 : Ref sig .tc := ⟨.hbm, 46, rfl⟩
abbrev main_call3_v11 : Ref sig .tc := ⟨.hbm, 47, rfl⟩
abbrev main_call3_v12 : Ref sig .tc := ⟨.hbm, 48, rfl⟩
abbrev main_v17 : Ref sig .tc := ⟨.hbm, 49, rfl⟩
abbrev main_c_6 : Ref sig .tc := ⟨.hbm, 50, rfl⟩
abbrev main_call4_v0 : Ref sig .tc := ⟨.hbm, 51, rfl⟩
abbrev main_call4_c : Ref sig .tc := ⟨.hbm, 52, rfl⟩
abbrev main_call4_v1 : Ref sig .tc := ⟨.hbm, 53, rfl⟩
abbrev main_call4_c_0 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_c_1 : Ref sig .tc := ⟨.hbm, 58, rfl⟩
abbrev main_call4_v5 : Ref sig .tc := ⟨.hbm, 59, rfl⟩
abbrev main_call4_v6 : Ref sig .tc := ⟨.hbm, 60, rfl⟩
abbrev main_call4_c_2 : Ref sig .tc := ⟨.hbm, 61, rfl⟩
abbrev main_call4_v7 : Ref sig .tc := ⟨.hbm, 62, rfl⟩
abbrev main_call4_v8 : Ref sig .tc := ⟨.hbm, 63, rfl⟩
abbrev main_call4_c_3 : Ref sig .tc := ⟨.hbm, 64, rfl⟩
abbrev main_call4_v9 : Ref sig .tc := ⟨.hbm, 65, rfl⟩
abbrev main_call4_v10 : Ref sig .tc := ⟨.hbm, 66, rfl⟩
abbrev main_call4_v11 : Ref sig .tc := ⟨.hbm, 67, rfl⟩
abbrev main_call4_v12 : Ref sig .tc := ⟨.hbm, 68, rfl⟩
abbrev main_call4_v13 : Ref sig .tc := ⟨.hbm, 69, rfl⟩
abbrev main_call4_v14 : Ref sig .tc := ⟨.hbm, 70, rfl⟩
abbrev main_v18 : Ref sig .tc := ⟨.hbm, 71, rfl⟩
abbrev main_c_7 : Ref sig .tc := ⟨.hbm, 72, rfl⟩
abbrev main_v19 : Ref sig .tc := ⟨.hbm, 73, rfl⟩
abbrev main_v20 : Ref sig .tc := ⟨.hbm, 74, rfl⟩
abbrev main_call5_v0 : Ref sig .tc := ⟨.hbm, 75, rfl⟩
abbrev main_call5_call0_c : Ref sig .tc := ⟨.hbm, 76, rfl⟩
abbrev main_call5_call0_v0 : Ref sig .tc := ⟨.hbm, 77, rfl⟩
abbrev main_v21 : Ref sig .tc := ⟨.hbm, 78, rfl⟩
abbrev main_c_8 : Ref sig .tc := ⟨.hbm, 79, rfl⟩
abbrev main_v22 : Ref sig .tc := ⟨.hbm, 80, rfl⟩
abbrev main_c_9 : Ref sig .tc := ⟨.hbm, 81, rfl⟩
abbrev main_call6_v0 : Ref sig .tc := ⟨.hbm, 82, rfl⟩
abbrev main_call6_v1 : Ref sig .tc := ⟨.hbm, 83, rfl⟩
abbrev main_v23 : Ref sig .tc := ⟨.hbm, 84, rfl⟩
abbrev main_c_10 : Ref sig .tc := ⟨.hbm, 85, rfl⟩
abbrev main_v24 : Ref sig .tc := ⟨.hbm, 86, rfl⟩
abbrev main_v25 : Ref sig .tc := ⟨.hbm, 87, rfl⟩
abbrev main_c_11 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_c_12 : Ref sig .tc := ⟨.hbm, 93, rfl⟩
abbrev main_v30 : Ref sig .tc := ⟨.hbm, 94, rfl⟩
abbrev main_v31 : Ref sig .tc := ⟨.hbm, 95, rfl⟩
abbrev main_call7_call0_c : Ref sig .tc := ⟨.hbm, 96, rfl⟩
abbrev main_call7_call0_v0 : Ref sig .tc := ⟨.hbm, 97, rfl⟩
abbrev main_v32 : Ref sig .tc := ⟨.hbm, 98, rfl⟩
abbrev main_c_13 : Ref sig .tc := ⟨.hbm, 99, rfl⟩
abbrev main_call8_v0 : Ref sig .tc := ⟨.hbm, 100, rfl⟩
abbrev main_call8_v1 : Ref sig .tc := ⟨.hbm, 101, rfl⟩
abbrev main_call8_v2 : Ref sig .tc := ⟨.hbm, 102, rfl⟩
abbrev main_call8_v3 : Ref sig .tc := ⟨.hbm, 103, rfl⟩
abbrev main_call8_v4 : Ref sig .tc := ⟨.hbm, 104, rfl⟩
abbrev main_call8_v5 : Ref sig .tc := ⟨.hbm, 105, rfl⟩
abbrev main_call8_v6 : Ref sig .tc := ⟨.hbm, 106, rfl⟩
abbrev main_call8_v7 : Ref sig .tc := ⟨.hbm, 107, rfl⟩
abbrev main_call8_c : Ref sig .tc := ⟨.hbm, 108, rfl⟩
abbrev main_call8_v8 : Ref sig .tc := ⟨.hbm, 109, rfl⟩
abbrev main_call8_v9 : Ref sig .tc := ⟨.hbm, 110, rfl⟩
abbrev main_call8_v10 : Ref sig .tc := ⟨.hbm, 111, rfl⟩
abbrev main_call8_c_0 : Ref sig .tc := ⟨.hbm, 112, rfl⟩
abbrev main_call8_v11 : Ref sig .tc := ⟨.hbm, 113, rfl⟩
abbrev main_call8_v12 : Ref sig .tc := ⟨.hbm, 114, rfl⟩
abbrev main_v33 : Ref sig .tc := ⟨.hbm, 115, rfl⟩
abbrev main_c_14 : Ref sig .tc := ⟨.hbm, 116, rfl⟩
abbrev main_call9_v0 : Ref sig .tc := ⟨.hbm, 117, rfl⟩
abbrev main_call9_c : Ref sig .tc := ⟨.hbm, 118, rfl⟩
abbrev main_call9_v1 : Ref sig .tc := ⟨.hbm, 119, rfl⟩
abbrev main_call9_c_0 : Ref sig .tc := ⟨.hbm, 120, rfl⟩
abbrev main_call9_v2 : Ref sig .tc := ⟨.hbm, 121, rfl⟩
abbrev main_call9_v3 : Ref sig .tc := ⟨.hbm, 122, rfl⟩
abbrev main_call9_v4 : Ref sig .tc := ⟨.hbm, 123, rfl⟩
abbrev main_call9_c_1 : Ref sig .tc := ⟨.hbm, 124, rfl⟩
abbrev main_call9_v5 : Ref sig .tc := ⟨.hbm, 125, rfl⟩
abbrev main_call9_v6 : Ref sig .tc := ⟨.hbm, 126, rfl⟩
abbrev main_call9_c_2 : Ref sig .tc := ⟨.hbm, 127, rfl⟩
abbrev main_call9_v7 : Ref sig .tc := ⟨.hbm, 128, rfl⟩
abbrev main_call9_v8 : Ref sig .tc := ⟨.hbm, 129, rfl⟩
abbrev main_call9_c_3 : Ref sig .tc := ⟨.hbm, 130, rfl⟩
abbrev main_call9_v9 : Ref sig .tc := ⟨.hbm, 131, rfl⟩
abbrev main_call9_v10 : Ref sig .tc := ⟨.hbm, 132, rfl⟩
abbrev main_call9_v11 : Ref sig .tc := ⟨.hbm, 133, rfl⟩
abbrev main_call9_v12 : Ref sig .tc := ⟨.hbm, 134, rfl⟩
abbrev main_call9_v13 : Ref sig .tc := ⟨.hbm, 135, rfl⟩
abbrev main_call9_v14 : Ref sig .tc := ⟨.hbm, 136, rfl⟩
abbrev main_v34 : Ref sig .tc := ⟨.hbm, 137, rfl⟩
abbrev main_c_15 : Ref sig .tc := ⟨.hbm, 138, rfl⟩
abbrev main_v35 : Ref sig .tc := ⟨.hbm, 139, rfl⟩
abbrev main_v36 : Ref sig .tc := ⟨.hbm, 140, rfl⟩
abbrev main_call10_v0 : Ref sig .tc := ⟨.hbm, 141, rfl⟩
abbrev main_call10_call0_c : Ref sig .tc := ⟨.hbm, 142, rfl⟩
abbrev main_call10_call0_v0 : Ref sig .tc := ⟨.hbm, 143, rfl⟩
abbrev main_v37 : Ref sig .tc := ⟨.hbm, 144, rfl⟩
abbrev main_c_16 : Ref sig .tc := ⟨.hbm, 145, rfl⟩
abbrev main_v38 : Ref sig .tc := ⟨.hbm, 146, rfl⟩
abbrev main_c_17 : Ref sig .tc := ⟨.hbm, 147, rfl⟩
abbrev main_call11_v0 : Ref sig .tc := ⟨.hbm, 148, rfl⟩
abbrev main_call11_v1 : Ref sig .tc := ⟨.hbm, 149, rfl⟩
abbrev main_v39 : Ref sig .tc := ⟨.hbm, 150, rfl⟩
abbrev main_c_18 : Ref sig .tc := ⟨.hbm, 151, rfl⟩
abbrev main_v40 : Ref sig .tc := ⟨.hbm, 152, rfl⟩
abbrev main_v41 : Ref sig .tc := ⟨.hbm, 153, rfl⟩
abbrev main_c_19 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩
abbrev main_v45 : Ref sig .tc := ⟨.hbm, 158, rfl⟩
abbrev main_c_20 : Ref sig .tc := ⟨.hbm, 159, rfl⟩
abbrev main_v46 : Ref sig .tc := ⟨.hbm, 160, rfl⟩
abbrev main_v47 : Ref sig .tc := ⟨.hbm, 161, rfl⟩
abbrev main_call12_call0_c : Ref sig .tc := ⟨.hbm, 162, rfl⟩
abbrev main_call12_call0_v0 : Ref sig .tc := ⟨.hbm, 163, rfl⟩
abbrev main_v48 : Ref sig .tc := ⟨.hbm, 164, rfl⟩
abbrev main_c_21 : Ref sig .tc := ⟨.hbm, 165, rfl⟩
abbrev main_call13_v0 : Ref sig .tc := ⟨.hbm, 166, rfl⟩
abbrev main_call13_v1 : Ref sig .tc := ⟨.hbm, 167, rfl⟩
abbrev main_call13_v2 : Ref sig .tc := ⟨.hbm, 168, rfl⟩
abbrev main_call13_v3 : Ref sig .tc := ⟨.hbm, 169, rfl⟩
abbrev main_call13_v4 : Ref sig .tc := ⟨.hbm, 170, rfl⟩
abbrev main_call13_v5 : Ref sig .tc := ⟨.hbm, 171, rfl⟩
abbrev main_call13_v6 : Ref sig .tc := ⟨.hbm, 172, rfl⟩
abbrev main_call13_v7 : Ref sig .tc := ⟨.hbm, 173, rfl⟩
abbrev main_call13_c : Ref sig .tc := ⟨.hbm, 174, rfl⟩
abbrev main_call13_v8 : Ref sig .tc := ⟨.hbm, 175, rfl⟩
abbrev main_call13_v9 : Ref sig .tc := ⟨.hbm, 176, rfl⟩
abbrev main_call13_v10 : Ref sig .tc := ⟨.hbm, 177, rfl⟩
abbrev main_call13_c_0 : Ref sig .tc := ⟨.hbm, 178, rfl⟩
abbrev main_call13_v11 : Ref sig .tc := ⟨.hbm, 179, rfl⟩
abbrev main_call13_v12 : Ref sig .tc := ⟨.hbm, 180, rfl⟩
abbrev main_v49 : Ref sig .tc := ⟨.hbm, 181, rfl⟩
abbrev main_c_22 : Ref sig .tc := ⟨.hbm, 182, rfl⟩
abbrev main_call14_v0 : Ref sig .tc := ⟨.hbm, 183, rfl⟩
abbrev main_call14_c : Ref sig .tc := ⟨.hbm, 184, rfl⟩
abbrev main_call14_v1 : Ref sig .tc := ⟨.hbm, 185, rfl⟩
abbrev main_call14_c_0 : Ref sig .tc := ⟨.hbm, 186, rfl⟩
abbrev main_call14_v2 : Ref sig .tc := ⟨.hbm, 187, rfl⟩
abbrev main_call14_v3 : Ref sig .tc := ⟨.hbm, 188, rfl⟩
abbrev main_call14_v4 : Ref sig .tc := ⟨.hbm, 189, rfl⟩
abbrev main_call14_c_1 : Ref sig .tc := ⟨.hbm, 190, rfl⟩
abbrev main_call14_v5 : Ref sig .tc := ⟨.hbm, 191, rfl⟩
abbrev main_call14_v6 : Ref sig .tc := ⟨.hbm, 192, rfl⟩
abbrev main_call14_c_2 : Ref sig .tc := ⟨.hbm, 193, rfl⟩
abbrev main_call14_v7 : Ref sig .tc := ⟨.hbm, 194, rfl⟩
abbrev main_call14_v8 : Ref sig .tc := ⟨.hbm, 195, rfl⟩
abbrev main_call14_c_3 : Ref sig .tc := ⟨.hbm, 196, rfl⟩
abbrev main_call14_v9 : Ref sig .tc := ⟨.hbm, 197, rfl⟩
abbrev main_call14_v10 : Ref sig .tc := ⟨.hbm, 198, rfl⟩
abbrev main_call14_v11 : Ref sig .tc := ⟨.hbm, 199, rfl⟩
abbrev main_call14_v12 : Ref sig .tc := ⟨.hbm, 200, rfl⟩
abbrev main_call14_v13 : Ref sig .tc := ⟨.hbm, 201, rfl⟩
abbrev main_call14_v14 : Ref sig .tc := ⟨.hbm, 202, rfl⟩
abbrev main_v50 : Ref sig .tc := ⟨.hbm, 203, rfl⟩
abbrev main_c_23 : Ref sig .tc := ⟨.hbm, 204, rfl⟩
abbrev main_v51 : Ref sig .tc := ⟨.hbm, 205, rfl⟩
abbrev main_v52 : Ref sig .tc := ⟨.hbm, 206, rfl⟩
abbrev main_c_24 : Ref sig .tc := ⟨.hbm, 207, rfl⟩
abbrev main_v53 : Ref sig .tc := ⟨.hbm, 208, rfl⟩
abbrev main_v54 : Ref sig .tc := ⟨.hbm, 209, rfl⟩
abbrev main_v55 : Ref sig .tc := ⟨.hbm, 210, rfl⟩
abbrev main_v56 : Ref sig .tc := ⟨.hbm, 211, rfl⟩
abbrev main_v57 : Ref sig .tc := ⟨.hbm, 212, rfl⟩
abbrev main_c_25 : Ref sig .tc := ⟨.hbm, 213, rfl⟩
abbrev main_v58 : Ref sig .tc := ⟨.hbm, 214, rfl⟩
abbrev main_v59 : Ref sig .tc := ⟨.hbm, 215, rfl⟩
abbrev main_c_26 : Ref sig .tc := ⟨.hbm, 216, rfl⟩
abbrev main_v60 : Ref sig .tc := ⟨.hbm, 217, rfl⟩
abbrev main_v61 : Ref sig .tc := ⟨.hbm, 218, rfl⟩
abbrev main_v62 : Ref sig .tc := ⟨.hbm, 219, rfl⟩
abbrev main_v63 : Ref sig .tc := ⟨.hbm, 220, rfl⟩
abbrev main_v64 : Ref sig .tc := ⟨.hbm, 221, rfl⟩
abbrev main_c_27 : Ref sig .tc := ⟨.hbm, 222, rfl⟩
abbrev main_v65 : Ref sig .tc := ⟨.hbm, 223, rfl⟩
abbrev main_v66 : Ref sig .tc := ⟨.hbm, 224, rfl⟩
abbrev main_c_28 : Ref sig .tc := ⟨.hbm, 225, rfl⟩
abbrev main_v67 : Ref sig .tc := ⟨.hbm, 226, rfl⟩
abbrev main_v68 : Ref sig .tc := ⟨.hbm, 227, rfl⟩
abbrev main_v69 : Ref sig .tc := ⟨.hbm, 228, rfl⟩
abbrev main_v70 : Ref sig .tc := ⟨.hbm, 229, rfl⟩
abbrev main_v71 : Ref sig .tc := ⟨.hbm, 230, rfl⟩
abbrev main_v72 : Ref sig .tc := ⟨.hbm, 231, rfl⟩
abbrev main_cst : Ref sig .tc := ⟨.hbm, 232, rfl⟩
abbrev main_v73 : Ref sig .tc := ⟨.hbm, 233, rfl⟩
abbrev main_v74 : Ref sig .tc := ⟨.hbm, 234, rfl⟩
abbrev main_call15_cst : Ref sig .tc := ⟨.hbm, 235, rfl⟩
abbrev main_call15_v0 : Ref sig .tc := ⟨.hbm, 236, rfl⟩
abbrev main_v75 : Ref sig .tc := ⟨.hbm, 237, rfl⟩
abbrev main_v76 : Ref sig .tc := ⟨.hbm, 238, rfl⟩
abbrev main_cst_29 : Ref sig .tc := ⟨.hbm, 239, rfl⟩
abbrev main_v77 : Ref sig .tc := ⟨.hbm, 240, rfl⟩
abbrev main_v78 : Ref sig .tc := ⟨.hbm, 241, rfl⟩
abbrev main_call16_cst : Ref sig .tc := ⟨.hbm, 242, rfl⟩
abbrev main_call16_v0 : Ref sig .tc := ⟨.hbm, 243, rfl⟩
abbrev main_v79 : Ref sig .tc := ⟨.hbm, 244, rfl⟩
abbrev main_v80 : Ref sig .tc := ⟨.hbm, 245, rfl⟩
abbrev main_v81 : Ref sig .tc := ⟨.hbm, 246, rfl⟩
abbrev main_cst_30 : Ref sig .tc := ⟨.hbm, 247, rfl⟩
abbrev main_v82 : Ref sig .tc := ⟨.hbm, 248, rfl⟩
abbrev main_v83 : Ref sig .tc := ⟨.hbm, 249, rfl⟩
abbrev main_call17_cst : Ref sig .tc := ⟨.hbm, 250, rfl⟩
abbrev main_call17_v0 : Ref sig .tc := ⟨.hbm, 251, rfl⟩
abbrev main_v84 : Ref sig .tc := ⟨.hbm, 252, rfl⟩
abbrev main_v85 : Ref sig .tc := ⟨.hbm, 253, rfl⟩
abbrev main_cst_31 : Ref sig .tc := ⟨.hbm, 254, rfl⟩
abbrev main_v86 : Ref sig .tc := ⟨.hbm, 255, rfl⟩
abbrev main_cst_32 : Ref sig .tc := ⟨.hbm, 256, rfl⟩
abbrev main_v87 : Ref sig .tc := ⟨.hbm, 257, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4096x512_S4096x512_0_0 : ∀ a, (![0, 0] : Fin 2 → Nat) a + S4096x512.size a ≤ S4096x512.size a
  h_S4096x512 : 0 < S4096x512.numel
  broadcasts_S1x512_S4096x512 : S1x512.Broadcasts S4096x512
  reduces_S4096x512_S4096 : S4096x512.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S49152x1_S49152 : S49152x1.ShapeCasts S49152
  bcast_S_S49152 : S_.BroadcastsInDim S49152 (![] : Fin 0 → Fin S49152.rank)
  natLt_1_32 : 1 < 32
  bcast_S_S_ : S_.BroadcastsInDim S_ (![] : Fin 0 → Fin S_.rank)
  reduceWindows_S49152_S49152_w49152s1p49151_0 : S49152.ReduceWindows (![49152] : Fin 1 → Nat) ![1] ![49151] ![0] S49152
  h_S_ : 0 < S_.numel
  bcast_S_S16384 : S_.BroadcastsInDim S16384 (![] : Fin 0 → Fin S16384.rank)
  bcast_S49152_S49152x1_0 : S49152.BroadcastsInDim S49152x1 (![0] : Fin 1 → Fin S49152x1.rank)
  reduceWindows_S16384_S16384_w16384s1p16383_0 : S16384.ReduceWindows (![16384] : Fin 1 → Nat) ![1] ![16383] ![0] S16384
  bcast_S16384_S16384x1_0 : S16384.BroadcastsInDim S16384x1 (![0] : Fin 1 → Fin S16384x1.rank)
  reducesTo_S16384_S_d0 : S16384.ReducesTo [0] S_
  scatter_S16384_S49152x1_S49152_n_0_0_1_wf : ScatterDims.WF S16384 S49152x1 S49152 [] [0] [0] 1
  gather_S49152_S16384x1_S16384_n_0_n_n_0_1_1_wf : GatherDims.WF S49152 S16384x1 S16384 [] [0] [] [0] [] 1 ![1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x512.size a
  hwx0_0 : ∀ i : grid0.Coords, EltTy.bits .f32 = 32 ∨ (Rect.block (s := S1x512) S1x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S49152x512.size a
  hwx0_1 : ∀ i : grid0.Coords, EltTy.bits .f32 = 32 ∨ (Rect.block (s := S49152x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S49152x1.size a
  hwx0_2 : ∀ i : grid0.Coords, EltTy.bits .f32 = 32 ∨ (Rect.block (s := S49152x1) S4096x1.size (cc0_transform_2 i) (hinb0_2 i)).WholeWords (EltTy.packing .f32)

variable [Facts₀]

def scatter_S16384_S49152x1_S49152_n_0_0_1 : ScatterDims S16384 S49152x1 S49152 where
  updateWindowDims := []
  insertedWindowDims := [0]
  scatterDimsToOperandDims := [0]
  indexVectorDim := 1
  wf := scatter_S16384_S49152x1_S49152_n_0_0_1_wf
def gather_S49152_S16384x1_S16384_n_0_n_n_0_1_1 : GatherDims S49152 S16384x1 S16384 where
  offsetDims := []
  collapsedSliceDims := [0]
  operandBatchingDims := []
  startIndicesBatchingDims := []
  startIndexMap := [0]
  indexVectorDim := 1
  sliceSizes := ![1]
  wf := gather_S49152_S16384x1_S16384_n_0_n_n_0_1_1_wf

abbrev win0_0 : Pipeline.Window sig grid0 :=
  Pipeline.Window.ofSpec (Memref.whole main_v0) S1x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S49152 : Shape := ⟨1, ![49152]⟩
abbrev S49152x512 : Shape := ⟨2, ![49152, 512]⟩
abbrev S512 : Shape := ⟨1, ![512]⟩
abbrev S1x512 : Shape := ⟨2, ![1, 512]⟩
abbrev S_ : Shape := ⟨0, ![]⟩
abbrev S16384 : Shape := ⟨1, ![16384]⟩
abbrev S49152x1 : Shape := ⟨2, ![49152, 1]⟩
abbrev S16384x1 : Shape := ⟨2, ![16384, 1]⟩

abbrev nBuf : Space → Nat
  | .hbm => 261
  | .vmem => 0
  | .smem => 0
  | _ => 0

abbrev hbmTy0_0 (i : Nat) : BufTy := match i % 128 with
  | 0 => ⟨S49152, .i32⟩
  | 1 => ⟨S49152x512, .f32⟩
  | 2 => ⟨S512, .f32⟩
  | 3 => ⟨S1x512, .f32⟩
  | 4 => ⟨S49152x512, .f32⟩
  | 5 => ⟨S49152x512, .f32⟩
  | 6 => ⟨S49152x512, .f32⟩
  | 7 => ⟨S_, .f32⟩
  | 8 => ⟨S49152, .f32⟩
  | 9 => ⟨S_, .i32⟩
  | 10 => ⟨S49152, .i32⟩
  | 11 => ⟨S49152, .i1⟩
  | 12 => ⟨S49152, .i32⟩
  | 13 => ⟨S_, .i32⟩
  | 14 => ⟨S_, .i32⟩
  | 15 => ⟨S49152, .i32⟩
  | 16 => ⟨S_, .i32⟩
  | 17 => ⟨S16384, .i32⟩
  | 18 => ⟨S_, .i32⟩
  | 19 => ⟨S_, .i32⟩
  | 20 => ⟨S49152, .i32⟩
  | 21 => ⟨S49152, .i32⟩
  | 22 => ⟨S_, .i32⟩
  | 23 => ⟨S49152, .i32⟩
  | 24 => ⟨S49152, .i1⟩
  | 25 => ⟨S_, .i32⟩
  | 26 => ⟨S49152, .i32⟩
  | 27 => ⟨S49152, .i32⟩
  | 28 => ⟨S49152, .i32⟩
  | 29 => ⟨S49152x1, .i32⟩
  | 30 => ⟨S_, .i32⟩
  | 31 => ⟨S49152, .i32⟩
  | 32 => ⟨S16384, .i32⟩
  | 33 => ⟨S_, .i32⟩
  | 34 => ⟨S_, .i32⟩
  | 35 => ⟨S16384, .i32⟩
  | 36 => ⟨S_, .i32⟩
  | 37 => ⟨S16384, .i32⟩
  | 38 => ⟨S16384, .i32⟩
  | 39 => ⟨S16384, .i32⟩
  | 40 => ⟨S_, .i32⟩
  | 41 => ⟨S16384, .i32⟩
  | 42 => ⟨S16384, .i1⟩
  | 43 => ⟨S16384, .i32⟩
  | 44 => ⟨S16384, .i32⟩
  | 45 => ⟨S_, .i32⟩
  | 46 => ⟨S16384, .i32⟩
  | 47 => ⟨S16384, .i1⟩
  | 48 => ⟨S16384, .i1⟩
  | 49 => ⟨S_, .i32⟩
  | 50 => ⟨S16384, .i32⟩
  | 51 => ⟨S16384, .i32⟩
  | 52 => ⟨S16384, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i1⟩
  | 64 => ⟨S_, .i32⟩
  | 65 => ⟨S16384, .i32⟩
  | 66 => ⟨S16384, .i1⟩
  | 67 => ⟨S_, .i32⟩
  | 68 => ⟨S_, .i1⟩
  | 69 => ⟨S16384, .i1⟩
  | 70 => ⟨S16384, .i1⟩
  | 71 => ⟨S16384, .i1⟩
  | 72 => ⟨S16384, .i32⟩
  | 73 => ⟨S16384, .i32⟩
  | 74 => ⟨S16384, .i32⟩
  | 75 => ⟨S_, .i32⟩
  | 76 => ⟨S49152, .i32⟩
  | 77 => ⟨S49152, .i1⟩
  | 78 => ⟨S49152, .i32⟩
  | 79 => ⟨S_, .i32⟩
  | 80 => ⟨S_, .i32⟩
  | 81 => ⟨S49152, .i32⟩
  | 82 => ⟨S_, .i32⟩
  | 83 => ⟨S16384, .i32⟩
  | 84 => ⟨S_, .i32⟩
  | 85 => ⟨S_, .i32⟩
  | 86 => ⟨S49152, .i32⟩
  | 87 => ⟨S49152, .i32⟩
  | 88 => ⟨S_, .i32⟩
  | 89 => ⟨S49152, .i32⟩
  | 90 => ⟨S49152, .i1⟩
  | 91 => ⟨S_, .i32⟩
  | 92 => ⟨S49152, .i32⟩
  | 93 => ⟨S49152, .i32⟩
  | 94 => ⟨S49152, .i32⟩
  | 95 => ⟨S49152x1, .i32⟩
  | 96 => ⟨S_, .i32⟩
  | 97 => ⟨S49152, .i32⟩
  | 98 => ⟨S16384, .i32⟩
  | 99 => ⟨S_, .i32⟩
  | 100 => ⟨S_, .i32⟩
  | 101 => ⟨S16384, .i32⟩
  | 102 => ⟨S_, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i1⟩
  | 109 => ⟨S16384, .i32⟩
  | 110 => ⟨S16384, .i32⟩
  | 111 => ⟨S_, .i32⟩
  | 112 => ⟨S16384, .i32⟩
  | 113 => ⟨S16384, .i1⟩
  | 114 => ⟨S16384, .i1⟩
  | 115 => ⟨S_, .i32⟩
  | 116 => ⟨S16384, .i32⟩
  | 117 => ⟨S16384, .i32⟩
  | 118 => ⟨S16384, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S16384, .i32⟩
  | 126 => ⟨S16384, .i32⟩
  | 127 => ⟨S_, .i32⟩
  | _ => ⟨S49152, .i32⟩

abbrev hbmTy0_1 (i : Nat) : BufTy := match i % 128 with
  | 0 => ⟨S16384, .i32⟩
  | 1 => ⟨S16384, .i1⟩
  | 2 => ⟨S_, .i32⟩
  | 3 => ⟨S16384, .i32⟩
  | 4 => ⟨S16384, .i1⟩
  | 5 => ⟨S_, .i32⟩
  | 6 => ⟨S_, .i1⟩
  | 7 => ⟨S16384, .i1⟩
  | 8 => ⟨S16384, .i1⟩
  | 9 => ⟨S16384, .i1⟩
  | 10 => ⟨S16384, .i32⟩
  | 11 => ⟨S16384, .i32⟩
  | 12 => ⟨S16384, .i32⟩
  | 13 => ⟨S_, .i32⟩
  | 14 => ⟨S49152, .i32⟩
  | 15 => ⟨S49152, .i1⟩
  | 16 => ⟨S49152, .i32⟩
  | 17 => ⟨S_, .i32⟩
  | 18 => ⟨S_, .i32⟩
  | 19 => ⟨S49152, .i32⟩
  | 20 => ⟨S_, .i32⟩
  | 21 => ⟨S16384, .i32⟩
  | 22 => ⟨S_, .i32⟩
  | 23 => ⟨S_, .i32⟩
  | 24 => ⟨S49152, .i32⟩
  | 25 => ⟨S49152, .i32⟩
  | 26 => ⟨S_, .i32⟩
  | 27 => ⟨S49152, .i32⟩
  | 28 => ⟨S49152, .i1⟩
  | 29 => ⟨S_, .i32⟩
  | 30 => ⟨S49152, .i32⟩
  | 31 => ⟨S49152, .i32⟩
  | 32 => ⟨S49152, .i32⟩
  | 33 => ⟨S49152x1, .i32⟩
  | 34 => ⟨S_, .i32⟩
  | 35 => ⟨S49152, .i32⟩
  | 36 => ⟨S16384, .i32⟩
  | 37 => ⟨S_, .i32⟩
  | 38 => ⟨S_, .i32⟩
  | 39 => ⟨S16384, .i32⟩
  | 40 => ⟨S_, .i32⟩
  | 41 => ⟨S16384, .i32⟩
  | 42 => ⟨S16384, .i32⟩
  | 43 => ⟨S16384, .i32⟩
  | 44 => ⟨S_, .i32⟩
  | 45 => ⟨S16384, .i32⟩
  | 46 => ⟨S16384, .i1⟩
  | 47 => ⟨S16384, .i32⟩
  | 48 => ⟨S16384, .i32⟩
  | 49 => ⟨S_, .i32⟩
  | 50 => ⟨S16384, .i32⟩
  | 51 => ⟨S16384, .i1⟩
  | 52 => ⟨S16384, .i1⟩
  | 53 => ⟨S_, .i32⟩
  | 54 => ⟨S16384, .i32⟩
  | 55 => ⟨S16384, .i32⟩
  | 56 => ⟨S16384, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S16384, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i1⟩
  | 71 => ⟨S_, .i32⟩
  | 72 => ⟨S_, .i1⟩
  | 73 => ⟨S16384, .i1⟩
  | 74 => ⟨S16384, .i1⟩
  | 75 => ⟨S16384, .i1⟩
  | 76 => ⟨S16384, .i32⟩
  | 77 => ⟨S16384, .i32⟩
  | 78 => ⟨S16384, .i32⟩
  | 79 => ⟨S_, .i32⟩
  | 80 => ⟨S16384, .i32⟩
  | 81 => ⟨S16384, .i1⟩
  | 82 => ⟨S_, .i32⟩
  | 83 => ⟨S16384, .i32⟩
  | 84 => ⟨S16384, .i32⟩
  | 85 => ⟨S16384, .i32⟩
  | 86 => ⟨S16384x1, .i32⟩
  | 87 => ⟨S16384, .f32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S16384, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384, .f32⟩
  | 106 => ⟨S16384, .f32⟩
  | 107 => ⟨S_, .f32⟩
  | 108 => ⟨S16384, .f32⟩
  | 109 => ⟨S16384, .f32⟩
  | 110 => ⟨S_, .f32⟩
  | 111 => ⟨S16384, .f32⟩
  | 112 => ⟨S16384, .f32⟩
  | 113 => ⟨S16384, .f32⟩
  | 114 => ⟨S_, .f32⟩
  | 115 => ⟨S16384, .f32⟩
  | 116 => ⟨S16384, .f32⟩
  | 117 => ⟨S_, .f32⟩
  | 118 => ⟨S16384, .f32⟩
  | 119 => ⟨S16384, .f32⟩
  | 120 => ⟨S16384, .f32⟩
  | 121 => ⟨S16384, .f32⟩
  | 122 => ⟨S_, .f32⟩
  | 123 => ⟨S16384, .f32⟩
  | 124 => ⟨S16384, .f32⟩
  | 125 => ⟨S_, .f32⟩
  | 126 => ⟨S16384, .f32⟩
  | 127 => ⟨S16384, .f32⟩
  | _ => ⟨S49152, .i32⟩

abbrev hbmTy0_2 (i : Nat) : BufTy := match i % 128 with
  | 0 => ⟨S16384, .f32⟩
  | 1 => ⟨S_, .f32⟩
  | 2 => ⟨S_, .f32⟩
  | 3 => ⟨S_, .f32⟩
  | 4 => ⟨S_, .f32⟩
  | _ => ⟨S49152, .i32⟩

abbrev hbmTy (i : Nat) : BufTy := match i / 128 with
  | 0 => hbmTy0_0 i
  | 1 => hbmTy0_1 i
  | 2 => hbmTy0_2 i
  | _ => ⟨S49152, .i32⟩

abbrev bufTy : (tb : Table) → Fin (tcTables nBuf tb) → BufTy
  | .hbm, ⟨i, _⟩ => hbmTy i
  | _, _ => ⟨S49152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_c_1 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_call2_call0_c : Ref sig .tc := ⟨.hbm, 33, rfl⟩
abbrev main_call2_call0_v0 : Ref sig .tc := ⟨.hbm, 34, rfl⟩
abbrev main_v18 : Ref sig .tc := ⟨.hbm, 35, rfl⟩
abbrev main_c_5 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v19 : Ref sig .tc := ⟨.hbm, 52, rfl⟩
abbrev main_c_6 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v20 : Ref sig .tc := ⟨.hbm, 74, rfl⟩
abbrev main_c_7 : Ref sig .tc := ⟨.hbm, 75, rfl⟩
abbrev main_v21 : Ref sig .tc := ⟨.hbm, 76, rfl⟩
abbrev main_v22 : Ref sig .tc := ⟨.hbm, 77, rfl⟩
abbrev main_call5_v0 : Ref sig .tc := ⟨.hbm, 78, rfl⟩
abbrev main_call5_call0_c : Ref sig .tc := ⟨.hbm, 79, rfl⟩
abbrev main_call5_call0_v0 : Ref sig .tc := ⟨.hbm, 80, rfl⟩
abbrev main_v23 : Ref sig .tc := ⟨.hbm, 81, rfl⟩
abbrev main_c_8 : Ref sig .tc := ⟨.hbm, 82, rfl⟩
abbrev main_v24 : Ref sig .tc := ⟨.hbm, 83, rfl⟩
abbrev main_c_9 : Ref sig .tc := ⟨.hbm, 84, rfl⟩
abbrev main_call6_v0 : Ref sig .tc := ⟨.hbm, 85, rfl⟩
abbrev main_call6_v1 : Ref sig .tc := ⟨.hbm, 86, rfl⟩
abbrev main_v25 : Ref sig .tc := ⟨.hbm, 87, rfl⟩
abbrev main_c_10 : Ref sig .tc := ⟨.hbm, 88, rfl⟩
abbrev main_v26 : Ref sig .tc := ⟨.hbm, 89, rfl⟩
abbrev main_v27 : Ref sig .tc := ⟨.hbm, 90, rfl⟩
abbrev main_c_11 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_c_12 : Ref sig .tc := ⟨.hbm, 96, rfl⟩
abbrev main_v32 : Ref sig .tc := ⟨.hbm, 97, rfl⟩
abbrev main_v33 : Ref sig .tc := ⟨.hbm, 98, rfl⟩
abbrev main_call7_call0_c : Ref sig .tc := ⟨.hbm, 99, rfl⟩
abbrev main_call7_call0_v0 : Ref sig .tc := ⟨.hbm, 100, rfl⟩
abbrev main_v34 : Ref sig .tc := ⟨.hbm, 101, rfl⟩
abbrev main_c_13 : Ref sig .tc := ⟨.hbm, 102, rfl⟩
abbrev main_call8_v0 : Ref sig .tc := ⟨.hbm, 103, rfl⟩
abbrev main_call8_v1 : Ref sig .tc := ⟨.hbm, 104, rfl⟩
abbrev main_call8_v2 : Ref sig .tc := ⟨.hbm, 105, rfl⟩
abbrev main_call8_v3 : Ref sig .tc := ⟨.hbm, 106, rfl⟩
abbrev main_call8_v4 : Ref sig .tc := ⟨.hbm, 107, rfl⟩
abbrev main_call8_v5 : Ref sig .tc := ⟨.hbm, 108, rfl⟩
abbrev main_call8_v6 : Ref sig .tc := ⟨.hbm, 109, rfl⟩
abbrev main_call8_v7 : Ref sig .tc := ⟨.hbm, 110, rfl⟩
abbrev main_call8_c : Ref sig .tc := ⟨.hbm, 111, rfl⟩
abbrev main_call8_v8 : Ref sig .tc := ⟨.hbm, 112, rfl⟩
abbrev main_call8_v9 : Ref sig .tc := ⟨.hbm, 113, rfl⟩
abbrev main_call8_v10 : Ref sig .tc := ⟨.hbm, 114, rfl⟩
abbrev main_call8_c_0 : Ref sig .tc := ⟨.hbm, 115, rfl⟩
abbrev main_call8_v11 : Ref sig .tc := ⟨.hbm, 116, rfl⟩
abbrev main_call8_v12 : Ref sig .tc := ⟨.hbm, 117, rfl⟩
abbrev main_v35 : Ref sig .tc := ⟨.hbm, 118, rfl⟩
abbrev main_c_14 : Ref sig .tc := ⟨.hbm, 119, rfl⟩
abbrev main_call9_v0 : Ref sig .tc := ⟨.hbm, 120, rfl⟩
abbrev main_call9_c : Ref sig .tc := ⟨.hbm, 121, rfl⟩
abbrev main_call9_v1 : Ref sig .tc := ⟨.hbm, 122, rfl⟩
abbrev main_call9_c_0 : Ref sig .tc := ⟨.hbm, 123, rfl⟩
abbrev main_call9_v2 : Ref sig .tc := ⟨.hbm, 124, rfl⟩
abbrev main_call9_v3 : Ref sig .tc := ⟨.hbm, 125, rfl⟩
abbrev main_call9_v4 : Ref sig .tc := ⟨.hbm, 126, rfl⟩
abbrev main_call9_c_1 : Ref sig .tc := ⟨.hbm, 127, rfl⟩
abbrev main_call9_v5 : Ref sig .tc := ⟨.hbm, 128, rfl⟩
abbrev main_call9_v6 : Ref sig .tc := ⟨.hbm, 129, rfl⟩
abbrev main_call9_c_2 : Ref sig .tc := ⟨.hbm, 130, rfl⟩
abbrev main_call9_v7 : Ref sig .tc := ⟨.hbm, 131, rfl⟩
abbrev main_call9_v8 : Ref sig .tc := ⟨.hbm, 132, rfl⟩
abbrev main_call9_c_3 : Ref sig .tc := ⟨.hbm, 133, rfl⟩
abbrev main_call9_v9 : Ref sig .tc := ⟨.hbm, 134, rfl⟩
abbrev main_call9_v10 : Ref sig .tc := ⟨.hbm, 135, rfl⟩
abbrev main_call9_v11 : Ref sig .tc := ⟨.hbm, 136, rfl⟩
abbrev main_call9_v12 : Ref sig .tc := ⟨.hbm, 137, rfl⟩
abbrev main_call9_v13 : Ref sig .tc := ⟨.hbm, 138, rfl⟩
abbrev main_call9_v14 : Ref sig .tc := ⟨.hbm, 139, rfl⟩
abbrev main_v36 : Ref sig .tc := ⟨.hbm, 140, rfl⟩
abbrev main_c_15 : Ref sig .tc := ⟨.hbm, 141, rfl⟩
abbrev main_v37 : Ref sig .tc := ⟨.hbm, 142, rfl⟩
abbrev main_v38 : Ref sig .tc := ⟨.hbm, 143, rfl⟩
abbrev main_call10_v0 : Ref sig .tc := ⟨.hbm, 144, rfl⟩
abbrev main_call10_call0_c : Ref sig .tc := ⟨.hbm, 145, rfl⟩
abbrev main_call10_call0_v0 : Ref sig .tc := ⟨.hbm, 146, rfl⟩
abbrev main_v39 : Ref sig .tc := ⟨.hbm, 147, rfl⟩
abbrev main_c_16 : Ref sig .tc := ⟨.hbm, 148, rfl⟩
abbrev main_v40 : Ref sig .tc := ⟨.hbm, 149, rfl⟩
abbrev main_c_17 : Ref sig .tc := ⟨.hbm, 150, rfl⟩
abbrev main_call11_v0 : Ref sig .tc := ⟨.hbm, 151, rfl⟩
abbrev main_call11_v1 : Ref sig .tc := ⟨.hbm, 152, rfl⟩
abbrev main_v41 : Ref sig .tc := ⟨.hbm, 153, rfl⟩
abbrev main_c_18 : Ref sig .tc := ⟨.hbm, 154, rfl⟩
abbrev main_v42 : Ref sig .tc := ⟨.hbm, 155, rfl⟩
abbrev main_v43 : Ref sig .tc := ⟨.hbm, 156, rfl⟩
abbrev main_c_19 : Ref sig .tc := ⟨.hbm, 157, rfl⟩
abbrev main_v44 : Ref sig .tc := ⟨.hbm, 158, rfl⟩
abbrev main_v45 : Ref sig .tc := ⟨.hbm, 159, rfl⟩
abbrev main_v46 : Ref sig .tc := ⟨.hbm, 160, rfl⟩
abbrev main_v47 : Ref sig .tc := ⟨.hbm, 161, rfl⟩
abbrev main_c_20 : Ref sig .tc := ⟨.hbm, 162, rfl⟩
abbrev main_v48 : Ref sig .tc := ⟨.hbm, 163, rfl⟩
abbrev main_v49 : Ref sig .tc := ⟨.hbm, 164, rfl⟩
abbrev main_call12_call0_c : Ref sig .tc := ⟨.hbm, 165, rfl⟩
abbrev main_call12_call0_v0 : Ref sig .tc := ⟨.hbm, 166, rfl⟩
abbrev main_v50 : Ref sig .tc := ⟨.hbm, 167, rfl⟩
abbrev main_c_21 : Ref sig .tc := ⟨.hbm, 168, rfl⟩
abbrev main_call13_v0 : Ref sig .tc := ⟨.hbm, 169, rfl⟩
abbrev main_call13_v1 : Ref sig .tc := ⟨.hbm, 170, rfl⟩
abbrev main_call13_v2 : Ref sig .tc := ⟨.hbm, 171, rfl⟩
abbrev main_call13_v3 : Ref sig .tc := ⟨.hbm, 172, rfl⟩
abbrev main_call13_v4 : Ref sig .tc := ⟨.hbm, 173, rfl⟩
abbrev main_call13_v5 : Ref sig .tc := ⟨.hbm, 174, rfl⟩
abbrev main_call13_v6 : Ref sig .tc := ⟨.hbm, 175, rfl⟩
abbrev main_call13_v7 : Ref sig .tc := ⟨.hbm, 176, rfl⟩
abbrev main_call13_c : Ref sig .tc := ⟨.hbm, 177, rfl⟩
abbrev main_call13_v8 : Ref sig .tc := ⟨.hbm, 178, rfl⟩
abbrev main_call13_v9 : Ref sig .tc := ⟨.hbm, 179, rfl⟩
abbrev main_call13_v10 : Ref sig .tc := ⟨.hbm, 180, rfl⟩
abbrev main_call13_c_0 : Ref sig .tc := ⟨.hbm, 181, rfl⟩
abbrev main_call13_v11 : Ref sig .tc := ⟨.hbm, 182, rfl⟩
abbrev main_call13_v12 : Ref sig .tc := ⟨.hbm, 183, rfl⟩
abbrev main_v51 : Ref sig .tc := ⟨.hbm, 184, rfl⟩
abbrev main_c_22 : Ref sig .tc := ⟨.hbm, 185, rfl⟩
abbrev main_call14_v0 : Ref sig .tc := ⟨.hbm, 186, rfl⟩
abbrev main_call14_c : Ref sig .tc := ⟨.hbm, 187, rfl⟩
abbrev main_call14_v1 : Ref sig .tc := ⟨.hbm, 188, rfl⟩
abbrev main_call14_c_0 : Ref sig .tc := ⟨.hbm, 189, rfl⟩
abbrev main_call14_v2 : Ref sig .tc := ⟨.hbm, 190, rfl⟩
abbrev main_call14_v3 : Ref sig .tc := ⟨.hbm, 191, rfl⟩
abbrev main_call14_v4 : Ref sig .tc := ⟨.hbm, 192, rfl⟩
abbrev main_call14_c_1 : Ref sig .tc := ⟨.hbm, 193, rfl⟩
abbrev main_call14_v5 : Ref sig .tc := ⟨.hbm, 194, rfl⟩
abbrev main_call14_v6 : Ref sig .tc := ⟨.hbm, 195, rfl⟩
abbrev main_call14_c_2 : Ref sig .tc := ⟨.hbm, 196, rfl⟩
abbrev main_call14_v7 : Ref sig .tc := ⟨.hbm, 197, rfl⟩
abbrev main_call14_v8 : Ref sig .tc := ⟨.hbm, 198, rfl⟩
abbrev main_call14_c_3 : Ref sig .tc := ⟨.hbm, 199, rfl⟩
abbrev main_call14_v9 : Ref sig .tc := ⟨.hbm, 200, rfl⟩
abbrev main_call14_v10 : Ref sig .tc := ⟨.hbm, 201, rfl⟩
abbrev main_call14_v11 : Ref sig .tc := ⟨.hbm, 202, rfl⟩
abbrev main_call14_v12 : Ref sig .tc := ⟨.hbm, 203, rfl⟩
abbrev main_call14_v13 : Ref sig .tc := ⟨.hbm, 204, rfl⟩
abbrev main_call14_v14 : Ref sig .tc := ⟨.hbm, 205, rfl⟩
abbrev main_v52 : Ref sig .tc := ⟨.hbm, 206, rfl⟩
abbrev main_c_23 : Ref sig .tc := ⟨.hbm, 207, rfl⟩
abbrev main_v53 : Ref sig .tc := ⟨.hbm, 208, rfl⟩
abbrev main_v54 : Ref sig .tc := ⟨.hbm, 209, rfl⟩
abbrev main_c_24 : Ref sig .tc := ⟨.hbm, 210, rfl⟩
abbrev main_v55 : Ref sig .tc := ⟨.hbm, 211, rfl⟩
abbrev main_v56 : Ref sig .tc := ⟨.hbm, 212, rfl⟩
abbrev main_v57 : Ref sig .tc := ⟨.hbm, 213, rfl⟩
abbrev main_v58 : Ref sig .tc := ⟨.hbm, 214, rfl⟩
abbrev main_v59 : Ref sig .tc := ⟨.hbm, 215, rfl⟩
abbrev main_c_25 : Ref sig .tc := ⟨.hbm, 216, rfl⟩
abbrev main_v60 : Ref sig .tc := ⟨.hbm, 217, rfl⟩
abbrev main_v61 : Ref sig .tc := ⟨.hbm, 218, rfl⟩
abbrev main_c_26 : Ref sig .tc := ⟨.hbm, 219, rfl⟩
abbrev main_v62 : Ref sig .tc := ⟨.hbm, 220, rfl⟩
abbrev main_v63 : Ref sig .tc := ⟨.hbm, 221, rfl⟩
abbrev main_v64 : Ref sig .tc := ⟨.hbm, 222, rfl⟩
abbrev main_v65 : Ref sig .tc := ⟨.hbm, 223, rfl⟩
abbrev main_v66 : Ref sig .tc := ⟨.hbm, 224, rfl⟩
abbrev main_c_27 : Ref sig .tc := ⟨.hbm, 225, rfl⟩
abbrev main_v67 : Ref sig .tc := ⟨.hbm, 226, rfl⟩
abbrev main_v68 : Ref sig .tc := ⟨.hbm, 227, rfl⟩
abbrev main_c_28 : Ref sig .tc := ⟨.hbm, 228, rfl⟩
abbrev main_v69 : Ref sig .tc := ⟨.hbm, 229, rfl⟩
abbrev main_v70 : Ref sig .tc := ⟨.hbm, 230, rfl⟩
abbrev main_v71 : Ref sig .tc := ⟨.hbm, 231, rfl⟩
abbrev main_v72 : Ref sig .tc := ⟨.hbm, 232, rfl⟩
abbrev main_v73 : Ref sig .tc := ⟨.hbm, 233, rfl⟩
abbrev main_v74 : Ref sig .tc := ⟨.hbm, 234, rfl⟩
abbrev main_cst_29 : Ref sig .tc := ⟨.hbm, 235, rfl⟩
abbrev main_v75 : Ref sig .tc := ⟨.hbm, 236, rfl⟩
abbrev main_v76 : Ref sig .tc := ⟨.hbm, 237, rfl⟩
abbrev main_call15_cst : Ref sig .tc := ⟨.hbm, 238, rfl⟩
abbrev main_call15_v0 : Ref sig .tc := ⟨.hbm, 239, rfl⟩
abbrev main_v77 : Ref sig .tc := ⟨.hbm, 240, rfl⟩
abbrev main_v78 : Ref sig .tc := ⟨.hbm, 241, rfl⟩
abbrev main_cst_30 : Ref sig .tc := ⟨.hbm, 242, rfl⟩
abbrev main_v79 : Ref sig .tc := ⟨.hbm, 243, rfl⟩
abbrev main_v80 : Ref sig .tc := ⟨.hbm, 244, rfl⟩
abbrev main_call16_cst : Ref sig .tc := ⟨.hbm, 245, rfl⟩
abbrev main_call16_v0 : Ref sig .tc := ⟨.hbm, 246, rfl⟩
abbrev main_v81 : Ref sig .tc := ⟨.hbm, 247, rfl⟩
abbrev main_v82 : Ref sig .tc := ⟨.hbm, 248, rfl⟩
abbrev main_v83 : Ref sig .tc := ⟨.hbm, 249, rfl⟩
abbrev main_cst_31 : Ref sig .tc := ⟨.hbm, 250, rfl⟩
abbrev main_v84 : Ref sig .tc := ⟨.hbm, 251, rfl⟩
abbrev main_v85 : Ref sig .tc := ⟨.hbm, 252, rfl⟩
abbrev main_call17_cst : Ref sig .tc := ⟨.hbm, 253, rfl⟩
abbrev main_call17_v0 : Ref sig .tc := ⟨.hbm, 254, rfl⟩
abbrev main_v86 : Ref sig .tc := ⟨.hbm, 255, rfl⟩
abbrev main_v87 : Ref sig .tc := ⟨.hbm, 256, rfl⟩
abbrev main_cst_32 : Ref sig .tc := ⟨.hbm, 257, rfl⟩
abbrev main_v88 : Ref sig .tc := ⟨.hbm, 258, rfl⟩
abbrev main_cst_33 : Ref sig .tc := ⟨.hbm, 259, rfl⟩
abbrev main_v89 : Ref sig .tc := ⟨.hbm, 260, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S49152x512_0_1 : S1x512.BroadcastsInDim S49152x512 (![0, 1] : Fin 2 → Fin S49152x512.rank)
  reducesTo_S49152x512_S49152_d1 : S49152x512.ReducesTo [1] S49152
  h_S_ : 0 < S_.numel
  bcast_S_S49152 : S_.BroadcastsInDim S49152 (![] : Fin 0 → Fin S49152.rank)
  natLt_1_32 : 1 < 32
  bcast_S_S_ : S_.BroadcastsInDim S_ (![] : Fin 0 → Fin S_.rank)
  reduceWindows_S49152_S49152_w49152s1p49151_0 : S49152.ReduceWindows (![49152] : Fin 1 → Nat) ![1] ![49151] ![0] S49152
  bcast_S_S16384 : S_.BroadcastsInDim S16384 (![] : Fin 0 → Fin S16384.rank)
  bcast_S49152_S49152x1_0 : S49152.BroadcastsInDim S49152x1 (![0] : Fin 1 → Fin S49152x1.rank)
  reduceWindows_S16384_S16384_w16384s1p16383_0 : S16384.ReduceWindows (![16384] : Fin 1 → Nat) ![1] ![16383] ![0] S16384
  bcast_S16384_S16384x1_0 : S16384.BroadcastsInDim S16384x1 (![0] : Fin 1 → Fin S16384x1.rank)
  reducesTo_S16384_S_d0 : S16384.ReducesTo [0] S_
  scatter_S16384_S49152x1_S49152_n_0_0_1_wf : ScatterDims.WF S16384 S49152x1 S49152 [] [0] [0] 1
  gather_S49152_S16384x1_S16384_n_0_n_n_0_1_1_wf : GatherDims.WF S49152 S16384x1 S16384 [] [0] [] [0] [] 1 ![1]

variable [Facts₀]

def scatter_S16384_S49152x1_S49152_n_0_0_1 : ScatterDims S16384 S49152x1 S49152 where
  updateWindowDims := []
  insertedWindowDims := [0]
  scatterDimsToOperandDims := [0]
  indexVectorDim := 1
  wf := scatter_S16384_S49152x1_S49152_n_0_0_1_wf
def gather_S49152_S16384x1_S16384_n_0_n_n_0_1_1 : GatherDims S49152 S16384x1 S16384 where
  offsetDims := []
  collapsedSliceDims := [0]
  operandBatchingDims := []
  startIndicesBatchingDims := []
  startIndexMap := [0]
  indexVectorDim := 1
  sliceSizes := ![1]
  wf := gather_S49152_S16384x1_S16384_n_0_n_n_0_1_1_wf

class Facts : Prop extends Facts₀ where

variable [Facts]
-- ==== Proof.KFrame.lean ====
/-
  The run of the kernel program around its one pipelined region, for any float instance.

  @main is: one reshape of the prototype into a [1,512] row, the region, and then a long line of host operations
  (the class masks, their positions, the three gathers of the distance vector, the margins and the mean).
  The region runs the body at the 12 grid points; at point t it holds the prototype row, rows 4096·t … 4096·t+4095
  of the embedding, and writes the 4096 row sums of squared differences into block t of a [49152,1] column.
  Here: what the region finds in each array, what the body leaves in the output block (one store covering
  the whole block), the body's Hoare triple, and the run of @main: the three arrays of the region end at what the
  point-by-point write-backs leave, every other buffer at what the later host operations compute from those.
-/
import proofs.«125947_j52733608460723_1_alg».proof.Proof.Gen.Kernel.Launch
import proofs.«125947_j52733608460723_1_alg».proof.Proof.Gen.Kernel.Skeleton
import proofs.«125947_j52733608460723_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36]

/-- What a core's buffers hold when the region is entered: the launch contents after the one reshape. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- No later operation allocates. -/
theorem tail_fresh : (tailOps : List (List (HloOp τ sig (Elt F)))).Forall fun ops => ops.Forall fun op => op.fresh = ∅ := by
  simp only [List.Forall]; repeat' constructor

/-- Every later operation touches TensorCore buffers only. -/
theorem tail_sub : (tailOps : List (List (HloOp τ sig (Elt F)))).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub⟩

/-- @main reduces to the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No later operation writes an argument or an array of the region: each writes its own result buffer,
    and none of those five is any operation's result. -/
theorem tail_no_write (r : Ref sig .tc) (hr : r = main_arg0 ∨ r = main_arg1 ∨ r = main_arg2 ∨ r = main_v0 ∨ r = main_v1) :
    ∀ op ∈ (tailOps (F := F)).flatten, Proc.devRef (τ := τ) .tc r ∉ op.writes := by
  refine List.forall_iff_forall_mem.mp ?_
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.unaryIndexed_writes, Finset.mem_singleton]
  repeat' apply And.intro
  all_goals (apply StableHlo.devRef_ne_of_ne; rcases hr with rfl | rfl | rfl | rfl | rfl <;> decide)

theorem arr_cases (w : Fin cfg0.W) : Pipeline.arrRef spec0 w = main_arg0 ∨ Pipeline.arrRef spec0 w = main_arg1 ∨ Pipeline.arrRef spec0 w = main_arg2
    ∨ Pipeline.arrRef spec0 w = main_v0 ∨ Pipeline.arrRef spec0 w = main_v1 := by
  fin_cases w
  · exact Or.inr (Or.inr (Or.inr (Or.inl rfl)))
  · exact Or.inr (Or.inl rfl)
  · exact Or.inr (Or.inr (Or.inr (Or.inr rfl)))

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)

theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop

theorem sfx_keeps : ∀ ops ∈ (tailOps : List (List (HloOp τ sig (Elt F)))), ∀ op ∈ ops,
    ∀ w, Proc.devRef .tc (Pipeline.arrRef spec0 w) ∉ op.writes :=
  fun ops hops op hop w => tail_no_write _ (arr_cases w) op (List.mem_flatten.mpr ⟨ops, hops, hop⟩)

/-- The reshape before the region writes only the prototype row: an argument is found as launched. -/
theorem V_arg (c : Dev nD) (r : Ref sig .tc) (hr : r ≠ main_v0) : V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hr))

/-- A buffer that is neither an array of the region nor written later ends as launched. -/
theorem W_arg (dats : (p : Fin _) → (c : Dev nD) → Dat τ (Elt F) Unit ℕ (UR sig nD τ) ℕ (cfgs p) c) (c : Dev nD)
    (r : Ref sig .tc) (hr : r = main_arg0 ∨ r = main_arg2) :
    Pipeline.afterTail₀ cfgs dats 0 (V0 m) tailOps c r = m ((c : Thread nD τ).loc r) := by
  unfold Pipeline.afterTail₀
  rw [StableHlo.after_of_forall_not_mem (b := Proc.devRef .tc r) _ _
      (tail_no_write r (by rcases hr with rfl | rfl; exact Or.inl rfl; exact Or.inr (Or.inr (Or.inl rfl)))),
    Pipeline.withArrays_of_ne _ c (V0 m c) _ r (by rcases hr with rfl | rfl; exact (by decide : ∀ w, Pipeline.arrRef spec0 w ≠ main_arg0); exact (by decide : ∀ w, Pipeline.arrRef spec0 w ≠ main_arg2))]
  exact V_arg m c r (by rcases hr with rfl | rfl <;> decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The prototype row's staging buffer holds the row at every point (it is fetched once and never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The embedding's staging buffer holds block `t` of the embedding at point `t`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S1x512 := Rect.unit (s := S1x512) ![0, 0] S1x512.size inb_S1x512_S1x512_0_0
abbrev r0_1 : Rect S4096x512 := Rect.unit (s := S4096x512) ![0, 0] S4096x512.size inb_S4096x512_S4096x512_0_0
abbrev r0_2 : Rect S4096x1 := Rect.unit (s := S4096x1) ![0, 0] S4096x1.size inb_S4096x1_S4096x1_0_0

/-- What the body leaves in the output block: its one store, of the row sums computed from the two input blocks. -/
def out0_2 (x0 : Vec F S1x512 .f32) (x1 : Vec F S4096x512 .f32) : Vec F S4096x1 .f32 :=
  View.canon [⟨r0_2, k0_pay1 (View.ld x0 r0_0) (View.ld x1 r0_1)⟩]

/-- That store covers the whole block. -/
theorem cover0_2 (p0 : Vec F S4096x1 .f32) (y : S4096x1.Idx) :
    ∃ pc ∈ ([⟨r0_2, p0⟩] : List (View.Piece (Elt F) S4096x1 .f32)), y ∈ pc.1.set :=
  View.cover_of_tiled [⟨r0_2, p0⟩] S4096x1.size (by rfl) y

set_option maxHeartbeats 1000000 in
/-- The body on whole staging buffers: the inputs are read and left as they were, the output block (whatever it held)
    ends at `out0_2` of the inputs. -/
theorem sound_kernel (c : Dev nD) (E : Set ℕ) (i : grid0.Coords) (arg1 : Memref sig .tc .vmem S1x512 .f32) (harg1 : arg1.IsWhole) (arg2 : Memref sig .tc .vmem S4096x512 .f32) (harg2 : arg2.IsWhole) (arg3 : Memref sig .tc .vmem S4096x1 .f32) (harg3 : arg3.IsWhole)
    (x0 : Vec F S1x512 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer still at its block and the
    output's at the row sums of the two blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end the region's three arrays hold what the write-backs
    leave, and every other buffer what the later host operations compute from the region's exit contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run's post read at the three arguments and at the result: the arguments end as launched (the labels and the
    prototype bypass the region and no later operation writes them; the embedding is an input array of the region), and
    the result buffer holds what the later operations compute. -/
theorem run_post : θ_run defs (onTc (τ := τ) (main (F := F))) ⟨m, fun _ => 0, ρ⟩ (fun r => ∀ c : Dev nD,
      r.2.mem ((c.tc : Thread nD τ).loc main_v87) = Pipeline.afterTail₀ cfgs (dats m) 0 (V0 m) tailOps c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v87 (Pipeline.mem_restRefs_of main_v87 (by decide) (by decide)),
     ((h c).2 main_arg0 (Pipeline.mem_restRefs_of main_arg0 (by decide) (by decide))).trans (W_arg m (dats m) c main_arg0 (Or.inl rfl)),
     (((h c).1 1).trans ((dats m 0 c).arrAt_in 1 rfl _)).trans ((A_eq m c 1).trans (V_arg m c main_arg1 (by decide))),
     ((h c).2 main_arg2 (Pipeline.mem_restRefs_of main_arg2 (by decide) (by decide))).trans (W_arg m (dats m) c main_arg2 (Or.inr rfl))⟩)
    (run_main m ρ)

/-- The frame: @main runs to the end and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_post m ρ)

end Cert.Kernel.Fr

end
-- ==== Proof.KIFrame.lean ====
/-
  The run of the kernel program around its one pipelined region, for any float instance.

  @main is: one reshape of the prototype into a [1,512] row, the region, and then a long line of host operations
  (the class masks, their positions, the three gathers of the distance vector, the margins and the mean).
  The region runs the body at the 12 grid points; at point t it holds the prototype row, rows 4096·t … 4096·t+4095
  of the embedding, and writes the 4096 row sums of squared differences into block t of a [49152,1] column.
  Here: what the region finds in each array, what the body leaves in the output block (one store covering
  the whole block), the body's Hoare triple, and the run of @main: the three arrays of the region end at what the
  point-by-point write-backs leave, every other buffer at what the later host operations compute from those.
-/
import proofs.«125947_j52733608460723_1_alg».proof.Proof.Gen.KernelIdeal.Launch
import proofs.«125947_j52733608460723_1_alg».proof.Proof.Gen.KernelIdeal.Skeleton
import proofs.«125947_j52733608460723_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations after the region, stretch by stretch, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36]

/-- What a core's buffers hold when the region is entered: the launch contents after the one reshape. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- No later operation allocates. -/
theorem tail_fresh : (tailOps : List (List (HloOp τ sig (Elt F)))).Forall fun ops => ops.Forall fun op => op.fresh = ∅ := by
  simp only [List.Forall]; repeat' constructor

/-- Every later operation touches TensorCore buffers only. -/
theorem tail_sub : (tailOps : List (List (HloOp τ sig (Elt F)))).Forall fun ops => ops.Forall fun op => op.bufs ⊆ StableHlo.tcRefs τ sig := by
  simp only [List.Forall]
  exact ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub, hostOps1_13_sub, hostOps1_14_sub, hostOps1_15_sub, hostOps1_16_sub, hostOps1_17_sub, hostOps1_18_sub, hostOps1_19_sub, hostOps1_20_sub, hostOps1_21_sub, hostOps1_22_sub, hostOps1_23_sub, hostOps1_24_sub, hostOps1_25_sub, hostOps1_26_sub, hostOps1_27_sub, hostOps1_28_sub, hostOps1_29_sub, hostOps1_30_sub, hostOps1_31_sub, hostOps1_32_sub, hostOps1_33_sub, hostOps1_34_sub, hostOps1_35_sub, hostOps1_36_sub⟩

/-- @main reduces to the region continued by the later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- No later operation writes an argument or an array of the region: each writes its own result buffer,
    and none of those five is any operation's result. -/
theorem tail_no_write (r : Ref sig .tc) (hr : r = main_arg0 ∨ r = main_arg1 ∨ r = main_arg2 ∨ r = main_v0 ∨ r = main_v1) :
    ∀ op ∈ (tailOps (F := F)).flatten, Proc.devRef (τ := τ) .tc r ∉ op.writes := by
  refine List.forall_iff_forall_mem.mp ?_
  simp only [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20, hostOps1_21, hostOps1_22, hostOps1_23, hostOps1_24, hostOps1_25, hostOps1_26, hostOps1_27, hostOps1_28, hostOps1_29, hostOps1_30, hostOps1_31, hostOps1_32, hostOps1_33, hostOps1_34, hostOps1_35, hostOps1_36, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, StableHlo.unaryIndexed_writes, Finset.mem_singleton]
  repeat' apply And.intro
  all_goals (apply StableHlo.devRef_ne_of_ne; rcases hr with rfl | rfl | rfl | rfl | rfl <;> decide)

theorem arr_cases (w : Fin cfg0.W) : Pipeline.arrRef spec0 w = main_arg0 ∨ Pipeline.arrRef spec0 w = main_arg1 ∨ Pipeline.arrRef spec0 w = main_arg2
    ∨ Pipeline.arrRef spec0 w = main_v0 ∨ Pipeline.arrRef spec0 w = main_v1 := by
  fin_cases w
  · exact Or.inr (Or.inr (Or.inr (Or.inl rfl)))
  · exact Or.inr (Or.inl rfl)
  · exact Or.inr (Or.inr (Or.inr (Or.inr rfl)))

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp ((List.forall_iff_forall_mem.mp tail_sub) ops hops)) op hop)

theorem sfx_fresh : ∀ ops ∈ (tailOps : List (List (HloOp τ sig (Elt F)))), ∀ op ∈ ops, op.fresh = ∅ :=
  fun ops hops op hop => (List.forall_iff_forall_mem.mp ((List.forall_iff_forall_mem.mp tail_fresh) ops hops)) op hop

theorem sfx_keeps : ∀ ops ∈ (tailOps : List (List (HloOp τ sig (Elt F)))), ∀ op ∈ ops,
    ∀ w, Proc.devRef .tc (Pipeline.arrRef spec0 w) ∉ op.writes :=
  fun ops hops op hop w => tail_no_write _ (arr_cases w) op (List.mem_flatten.mpr ⟨ops, hops, hop⟩)

/-- The reshape before the region writes only the prototype row: an argument is found as launched. -/
theorem V_arg (c : Dev nD) (r : Ref sig .tc) (hr : r ≠ main_v0) : V m c r = m ((c : Thread nD τ).loc r) :=
  StableHlo.after_of_forall_not_mem (b := Proc.devRef .tc r) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hr))

/-- A buffer that is neither an array of the region nor written later ends as launched. -/
theorem W_arg (dats : (p : Fin _) → (c : Dev nD) → Dat τ (Elt F) Unit ℕ (UR sig nD τ) ℕ (cfgs p) c) (c : Dev nD)
    (r : Ref sig .tc) (hr : r = main_arg0 ∨ r = main_arg2) :
    Pipeline.afterTail₀ cfgs dats 0 (V0 m) tailOps c r = m ((c : Thread nD τ).loc r) := by
  unfold Pipeline.afterTail₀
  rw [StableHlo.after_of_forall_not_mem (b := Proc.devRef .tc r) _ _
      (tail_no_write r (by rcases hr with rfl | rfl; exact Or.inl rfl; exact Or.inr (Or.inr (Or.inl rfl)))),
    Pipeline.withArrays_of_ne _ c (V0 m c) _ r (by rcases hr with rfl | rfl; exact (by decide : ∀ w, Pipeline.arrRef spec0 w ≠ main_arg0); exact (by decide : ∀ w, Pipeline.arrRef spec0 w ≠ main_arg2))]
  exact V_arg m c r (by rcases hr with rfl | rfl <;> decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The prototype row's staging buffer holds the row at every point (it is fetched once and never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The embedding's staging buffer holds block `t` of the embedding at point `t`. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev r0_0 : Rect S1x512 := Rect.unit (s := S1x512) ![0, 0] S1x512.size inb_S1x512_S1x512_0_0
abbrev r0_1 : Rect S4096x512 := Rect.unit (s := S4096x512) ![0, 0] S4096x512.size inb_S4096x512_S4096x512_0_0
abbrev r0_2 : Rect S4096x1 := Rect.unit (s := S4096x1) ![0, 0] S4096x1.size inb_S4096x1_S4096x1_0_0

/-- What the body leaves in the output block: its one store, of the row sums computed from the two input blocks. -/
def out0_2 (x0 : Vec F S1x512 .f32) (x1 : Vec F S4096x512 .f32) : Vec F S4096x1 .f32 :=
  View.canon [⟨r0_2, k0_pay1 (View.ld x0 r0_0) (View.ld x1 r0_1)⟩]

/-- That store covers the whole block. -/
theorem cover0_2 (p0 : Vec F S4096x1 .f32) (y : S4096x1.Idx) :
    ∃ pc ∈ ([⟨r0_2, p0⟩] : List (View.Piece (Elt F) S4096x1 .f32)), y ∈ pc.1.set :=
  View.cover_of_tiled [⟨r0_2, p0⟩] S4096x1.size (by rfl) y

set_option maxHeartbeats 1000000 in
/-- The body on whole staging buffers: the inputs are read and left as they were, the output block (whatever it held)
    ends at `out0_2` of the inputs. -/
theorem sound_kernel (c : Dev nD) (E : Set ℕ) (i : grid0.Coords) (arg1 : Memref sig .tc .vmem S1x512 .f32) (harg1 : arg1.IsWhole) (arg2 : Memref sig .tc .vmem S4096x512 .f32) (harg2 : arg2.IsWhole) (arg3 : Memref sig .tc .vmem S4096x1 .f32) (harg3 : arg3.IsWhole)
    (x0 : Vec F S1x512 .f32) (x1 : Vec F S4096x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__dist_kernel i arg1 harg1 arg2 harg2 arg3 harg3) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer still at its block and the
    output's at the row sums of the two blocks; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end the region's three arrays hold what the write-backs
    leave, and every other buffer what the later host operations compute from the region's exit contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The run's post read at the three arguments and at the result: the arguments end as launched (the labels and the
    prototype bypass the region and no later operation writes them; the embedding is an input array of the region), and
    the result buffer holds what the later operations compute. -/
theorem run_post : θ_run defs (onTc (τ := τ) (main (F := F))) ⟨m, fun _ => 0, ρ⟩ (fun r => ∀ c : Dev nD,
      r.2.mem ((c.tc : Thread nD τ).loc main_v87) = Pipeline.afterTail₀ cfgs (dats m) 0 (V0 m) tailOps c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v87 (Pipeline.mem_restRefs_of main_v87 (by decide) (by decide)),
     ((h c).2 main_arg0 (Pipeline.mem_restRefs_of main_arg0 (by decide) (by decide))).trans (W_arg m (dats m) c main_arg0 (Or.inl rfl)),
     (((h c).1 1).trans ((dats m 0 c).arrAt_in 1 rfl _)).trans ((A_eq m c 1).trans (V_arg m c main_arg1 (by decide))),
     ((h c).2 main_arg2 (Pipeline.mem_restRefs_of main_arg2 (by decide) (by decide))).trans (W_arg m (dats m) c main_arg2 (Or.inr rfl))⟩)
    (run_main m ρ)

/-- The frame: @main runs to the end and leaves its three arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_post m ρ)

end Cert.KernelIdeal.Fr

end
-- ==== Proof.RefOps.lean ====
import proofs.«125947_j52733608460723_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- @main's first six operations: the centre broadcast to every row, the difference, its square, and the row sums (the squared distances). -/
abbrev opsPre : List (HloOp τ sig (Elt F)) :=
  [ StableHlo.unary main_arg2 main_v0 (broadcastInDim S1x512 ![1] bcast_S512_S1x512_1 : (⟨S512, .f32⟩ : BufTy).Contents (Elt F) → (⟨S1x512, .f32⟩ : BufTy).Contents (Elt F)),
    StableHlo.unary main_v0 main_v1 (broadcastInDim S49152x512 ![0, 1] bcast_S1x512_S49152x512_0_1 : (⟨S1x512, .f32⟩ : BufTy).Contents (Elt F) → (⟨S49152x512, .f32⟩ : BufTy).Contents (Elt F)),
    StableHlo.binary main_v1 main_arg1 main_v2 (subf : (⟨S49152x512, .f32⟩ : BufTy).Contents (Elt F) → (⟨S49152x512, .f32⟩ : BufTy).Contents (Elt F) → (⟨S49152x512, .f32⟩ : BufTy).Contents (Elt F)),
    StableHlo.binary main_v2 main_v2 main_v3 (mulf : (⟨S49152x512, .f32⟩ : BufTy).Contents (Elt F) → (⟨S49152x512, .f32⟩ : BufTy).Contents (Elt F) → (⟨S49152x512, .f32⟩ : BufTy).Contents (Elt F)),
    StableHlo.nullary main_cst (constant S_ .f32 0x00000000#32),
    StableHlo.binary main_v3 main_cst main_v4 ((fun x v => Host.reduceAdd x v reducesTo_S49152x512_S49152_d1 h_S_) : (⟨S49152x512, .f32⟩ : BufTy).Contents (Elt F) → (⟨S_, .f32⟩ : BufTy).Contents (Elt F) → (⟨S49152, .f32⟩ : BufTy).Contents (Elt F)) ]
theorem opsPre_sub : (opsPre : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.nullary_bufs_sub .., StableHlo.binary_bufs_sub ..⟩
/-- 3 operations of @main, in order. -/
abbrev tail0 : List (HloOp τ sig (Elt F)) :=
  [ StableHlo.nullary main_c (constantI S_ 32 0#32),
    StableHlo.unary main_c main_v5 (broadcastInDim S49152 ![] bcast_S_S49152 : (⟨S_, .i32⟩ : BufTy).Contents (Elt F) → (⟨S49152, .i32⟩ : BufTy).Contents (Elt F)),
    StableHlo.binary main_arg0 main_v5 main_v6 (cmpi .eq : (⟨S49152, .i32⟩ : BufTy).Contents (Elt F) → (⟨S49152, .i32⟩ : BufTy).Contents (Elt F) → (⟨S49152, .i1⟩ : BufTy).Contents (Elt F)) ]
theorem tail0_sub : (tail0 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @cumsum (main_call0), in order. -/
abbrev tail1 : List (HloOp τ sig (Elt F)) :=
  [ StableHlo.TRef.unary (.of main_v6 : StableHlo.TRef sig ⟨S49152, .i1⟩) (.of main_call0_v0 : StableHlo.TRef sig ⟨S49152, .i32⟩) (extui 32 · natLt_1_32),
    StableHlo.TRef.nullary (.of main_call0_call0_c : StableHlo.TRef sig ⟨S_, .i32⟩) (constantI S_ 32 0#32),
    StableHlo.TRef.unary (.of main_call0_call0_c : StableHlo.TRef sig ⟨S_, .i32⟩) (.of main_call0_call0_v0 : StableHlo.TRef sig ⟨S_, .i32⟩) (broadcastInDim S_ ![] bcast_S_S_),
    StableHlo.TRef.binary (.of main_call0_v0 : StableHlo.TRef sig ⟨S49152, .i32⟩) (.of main_call0_call0_v0 : StableHlo.TRef sig ⟨S_, .i32⟩) (.of main_v7 : StableHlo.TRef sig ⟨S49152, .i32⟩) (fun x v => Host.reduceWindow IntOp.addi ![49152] ![1] ![49151] ![0] x v reduceWindows_S49152_S49152_w49152s1p49151_0 h_S_) ]
theorem tail1_sub : (tail1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- 3 operations of @main, in order. -/
abbrev tail2 : List (HloOp τ sig (Elt F)) :=
  [ StableHlo.nullary main_c_0 (constantI S_ 32 0#32),
    StableHlo.unary main_c_0 main_v8 (broadcastInDim S16384 ![] bcast_S_S16384 : (⟨S_, .i32⟩ : BufTy).Contents (Elt F) → (⟨S16384, .i32⟩ : BufTy).Contents (Elt F)),
    StableHlo.nullary main_c_1 (constantI S_ 32 0#32) ]
theorem tail2_sub : (tail2 : List (HloOp τ sig (Elt F))).Forall fun op => op.bufs ⊆ StableHlo.tcRefs τ sig :=
  ⟨StableHlo.nullary_bufs_sub .., StableHlo.unary_bufs_sub .., StableHlo.nullary_bufs_sub ..⟩
/-- 3 operations of @clip (main_call1), in order. -/
abbrev tail3 : List (HloOp τ sig (Elt F)) :=
  [ StableHlo.TRef.unary (.of main_c_1 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S49152, .i32⟩) (broadcastInDim S49152 ![] bcast_S_S49152),
    StableHlo.TRef.binary (.of main_call1_v1 : StableHlo.TRef sig ⟨S49152, .i32⟩) (.of main_v7 : StableHlo.TRef sig ⟨S49152, .i32⟩) (.of main_v9 : StableHlo.TRef sig ⟨S49152, .i32⟩) maxsi ]
theorem tail3_sub : (tail3 : List (HloOp τ sig (Elt F))).Forall fun op => op.bufs ⊆ StableHlo.tcRefs τ sig :=
  ⟨StableHlo.unary_bufs_sub .., StableHlo.unary_bufs_sub .., StableHlo.binary_bufs_sub ..⟩
/-- 11 operations of @main, in order. -/
abbrev tail4 : List (HloOp τ sig (Elt F)) :=
  [ StableHlo.nullary main_c_2 (constantI S_ 32 0#32),
    StableHlo.unary main_c_2 main_v10 (broadcastInDim S49152 ![] bcast_S_S49152 : (⟨S_, .i32⟩ : BufTy).Contents (Elt F) → (⟨S49152, .i32⟩ : BufTy).Contents (Elt F)),
    StableHlo.binary main_v9 main_v10 main_v11 (cmpi .slt : (⟨S49152, .i32⟩ : BufTy).Contents (Elt F) → (⟨S49152, .i32⟩ : BufTy).Contents (Elt F) → (⟨S49152, .i1⟩ : BufTy).Contents (Elt F)),
    StableHlo.nullary main_c_3 (constantI S_ 32 16384#32),
    StableHlo.unary main_c_3 main_v12 (broadcastInDim S49152 ![] bcast_S_S49152 : (⟨S_, .i32⟩ : BufTy).Contents (Elt F) → (⟨S49152, .i32⟩ : BufTy).Contents (Elt F)),
    StableHlo.binary main_v9 main_v12 main_v13 (addi : (⟨S49152, .i32⟩ : BufTy).Contents (Elt F) → (⟨S49152, .i32⟩ : BufTy).Contents (Elt F) → (⟨S49152, .i32⟩ : BufTy).Contents (Elt F)),
    StableHlo.ternary main_v11 main_v13 main_v9 main_v14 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v14 main_v15 (broadcastInDim S49152x1 ![0] bcast_S49152_S49152x1_0 : (⟨S49152, .i32⟩ : BufTy).Contents (Elt F) → (⟨S49152x1, .i32⟩ : BufTy).Contents (Elt F)),
    StableHlo.nullary main_c_4 (constantI S_ 32 1#32),
    StableHlo.unary main_c_4 main_v16 (broadcastInDim S49152 ![] bcast_S_S49152 : (⟨S_, .i32⟩ : BufTy).Contents (Elt F) → (⟨S49152, .i32⟩ : BufTy).Contents (Elt F)),
    StableHlo.ternary main_v8 main_v15 main_v16 main_v17 ((fun x i u => Host.scatter scatter_S16384_S49152x1_S49152_n_0_0_1 IntOp.addi x i u) : (⟨S16384, .i32⟩ : BufTy).Contents (Elt F) → (⟨S49152x1, .i32⟩ : BufTy).Contents (Elt F) → (⟨S49152, .i32⟩ : BufTy).Contents (Elt F) → (⟨S16384, .i32⟩ : BufTy).Contents (Elt F)) ]
theorem tail4_sub : (tail4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- 3 operations of @cumsum_1 (main_call2), in order. -/
abbrev tail5 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_v17 : StableHlo.TRef sig ⟨S16384, .i32⟩) (.of main_call2_call0_v0 : StableHlo.TRef sig ⟨S_, .i32⟩) (.of main_v18 : StableHlo.TRef sig ⟨S16384, .i32⟩) (fun x v => Host.reduceWindow IntOp.addi ![16384] ![1] ![16383] ![0] x v reduceWindows_S16384_S16384_w16384s1p16383_0 h_S_) ]
theorem tail5_sub : (tail5 : List (HloOp τ sig (Elt F))).Forall fun op => op.bufs ⊆ StableHlo.tcRefs τ sig :=
  ⟨StableHlo.nullary_bufs_sub .., StableHlo.unary_bufs_sub .., StableHlo.binary_bufs_sub ..⟩
/-- 1 operation of @main, in order. -/
abbrev tail6 : List (HloOp τ sig (Elt F)) :=
  [ StableHlo.nullary main_c_5 (constantI S_ 32 1#32) ]
theorem tail6_sub : (tail6 : List (HloOp τ sig (Elt F))).Forall fun op => op.bufs ⊆ StableHlo.tcRefs τ sig :=
  StableHlo.nullary_bufs_sub ..
/-- 16 operations of @floor_divide (main_call3), in order. -/
abbrev tail7 : List (HloOp τ sig (Elt F)) :=
  [ StableHlo.TRef.unary (.of main_c_5 : StableHlo.TRef sig ⟨S_, .i32⟩) (.of main_call3_v0 : StableHlo.TRef sig ⟨S16384, .i32⟩) (broadcastInDim S16384 ![] bcast_S_S16384),
    StableHlo.TRef.binary (.of main_v18 : StableHlo.TRef sig ⟨S16384, .i32⟩) (.of main_call3_v0 : StableHlo.TRef sig ⟨S16384, .i32⟩) (.of main_call3_v1 : StableHlo.TRef sig ⟨S16384, .i32⟩) Host.divsi,
    StableHlo.TRef.unary (.of main_v18 : StableHlo.TRef sig ⟨S16384, .i32⟩) (.of main_call3_v2 : StableHlo.TRef sig ⟨S16384, .i32⟩) signi,
    StableHlo.TRef.unary (.of main_c_5 : StableHlo.TRef sig ⟨S_, .i32⟩) (.of main_call3_v3 : StableHlo.TRef sig ⟨S_, .i32⟩) signi,
    StableHlo.TRef.unary (.of main_call3_v3 : StableHlo.TRef sig ⟨S_, .i32⟩) (.of main_call3_v4 : StableHlo.TRef sig ⟨S16384, .i32⟩) (broadcastInDim S16384 ![] bcast_S_S16384),
    StableHlo.TRef.binary (.of main_call3_v2 : StableHlo.TRef sig ⟨S16384, .i32⟩) (.of main_call3_v4 : StableHlo.TRef sig ⟨S16384, .i32⟩) (.of main_call3_v5 : StableHlo.TRef sig ⟨S16384, .i1⟩) (cmpi .ne),
    StableHlo.TRef.unary (.of main_c_5 : StableHlo.TRef sig ⟨S_, .i32⟩) (.of main_call3_v6 : StableHlo.TRef sig ⟨S16384, .i32⟩) (broadcastInDim S16384 ![] bcast_S_S16384),
    StableHlo.TRef.binary (.of main_v18 : StableHlo.TRef sig ⟨S16384, .i32⟩) (.of main_call3_v6 : StableHlo.TRef sig ⟨S16384, .i32⟩) (.of main_call3_v7 : StableHlo.TRef sig ⟨S16384, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v8 : StableHlo.TRef sig ⟨S16384, .i32⟩) (broadcastInDim S16384 ![] bcast_S_S16384),
    StableHlo.TRef.binary (.of main_call3_v7 : StableHlo.TRef sig ⟨S16384, .i32⟩) (.of main_call3_v8 : StableHlo.TRef sig ⟨S16384, .i32⟩) (.of main_call3_v9 : StableHlo.TRef sig ⟨S16384, .i1⟩) (cmpi .ne),
    StableHlo.TRef.binary (.of main_call3_v5 : StableHlo.TRef sig ⟨S16384, .i1⟩) (.of main_call3_v9 : StableHlo.TRef sig ⟨S16384, .i1⟩) (.of main_call3_v10 : StableHlo.TRef sig ⟨S16384, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v11 : StableHlo.TRef sig ⟨S16384, .i32⟩) (broadcastInDim S16384 ![] bcast_S_S16384),
    StableHlo.TRef.binary (.of main_call3_v1 : StableHlo.TRef sig ⟨S16384, .i32⟩) (.of main_call3_v11 : StableHlo.TRef sig ⟨S16384, .i32⟩) (.of main_call3_v12 : StableHlo.TRef sig ⟨S16384, .i32⟩) subi,
    StableHlo.TRef.ternary (.of main_call3_v10 : StableHlo.TRef sig ⟨S16384, .i1⟩) (.of main_call3_v12 : StableHlo.TRef sig ⟨S16384, .i32⟩) (.of main_call3_v1 : StableHlo.TRef sig ⟨S16384, .i32⟩) (.of main_v19 : StableHlo.TRef sig ⟨S16384, .i32⟩) select ]
theorem tail7_sub : (tail7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 operation of @main, in order. -/
abbrev tail8 : List (HloOp τ sig (Elt F)) :=
  [ StableHlo.nullary main_c_6 (constantI S_ 32 49152#32) ]
theorem tail8_sub : (tail8 : List (HloOp τ sig (Elt F))).Forall fun op => op.bufs ⊆ StableHlo.tcRefs τ sig :=
  StableHlo.nullary_bufs_sub ..
/-- 21 operations of @remainder (main_call4), in order. -/
abbrev tail9 : List (HloOp τ sig (Elt F)) :=
  [ StableHlo.TRef.unary (.of main_c_6 : StableHlo.TRef sig ⟨S_, .i32⟩) (.of main_call4_v0 : StableHlo.TRef sig ⟨S_, .i32⟩) id,
    StableHlo.TRef.nullary (.of main_call4_c : StableHlo.TRef sig ⟨S_, .i32⟩) (constantI S_ 32 0#32),
    StableHlo.TRef.binary (.of main_call4_v0 : StableHlo.TRef sig ⟨S_, .i32⟩) (.of main_call4_c : StableHlo.TRef sig ⟨S_, .i32⟩) (.of main_call4_v1 : StableHlo.TRef sig ⟨S_, .i1⟩) (cmpi .eq),
    StableHlo.TRef.nullary (.of main_call4_c_0 : StableHlo.TRef sig ⟨S_, .i32⟩) (constantI S_ 32 1#32),
    StableHlo.TRef.ternary (.of main_call4_v1 : StableHlo.TRef sig ⟨S_, .i1⟩) (.of main_call4_c_0 : StableHlo.TRef sig ⟨S_, .i32⟩) (.of main_call4_v0 : StableHlo.TRef sig ⟨S_, .i32⟩) (.of main_call4_v2 : StableHlo.TRef sig ⟨S_, .i32⟩) select,
    StableHlo.TRef.unary main_call4_call0.v0 (.of main_call4_v3 : StableHlo.TRef sig ⟨S16384, .i32⟩) (broadcastInDim S16384 ![] bcast_S_S16384),
    StableHlo.TRef.binary (.of main_v19 : StableHlo.TRef sig ⟨S16384, .i32⟩) (.of main_call4_v3 : StableHlo.TRef sig ⟨S16384, .i32⟩) (.of main_call4_v4 : StableHlo.TRef sig ⟨S16384, .i32⟩) Host.remsi,
    StableHlo.TRef.nullary (.of main_call4_c_1 : StableHlo.TRef sig ⟨S_, .i32⟩) (constantI S_ 32 0#32),
    StableHlo.TRef.unary (.of main_call4_c_1 : StableHlo.TRef sig ⟨S_, .i32⟩) (.of main_call4_v5 : StableHlo.TRef sig ⟨S16384, .i32⟩) (broadcastInDim S16384 ![] bcast_S_S16384),
    StableHlo.TRef.binary (.of main_call4_v4 : StableHlo.TRef sig ⟨S16384, .i32⟩) (.of main_call4_v5 : StableHlo.TRef sig ⟨S16384, .i32⟩) (.of main_call4_v6 : StableHlo.TRef sig ⟨S16384, .i1⟩) (cmpi .ne),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v7 : StableHlo.TRef sig ⟨S16384, .i32⟩) (broadcastInDim S16384 ![] bcast_S_S16384),
    StableHlo.TRef.binary (.of main_call4_v4 : StableHlo.TRef sig ⟨S16384, .i32⟩) (.of main_call4_v7 : StableHlo.TRef sig ⟨S16384, .i32⟩) (.of main_call4_v8 : StableHlo.TRef sig ⟨S16384, .i1⟩) (cmpi .slt),
    StableHlo.TRef.nullary (.of main_call4_c_3 : StableHlo.TRef sig ⟨S_, .i32⟩) (constantI S_ 32 0#32),
    StableHlo.TRef.binary main_call4_call0.v0 (.of main_call4_c_3 : StableHlo.TRef sig ⟨S_, .i32⟩) (.of main_call4_v9 : StableHlo.TRef sig ⟨S_, .i1⟩) (cmpi .slt),
    StableHlo.TRef.unary (.of main_call4_v9 : StableHlo.TRef sig ⟨S_, .i1⟩) (.of main_call4_v10 : StableHlo.TRef sig ⟨S16384, .i1⟩) (broadcastInDim S16384 ![] bcast_S_S16384),
    StableHlo.TRef.binary (.of main_call4_v8 : StableHlo.TRef sig ⟨S16384, .i1⟩) (.of main_call4_v10 : StableHlo.TRef sig ⟨S16384, .i1⟩) (.of main_call4_v11 : StableHlo.TRef sig ⟨S16384, .i1⟩) (cmpi .ne),
    StableHlo.TRef.binary (.of main_call4_v11 : StableHlo.TRef sig ⟨S16384, .i1⟩) (.of main_call4_v6 : StableHlo.TRef sig ⟨S16384, .i1⟩) (.of main_call4_v12 : StableHlo.TRef sig ⟨S16384, .i1⟩) andi,
    StableHlo.TRef.unary main_call4_call0.v0 (.of main_call4_v13 : StableHlo.TRef sig ⟨S16384, .i32⟩) (broadcastInDim S16384 ![] bcast_S_S16384),
    StableHlo.TRef.binary (.of main_call4_v4 : StableHlo.TRef sig ⟨S16384, .i32⟩) (.of main_call4_v13 : StableHlo.TRef sig ⟨S16384, .i32⟩) (.of main_call4_v14 : StableHlo.TRef sig ⟨S16384, .i32⟩) addi,
    StableHlo.TRef.ternary (.of main_call4_v12 : StableHlo.TRef sig ⟨S16384, .i1⟩) (.of main_call4_v14 : StableHlo.TRef sig ⟨S16384, .i32⟩) (.of main_call4_v4 : StableHlo.TRef sig ⟨S16384, .i32⟩) (.of main_v20 : StableHlo.TRef sig ⟨S16384, .i32⟩) select ]
theorem tail9_sub : (tail9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 3 operations of @main, in order. -/
abbrev tail10 : List (HloOp τ sig (Elt F)) :=
  [ StableHlo.nullary main_c_7 (constantI S_ 32 1#32),
    StableHlo.unary main_c_7 main_v21 (broadcastInDim S49152 ![] bcast_S_S49152 : (⟨S_, .i32⟩ : BufTy).Contents (Elt F) → (⟨S49152, .i32⟩ : BufTy).Contents (Elt F)),
    StableHlo.binary main_arg0 main_v21 main_v22 (cmpi .eq : (⟨S49152, .i32⟩ : BufTy).Contents (Elt F) → (⟨S49152, .i32⟩ : BufTy).Contents (Elt F) → (⟨S49152, .i1⟩ : BufTy).Contents (Elt F)) ]
theorem tail10_sub : (tail10 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @cumsum (main_call5), in order. -/
abbrev tail11 : List (HloOp τ sig (Elt F)) :=
  [ StableHlo.TRef.unary (.of main_v22 : StableHlo.TRef sig ⟨S49152, .i1⟩) (.of main_call5_v0 : StableHlo.TRef sig ⟨S49152, .i32⟩) (extui 32 · natLt_1_32),
    StableHlo.TRef.nullary (.of main_call5_call0_c : StableHlo.TRef sig ⟨S_, .i32⟩) (constantI S_ 32 0#32),
    StableHlo.TRef.unary (.of main_call5_call0_c : StableHlo.TRef sig ⟨S_, .i32⟩) (.of main_call5_call0_v0 : StableHlo.TRef sig ⟨S_, .i32⟩) (broadcastInDim S_ ![] bcast_S_S_),
    StableHlo.TRef.binary (.of main_call5_v0 : StableHlo.TRef sig ⟨S49152, .i32⟩) (.of main_call5_call0_v0 : StableHlo.TRef sig ⟨S_, .i32⟩) (.of main_v23 : StableHlo.TRef sig ⟨S49152, .i32⟩) (fun x v => Host.reduceWindow IntOp.addi ![49152] ![1] ![49151] ![0] x v reduceWindows_S49152_S49152_w49152s1p49151_0 h_S_) ]
theorem tail11_sub : (tail11 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- 3 operations of @main, in order. -/
abbrev tail12 : List (HloOp τ sig (Elt F)) :=
  [ StableHlo.nullary main_c_8 (constantI S_ 32 0#32),
    StableHlo.unary main_c_8 main_v24 (broadcastInDim S16384 ![] bcast_S_S16384 : (⟨S_, .i32⟩ : BufTy).Contents (Elt F) → (⟨S16384, .i32⟩ : BufTy).Contents (Elt F)),
    StableHlo.nullary main_c_9 (constantI S_ 32 0#32) ]
theorem tail12_sub : (tail12 : List (HloOp τ sig (Elt F))).Forall fun op => op.bufs ⊆ StableHlo.tcRefs τ sig :=
  ⟨StableHlo.nullary_bufs_sub .., StableHlo.unary_bufs_sub .., StableHlo.nullary_bufs_sub ..⟩
/-- 3 operations of @clip (main_call6), in order. -/
abbrev tail13 : List (HloOp τ sig (Elt F)) :=
  [ StableHlo.TRef.unary (.of main_c_9 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S49152, .i32⟩) (broadcastInDim S49152 ![] bcast_S_S49152),
    StableHlo.TRef.binary (.of main_call6_v1 : StableHlo.TRef sig ⟨S49152, .i32⟩) (.of main_v23 : StableHlo.TRef sig ⟨S49152, .i32⟩) (.of main_v25 : StableHlo.TRef sig ⟨S49152, .i32⟩) maxsi ]
theorem tail13_sub : (tail13 : List (HloOp τ sig (Elt F))).Forall fun op => op.bufs ⊆ StableHlo.tcRefs τ sig :=
  ⟨StableHlo.unary_bufs_sub .., StableHlo.unary_bufs_sub .., StableHlo.binary_bufs_sub ..⟩
/-- 11 operations of @main, in order. -/
abbrev tail14 : List (HloOp τ sig (Elt F)) :=
  [ StableHlo.nullary main_c_10 (constantI S_ 32 0#32),
    StableHlo.unary main_c_10 main_v26 (broadcastInDim S49152 ![] bcast_S_S49152 : (⟨S_, .i32⟩ : BufTy).Contents (Elt F) → (⟨S49152, .i32⟩ : BufTy).Contents (Elt F)),
    StableHlo.binary main_v25 main_v26 main_v27 (cmpi .slt : (⟨S49152, .i32⟩ : BufTy).Contents (Elt F) → (⟨S49152, .i32⟩ : BufTy).Contents (Elt F) → (⟨S49152, .i1⟩ : BufTy).Contents (Elt F)),
    StableHlo.nullary main_c_11 (constantI S_ 32 16384#32),
    StableHlo.unary main_c_11 main_v28 (broadcastInDim S49152 ![] bcast_S_S49152 : (⟨S_, .i32⟩ : BufTy).Contents (Elt F) → (⟨S49152, .i32⟩ : BufTy).Contents (Elt F)),
    StableHlo.binary main_v25 main_v28 main_v29 (addi : (⟨S49152, .i32⟩ : BufTy).Contents (Elt F) → (⟨S49152, .i32⟩ : BufTy).Contents (Elt F) → (⟨S49152, .i32⟩ : BufTy).Contents (Elt F)),
    StableHlo.ternary main_v27 main_v29 main_v25 main_v30 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v30 main_v31 (broadcastInDim S49152x1 ![0] bcast_S49152_S49152x1_0 : (⟨S49152, .i32⟩ : BufTy).Contents (Elt F) → (⟨S49152x1, .i32⟩ : BufTy).Contents (Elt F)),
    StableHlo.nullary main_c_12 (constantI S_ 32 1#32),
    StableHlo.unary main_c_12 main_v32 (broadcastInDim S49152 ![] bcast_S_S49152 : (⟨S_, .i32⟩ : BufTy).Contents (Elt F) → (⟨S49152, .i32⟩ : BufTy).Contents (Elt F)),
    StableHlo.ternary main_v24 main_v31 main_v32 main_v33 ((fun x i u => Host.scatter scatter_S16384_S49152x1_S49152_n_0_0_1 IntOp.addi x i u) : (⟨S16384, .i32⟩ : BufTy).Contents (Elt F) → (⟨S49152x1, .i32⟩ : BufTy).Contents (Elt F) → (⟨S49152, .i32⟩ : BufTy).Contents (Elt F) → (⟨S16384, .i32⟩ : BufTy).Contents (Elt F)) ]
theorem tail14_sub : (tail14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- 3 operations of @cumsum_1 (main_call7), in order. -/
abbrev tail15 : List (HloOp τ sig (Elt F)) :=
  [ StableHlo.TRef.nullary (.of main_call7_call0_c : StableHlo.TRef sig ⟨S_, .i32⟩) (constantI S_ 32 0#32),
    StableHlo.TRef.unary (.of main_call7_call0_c : StableHlo.TRef sig ⟨S_, .i32⟩) (.of main_call7_call0_v0 : StableHlo.TRef sig ⟨S_, .i32⟩) (broadcastInDim S_ ![] bcast_S_S_),
    StableHlo.TRef.binary (.of main_v33 : StableHlo.TRef sig ⟨S16384, .i32⟩) (.of main_call7_call0_v0 : StableHlo.TRef sig ⟨S_, .i32⟩) (.of main_v34 : StableHlo.TRef sig ⟨S16384, .i32⟩) (fun x v => Host.reduceWindow IntOp.addi ![16384] ![1] ![16383] ![0] x v reduceWindows_S16384_S16384_w16384s1p16383_0 h_S_) ]
theorem tail15_sub : (tail15 : List (HloOp τ sig (Elt F))).Forall fun op => op.bufs ⊆ StableHlo.tcRefs τ sig :=
  ⟨StableHlo.nullary_bufs_sub .., StableHlo.unary_bufs_sub .., StableHlo.binary_bufs_sub ..⟩
/-- 1 operation of @main, in order. -/
abbrev tail16 : List (HloOp τ sig (Elt F)) :=
  [ StableHlo.nullary main_c_13 (constantI S_ 32 1#32) ]
theorem tail16_sub : (tail16 : List (HloOp τ sig (Elt F))).Forall fun op => op.bufs ⊆ StableHlo.tcRefs τ sig :=
  StableHlo.nullary_bufs_sub ..
/-- 16 operations of @floor_divide (main_call8), in order. -/
abbrev tail17 : List (HloOp τ sig (Elt F)) :=
  [ StableHlo.TRef.unary (.of main_c_13 : StableHlo.TRef sig ⟨S_, .i32⟩) (.of main_call8_v0 : StableHlo.TRef sig ⟨S16384, .i32⟩) (broadcastInDim S16384 ![] bcast_S_S16384),
    StableHlo.TRef.binary (.of main_v34 : StableHlo.TRef sig ⟨S16384, .i32⟩) (.of main_call8_v0 : StableHlo.TRef sig ⟨S16384, .i32⟩) (.of main_call8_v1 : StableHlo.TRef sig ⟨S16384, .i32⟩) Host.divsi,
    StableHlo.TRef.unary (.of main_v34 : StableHlo.TRef sig ⟨S16384, .i32⟩) (.of main_call8_v2 : StableHlo.TRef sig ⟨S16384, .i32⟩) signi,
    StableHlo.TRef.unary (.of main_c_13 : StableHlo.TRef sig ⟨S_, .i32⟩) (.of main_call8_v3 : StableHlo.TRef sig ⟨S_, .i32⟩) signi,
    StableHlo.TRef.unary (.of main_call8_v3 : StableHlo.TRef sig ⟨S_, .i32⟩) (.of main_call8_v4 : StableHlo.TRef sig ⟨S16384, .i32⟩) (broadcastInDim S16384 ![] bcast_S_S16384),
    StableHlo.TRef.binary (.of main_call8_v2 : StableHlo.TRef sig ⟨S16384, .i32⟩) (.of main_call8_v4 : StableHlo.TRef sig ⟨S16384, .i32⟩) (.of main_call8_v5 : StableHlo.TRef sig ⟨S16384, .i1⟩) (cmpi .ne),
    StableHlo.TRef.unary (.of main_c_13 : StableHlo.TRef sig ⟨S_, .i32⟩) (.of main_call8_v6 : StableHlo.TRef sig ⟨S16384, .i32⟩) (broadcastInDim S16384 ![] bcast_S_S16384),
    StableHlo.TRef.binary (.of main_v34 : StableHlo.TRef sig ⟨S16384, .i32⟩) (.of main_call8_v6 : StableHlo.TRef sig ⟨S16384, .i32⟩) (.of main_call8_v7 : StableHlo.TRef sig ⟨S16384, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v8 : StableHlo.TRef sig ⟨S16384, .i32⟩) (broadcastInDim S16384 ![] bcast_S_S16384),
    StableHlo.TRef.binary (.of main_call8_v7 : StableHlo.TRef sig ⟨S16384, .i32⟩) (.of main_call8_v8 : StableHlo.TRef sig ⟨S16384, .i32⟩) (.of main_call8_v9 : StableHlo.TRef sig ⟨S16384, .i1⟩) (cmpi .ne),
    StableHlo.TRef.binary (.of main_call8_v5 : StableHlo.TRef sig ⟨S16384, .i1⟩) (.of main_call8_v9 : StableHlo.TRef sig ⟨S16384, .i1⟩) (.of main_call8_v10 : StableHlo.TRef sig ⟨S16384, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v11 : StableHlo.TRef sig ⟨S16384, .i32⟩) (broadcastInDim S16384 ![] bcast_S_S16384),
    StableHlo.TRef.binary (.of main_call8_v1 : StableHlo.TRef sig ⟨S16384, .i32⟩) (.of main_call8_v11 : StableHlo.TRef sig ⟨S16384, .i32⟩) (.of main_call8_v12 : StableHlo.TRef sig ⟨S16384, .i32⟩) subi,
    StableHlo.TRef.ternary (.of main_call8_v10 : StableHlo.TRef sig ⟨S16384, .i1⟩) (.of main_call8_v12 : StableHlo.TRef sig ⟨S16384, .i32⟩) (.of main_call8_v1 : StableHlo.TRef sig ⟨S16384, .i32⟩) (.of main_v35 : StableHlo.TRef sig ⟨S16384, .i32⟩) select ]
theorem tail17_sub : (tail17 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 operation of @main, in order. -/
abbrev tail18 : List (HloOp τ sig (Elt F)) :=
  [ StableHlo.nullary main_c_14 (constantI S_ 32 49152#32) ]
theorem tail18_sub : (tail18 : List (HloOp τ sig (Elt F))).Forall fun op => op.bufs ⊆ StableHlo.tcRefs τ sig :=
  StableHlo.nullary_bufs_sub ..
/-- 21 operations of @remainder (main_call9), in order. -/
abbrev tail19 : List (HloOp τ sig (Elt F)) :=
  [ StableHlo.TRef.unary (.of main_c_14 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S16384, .i32⟩) (broadcastInDim S16384 ![] bcast_S_S16384),
    StableHlo.TRef.binary (.of main_v35 : StableHlo.TRef sig ⟨S16384, .i32⟩) (.of main_call9_v3 : StableHlo.TRef sig ⟨S16384, .i32⟩) (.of main_call9_v4 : StableHlo.TRef sig ⟨S16384, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S16384, .i32⟩) (broadcastInDim S16384 ![] bcast_S_S16384),
    StableHlo.TRef.binary (.of main_call9_v4 : StableHlo.TRef sig ⟨S16384, .i32⟩) (.of main_call9_v5 : StableHlo.TRef sig ⟨S16384, .i32⟩) (.of main_call9_v6 : StableHlo.TRef sig ⟨S16384, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S16384, .i32⟩) (broadcastInDim S16384 ![] bcast_S_S16384),
    StableHlo.TRef.binary (.of main_call9_v4 : StableHlo.TRef sig ⟨S16384, .i32⟩) (.of main_call9_v7 : StableHlo.TRef sig ⟨S16384, .i32⟩) (.of main_call9_v8 : StableHlo.TRef sig ⟨S16384, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S16384, .i1⟩) (broadcastInDim S16384 ![] bcast_S_S16384),
    StableHlo.TRef.binary (.of main_call9_v8 : StableHlo.TRef sig ⟨S16384, .i1⟩) (.of main_call9_v10 : StableHlo.TRef sig ⟨S16384, .i1⟩) (.of main_call9_v11 : StableHlo.TRef sig ⟨S16384, .i1⟩) (cmpi .ne),
    StableHlo.TRef.binary (.of main_call9_v11 : StableHlo.TRef sig ⟨S16384, .i1⟩) (.of main_call9_v6 : StableHlo.TRef sig ⟨S16384, .i1⟩) (.of main_call9_v12 : StableHlo.TRef sig ⟨S16384, .i1⟩) andi,
    StableHlo.TRef.unary main_call9_call0.v0 (.of main_call9_v13 : StableHlo.TRef sig ⟨S16384, .i32⟩) (broadcastInDim S16384 ![] bcast_S_S16384),
    StableHlo.TRef.binary (.of main_call9_v4 : StableHlo.TRef sig ⟨S16384, .i32⟩) (.of main_call9_v13 : StableHlo.TRef sig ⟨S16384, .i32⟩) (.of main_call9_v14 : StableHlo.TRef sig ⟨S16384, .i32⟩) addi,
    StableHlo.TRef.ternary (.of main_call9_v12 : StableHlo.TRef sig ⟨S16384, .i1⟩) (.of main_call9_v14 : StableHlo.TRef sig ⟨S16384, .i32⟩) (.of main_call9_v4 : StableHlo.TRef sig ⟨S16384, .i32⟩) (.of main_v36 : StableHlo.TRef sig ⟨S16384, .i32⟩) select ]
theorem tail19_sub : (tail19 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 3 operations of @main, in order. -/
abbrev tail20 : List (HloOp τ sig (Elt F)) :=
  [ StableHlo.nullary main_c_15 (constantI S_ 32 2#32),
    StableHlo.unary main_c_15 main_v37 (broadcastInDim S49152 ![] bcast_S_S49152 : (⟨S_, .i32⟩ : BufTy).Contents (Elt F) → (⟨S49152, .i32⟩ : BufTy).Contents (Elt F)),
    StableHlo.binary main_arg0 main_v37 main_v38 (cmpi .eq : (⟨S49152, .i32⟩ : BufTy).Contents (Elt F) → (⟨S49152, .i32⟩ : BufTy).Contents (Elt F) → (⟨S49152, .i1⟩ : BufTy).Contents (Elt F)) ]
theorem tail20_sub : (tail20 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @cumsum (main_call10), in order. -/
abbrev tail21 : List (HloOp τ sig (Elt F)) :=
  [ StableHlo.TRef.unary (.of main_v38 : StableHlo.TRef sig ⟨S49152, .i1⟩) (.of main_call10_v0 : StableHlo.TRef sig ⟨S49152, .i32⟩) (extui 32 · natLt_1_32),
    StableHlo.TRef.nullary (.of main_call10_call0_c : StableHlo.TRef sig ⟨S_, .i32⟩) (constantI S_ 32 0#32),
    StableHlo.TRef.unary (.of main_call10_call0_c : StableHlo.TRef sig ⟨S_, .i32⟩) (.of main_call10_call0_v0 : StableHlo.TRef sig ⟨S_, .i32⟩) (broadcastInDim S_ ![] bcast_S_S_),
    StableHlo.TRef.binary (.of main_call10_v0 : StableHlo.TRef sig ⟨S49152, .i32⟩) (.of main_call10_call0_v0 : StableHlo.TRef sig ⟨S_, .i32⟩) (.of main_v39 : StableHlo.TRef sig ⟨S49152, .i32⟩) (fun x v => Host.reduceWindow IntOp.addi ![49152] ![1] ![49151] ![0] x v reduceWindows_S49152_S49152_w49152s1p49151_0 h_S_) ]
theorem tail21_sub : (tail21 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
/-- 3 operations of @main, in order. -/
abbrev tail22 : List (HloOp τ sig (Elt F)) :=
  [ StableHlo.nullary main_c_16 (constantI S_ 32 0#32),
    StableHlo.unary main_c_16 main_v40 (broadcastInDim S16384 ![] bcast_S_S16384 : (⟨S_, .i32⟩ : BufTy).Contents (Elt F) → (⟨S16384, .i32⟩ : BufTy).Contents (Elt F)),
    StableHlo.nullary main_c_17 (constantI S_ 32 0#32) ]
theorem tail22_sub : (tail22 : List (HloOp τ sig (Elt F))).Forall fun op => op.bufs ⊆ StableHlo.tcRefs τ sig :=
  ⟨StableHlo.nullary_bufs_sub .., StableHlo.unary_bufs_sub .., StableHlo.nullary_bufs_sub ..⟩
/-- 3 operations of @clip (main_call11), in order. -/
abbrev tail23 : List (HloOp τ sig (Elt F)) :=
  [ StableHlo.TRef.unary (.of main_c_17 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S49152, .i32⟩) (broadcastInDim S49152 ![] bcast_S_S49152),
    StableHlo.TRef.binary (.of main_call11_v1 : StableHlo.TRef sig ⟨S49152, .i32⟩) (.of main_v39 : StableHlo.TRef sig ⟨S49152, .i32⟩) (.of main_v41 : StableHlo.TRef sig ⟨S49152, .i32⟩) maxsi ]
theorem tail23_sub : (tail23 : List (HloOp τ sig (Elt F))).Forall fun op => op.bufs ⊆ StableHlo.tcRefs τ sig :=
  ⟨StableHlo.unary_bufs_sub .., StableHlo.unary_bufs_sub .., StableHlo.binary_bufs_sub ..⟩
/-- 11 operations of @main, in order. -/
abbrev tail24 : List (HloOp τ sig (Elt F)) :=
  [ StableHlo.nullary main_c_18 (constantI S_ 32 0#32),
    StableHlo.unary main_c_18 main_v42 (broadcastInDim S49152 ![] bcast_S_S49152 : (⟨S_, .i32⟩ : BufTy).Contents (Elt F) → (⟨S49152, .i32⟩ : BufTy).Contents (Elt F)),
    StableHlo.binary main_v41 main_v42 main_v43 (cmpi .slt : (⟨S49152, .i32⟩ : BufTy).Contents (Elt F) → (⟨S49152, .i32⟩ : BufTy).Contents (Elt F) → (⟨S49152, .i1⟩ : BufTy).Contents (Elt F)),
    StableHlo.nullary main_c_19 (constantI S_ 32 16384#32),
    StableHlo.unary main_c_19 main_v44 (broadcastInDim S49152 ![] bcast_S_S49152 : (⟨S_, .i32⟩ : BufTy).Contents (Elt F) → (⟨S49152, .i32⟩ : BufTy).Contents (Elt F)),
    StableHlo.binary main_v41 main_v44 main_v45 (addi : (⟨S49152, .i32⟩ : BufTy).Contents (Elt F) → (⟨S49152, .i32⟩ : BufTy).Contents (Elt F) → (⟨S49152, .i32⟩ : BufTy).Contents (Elt F)),
    StableHlo.ternary main_v43 main_v45 main_v41 main_v46 (select : (⟨S49152, .i1⟩ : BufTy).Contents (Elt F) → (⟨S49152, .i32⟩ : BufTy).Contents (Elt F) → (⟨S49152, .i32⟩ : BufTy).Contents (Elt F) → (⟨S49152, .i32⟩ : BufTy).Contents (Elt F)),
    StableHlo.unary main_v46 main_v47 (broadcastInDim S49152x1 ![0] bcast_S49152_S49152x1_0 : (⟨S49152, .i32⟩ : BufTy).Contents (Elt F) → (⟨S49152x1, .i32⟩ : BufTy).Contents (Elt F)),
    StableHlo.nullary main_c_20 (constantI S_ 32 1#32),
    StableHlo.unary main_c_20 main_v48 (broadcastInDim S49152 ![] bcast_S_S49152 : (⟨S_, .i32⟩ : BufTy).Contents (Elt F) → (⟨S49152, .i32⟩ : BufTy).Contents (Elt F)),
    StableHlo.ternary main_v40 main_v47 main_v48 main_v49 ((fun x i u => Host.scatter scatter_S16384_S49152x1_S49152_n_0_0_1 IntOp.addi x i u) : (⟨S16384, .i32⟩ : BufTy).Contents (Elt F) → (⟨S49152x1, .i32⟩ : BufTy).Contents (Elt F) → (⟨S49152, .i32⟩ : BufTy).Contents (Elt F) → (⟨S16384, .i32⟩ : BufTy).Contents (Elt F)) ]
theorem tail24_sub : (tail24 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
/-- 3 operations of @cumsum_1 (main_call12), in order. -/
abbrev tail25 : List (HloOp τ sig (Elt F)) :=
  [ StableHlo.TRef.nullary (.of main_call12_call0_c : StableHlo.TRef sig ⟨S_, .i32⟩) (constantI S_ 32 0#32),
    StableHlo.TRef.unary (.of main_call12_call0_c : StableHlo.TRef sig ⟨S_, .i32⟩) (.of main_call12_call0_v0 : StableHlo.TRef sig ⟨S_, .i32⟩) (broadcastInDim S_ ![] bcast_S_S_),
    StableHlo.TRef.binary (.of main_v49 : StableHlo.TRef sig ⟨S16384, .i32⟩) (.of main_call12_call0_v0 : StableHlo.TRef sig ⟨S_, .i32⟩) (.of main_v50 : StableHlo.TRef sig ⟨S16384, .i32⟩) (fun x v => Host.reduceWindow IntOp.addi ![16384] ![1] ![16383] ![0] x v reduceWindows_S16384_S16384_w16384s1p16383_0 h_S_) ]
theorem tail25_sub : (tail25 : List (HloOp τ sig (Elt F))).Forall fun op => op.bufs ⊆ StableHlo.tcRefs τ sig :=
  ⟨StableHlo.nullary_bufs_sub .., StableHlo.unary_bufs_sub .., StableHlo.binary_bufs_sub ..⟩
/-- 1 operation of @main, in order. -/
abbrev tail26 : List (HloOp τ sig (Elt F)) :=
  [ StableHlo.nullary main_c_21 (constantI S_ 32 1#32) ]
theorem tail26_sub : (tail26 : List (HloOp τ sig (Elt F))).Forall fun op => op.bufs ⊆ StableHlo.tcRefs τ sig :=
  StableHlo.nullary_bufs_sub ..
/-- 16 operations of @floor_divide (main_call13), in order. -/
abbrev tail27 : List (HloOp τ sig (Elt F)) :=
  [ StableHlo.TRef.unary (.of main_c_21 : StableHlo.TRef sig ⟨S_, .i32⟩) (.of main_call13_v0 : StableHlo.TRef sig ⟨S16384, .i32⟩) (broadcastInDim S16384 ![] bcast_S_S16384),
    StableHlo.TRef.binary (.of main_v50 : StableHlo.TRef sig ⟨S16384, .i32⟩) (.of main_call13_v0 : StableHlo.TRef sig ⟨S16384, .i32⟩) (.of main_call13_v1 : StableHlo.TRef sig ⟨S16384, .i32⟩) Host.divsi,
    StableHlo.TRef.unary (.of main_v50 : StableHlo.TRef sig ⟨S16384, .i32⟩) (.of main_call13_v2 : StableHlo.TRef sig ⟨S16384, .i32⟩) signi,
    StableHlo.TRef.unary (.of main_c_21 : StableHlo.TRef sig ⟨S_, .i32⟩) (.of main_call13_v3 : StableHlo.TRef sig ⟨S_, .i32⟩) signi,
    StableHlo.TRef.unary (.of main_call13_v3 : StableHlo.TRef sig ⟨S_, .i32⟩) (.of main_call13_v4 : StableHlo.TRef sig ⟨S16384, .i32⟩) (broadcastInDim S16384 ![] bcast_S_S16384),
    StableHlo.TRef.binary (.of main_call13_v2 : StableHlo.TRef sig ⟨S16384, .i32⟩) (.of main_call13_v4 : StableHlo.TRef sig ⟨S16384, .i32⟩) (.of main_call13_v5 : StableHlo.TRef sig ⟨S16384, .i1⟩) (cmpi .ne),
    StableHlo.TRef.unary (.of main_c_21 : StableHlo.TRef sig ⟨S_, .i32⟩) (.of main_call13_v6 : StableHlo.TRef sig ⟨S16384, .i32⟩) (broadcastInDim S16384 ![] bcast_S_S16384),
    StableHlo.TRef.binary (.of main_v50 : StableHlo.TRef sig ⟨S16384, .i32⟩) (.of main_call13_v6 : StableHlo.TRef sig ⟨S16384, .i32⟩) (.of main_call13_v7 : StableHlo.TRef sig ⟨S16384, .i32⟩) Host.remsi,
    StableHlo.TRef.nullary (.of main_call13_c : StableHlo.TRef sig ⟨S_, .i32⟩) (constantI S_ 32 0#32),
    StableHlo.TRef.unary (.of main_call13_c : StableHlo.TRef sig ⟨S_, .i32⟩) (.of main_call13_v8 : StableHlo.TRef sig ⟨S16384, .i32⟩) (broadcastInDim S16384 ![] bcast_S_S16384),
    StableHlo.TRef.binary (.of main_call13_v7 : StableHlo.TRef sig ⟨S16384, .i32⟩) (.of main_call13_v8 : StableHlo.TRef sig ⟨S16384, .i32⟩) (.of main_call13_v9 : StableHlo.TRef sig ⟨S16384, .i1⟩) (cmpi .ne),
    StableHlo.TRef.binary (.of main_call13_v5 : StableHlo.TRef sig ⟨S16384, .i1⟩) (.of main_call13_v9 : StableHlo.TRef sig ⟨S16384, .i1⟩) (.of main_call13_v10 : StableHlo.TRef sig ⟨S16384, .i1⟩) andi,
    StableHlo.TRef.nullary (.of main_call13_c_0 : StableHlo.TRef sig ⟨S_, .i32⟩) (constantI S_ 32 1#32),
    StableHlo.TRef.unary (.of main_call13_c_0 : StableHlo.TRef sig ⟨S_, .i32⟩) (.of main_call13_v11 : StableHlo.TRef sig ⟨S16384, .i32⟩) (broadcastInDim S16384 ![] bcast_S_S16384),
    StableHlo.TRef.binary (.of main_call13_v1 : StableHlo.TRef sig ⟨S16384, .i32⟩) (.of main_call13_v11 : StableHlo.TRef sig ⟨S16384, .i32⟩) (.of main_call13_v12 : StableHlo.TRef sig ⟨S16384, .i32⟩) subi,
    StableHlo.TRef.ternary (.of main_call13_v10 : StableHlo.TRef sig ⟨S16384, .i1⟩) (.of main_call13_v12 : StableHlo.TRef sig ⟨S16384, .i32⟩) (.of main_call13_v1 : StableHlo.TRef sig ⟨S16384, .i32⟩) (.of main_v51 : StableHlo.TRef sig ⟨S16384, .i32⟩) select ]
theorem tail27_sub : (tail27 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 operation of @main, in order. -/
abbrev tail28 : List (HloOp τ sig (Elt F)) :=
  [ StableHlo.nullary main_c_22 (constantI S_ 32 49152#32) ]
theorem tail28_sub : (tail28 : List (HloOp τ sig (Elt F))).Forall fun op => op.bufs ⊆ StableHlo.tcRefs τ sig :=
  StableHlo.nullary_bufs_sub ..
/-- 21 operations of @remainder (main_call14), in order. -/
abbrev tail29 : List (HloOp τ sig (Elt F)) :=
  [ StableHlo.TRef.unary (.of main_c_22 : StableHlo.TRef sig ⟨S_, .i32⟩) (.of main_call14_v0 : StableHlo.TRef sig ⟨S_, .i32⟩) id,
    StableHlo.TRef.nullary (.of main_call14_c : StableHlo.TRef sig ⟨S_, .i32⟩) (constantI S_ 32 0#32),
    StableHlo.TRef.binary (.of main_call14_v0 : StableHlo.TRef sig ⟨S_, .i32⟩) (.of main_call14_c : StableHlo.TRef sig ⟨S_, .i32⟩) (.of main_call14_v1 : StableHlo.TRef sig ⟨S_, .i1⟩) (cmpi .eq),
    StableHlo.TRef.nullary (.of main_call14_c_0 : StableHlo.TRef sig ⟨S_, .i32⟩) (constantI S_ 32 1#32),
    StableHlo.TRef.ternary (.of main_call14_v1 : StableHlo.TRef sig ⟨S_, .i1⟩) (.of main_call14_c_0 : StableHlo.TRef sig ⟨S_, .i32⟩) (.of main_call14_v0 : StableHlo.TRef sig ⟨S_, .i32⟩) (.of main_call14_v2 : StableHlo.TRef sig ⟨S_, .i32⟩) select,
    StableHlo.TRef.unary main_call14_call0.v0 (.of main_call14_v3 : StableHlo.TRef sig ⟨S16384, .i32⟩) (broadcastInDim S16384 ![] bcast_S_S16384),
    StableHlo.TRef.binary (.of main_v51 : StableHlo.TRef sig ⟨S16384, .i32⟩) (.of main_call14_v3 : StableHlo.TRef sig ⟨S16384, .i32⟩) (.of main_call14_v4 : StableHlo.TRef sig ⟨S16384, .i32⟩) Host.remsi,
    StableHlo.TRef.nullary (.of main_call14_c_1 : StableHlo.TRef sig ⟨S_, .i32⟩) (constantI S_ 32 0#32),
    StableHlo.TRef.unary (.of main_call14_c_1 : StableHlo.TRef sig ⟨S_, .i32⟩) (.of main_call14_v5 : StableHlo.TRef sig ⟨S16384, .i32⟩) (broadcastInDim S16384 ![] bcast_S_S16384),
    StableHlo.TRef.binary (.of main_call14_v4 : StableHlo.TRef sig ⟨S16384, .i32⟩) (.of main_call14_v5 : StableHlo.TRef sig ⟨S16384, .i32⟩) (.of main_call14_v6 : StableHlo.TRef sig ⟨S16384, .i1⟩) (cmpi .ne),
    StableHlo.TRef.nullary (.of main_call14_c_2 : StableHlo.TRef sig ⟨S_, .i32⟩) (constantI S_ 32 0#32),
    StableHlo.TRef.unary (.of main_call14_c_2 : StableHlo.TRef sig ⟨S_, .i32⟩) (.of main_call14_v7 : StableHlo.TRef sig ⟨S16384, .i32⟩) (broadcastInDim S16384 ![] bcast_S_S16384),
    StableHlo.TRef.binary (.of main_call14_v4 : StableHlo.TRef sig ⟨S16384, .i32⟩) (.of main_call14_v7 : StableHlo.TRef sig ⟨S16384, .i32⟩) (.of main_call14_v8 : StableHlo.TRef sig ⟨S16384, .i1⟩) (cmpi .slt),
    StableHlo.TRef.nullary (.of main_call14_c_3 : StableHlo.TRef sig ⟨S_, .i32⟩) (constantI S_ 32 0#32),
    StableHlo.TRef.binary main_call14_call0.v0 (.of main_call14_c_3 : StableHlo.TRef sig ⟨S_, .i32⟩) (.of main_call14_v9 : StableHlo.TRef sig ⟨S_, .i1⟩) (cmpi .slt),
    StableHlo.TRef.unary (.of main_call14_v9 : StableHlo.TRef sig ⟨S_, .i1⟩) (.of main_call14_v10 : StableHlo.TRef sig ⟨S16384, .i1⟩) (broadcastInDim S16384 ![] bcast_S_S16384),
    StableHlo.TRef.binary (.of main_call14_v8 : StableHlo.TRef sig ⟨S16384, .i1⟩) (.of main_call14_v10 : StableHlo.TRef sig ⟨S16384, .i1⟩) (.of main_call14_v11 : StableHlo.TRef sig ⟨S16384, .i1⟩) (cmpi .ne),
    StableHlo.TRef.binary (.of main_call14_v11 : StableHlo.TRef sig ⟨S16384, .i1⟩) (.of main_call14_v6 : StableHlo.TRef sig ⟨S16384, .i1⟩) (.of main_call14_v12 : StableHlo.TRef sig ⟨S16384, .i1⟩) andi,
    StableHlo.TRef.unary main_call14_call0.v0 (.of main_call14_v13 : StableHlo.TRef sig ⟨S16384, .i32⟩) (broadcastInDim S16384 ![] bcast_S_S16384),
    StableHlo.TRef.binary (.of main_call14_v4 : StableHlo.TRef sig ⟨S16384, .i32⟩) (.of main_call14_v13 : StableHlo.TRef sig ⟨S16384, .i32⟩) (.of main_call14_v14 : StableHlo.TRef sig ⟨S16384, .i32⟩) addi,
    StableHlo.TRef.ternary (.of main_call14_v12 : StableHlo.TRef sig ⟨S16384, .i1⟩) (.of main_call14_v14 : StableHlo.TRef sig ⟨S16384, .i32⟩) (.of main_call14_v4 : StableHlo.TRef sig ⟨S16384, .i32⟩) (.of main_v52 : StableHlo.TRef sig ⟨S16384, .i32⟩) select ]
theorem tail29_sub : (tail29 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 31 operations of @main, in order. -/
abbrev tail30 : List (HloOp τ sig (Elt F)) :=
  [ StableHlo.nullary main_c_23 (constantI S_ 32 0#32),
    StableHlo.unary main_c_23 main_v53 (broadcastInDim S16384 ![] bcast_S_S16384 : (⟨S_, .i32⟩ : BufTy).Contents (Elt F) → (⟨S16384, .i32⟩ : BufTy).Contents (Elt F)),
    StableHlo.binary main_v20 main_v53 main_v54 (cmpi .slt : (⟨S16384, .i32⟩ : BufTy).Contents (Elt F) → (⟨S16384, .i32⟩ : BufTy).Contents (Elt F) → (⟨S16384, .i1⟩ : BufTy).Contents (Elt F)),
    StableHlo.nullary main_c_24 (constantI S_ 32 49152#32),
    StableHlo.unary main_c_24 main_v55 (broadcastInDim S16384 ![] bcast_S_S16384 : (⟨S_, .i32⟩ : BufTy).Contents (Elt F) → (⟨S16384, .i32⟩ : BufTy).Contents (Elt F)),
    StableHlo.binary main_v20 main_v55 main_v56 (addi : (⟨S16384, .i32⟩ : BufTy).Contents (Elt F) → (⟨S16384, .i32⟩ : BufTy).Contents (Elt F) → (⟨S16384, .i32⟩ : BufTy).Contents (Elt F)),
    StableHlo.ternary main_v54 main_v56 main_v20 main_v57 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v57 main_v58 (broadcastInDim S16384x1 ![0] bcast_S16384_S16384x1_0 : (⟨S16384, .i32⟩ : BufTy).Contents (Elt F) → (⟨S16384x1, .i32⟩ : BufTy).Contents (Elt F)),
    StableHlo.binary main_v4 main_v58 main_v59 ((fun x i => Host.gather gather_S49152_S16384x1_S16384_n_0_n_n_0_1_1 x i) : (⟨S49152, .f32⟩ : BufTy).Contents (Elt F) → (⟨S16384x1, .i32⟩ : BufTy).Contents (Elt F) → (⟨S16384, .f32⟩ : BufTy).Contents (Elt F)),
    StableHlo.nullary main_c_25 (constantI S_ 32 0#32),
    StableHlo.unary main_c_25 main_v60 (broadcastInDim S16384 ![] bcast_S_S16384 : (⟨S_, .i32⟩ : BufTy).Contents (Elt F) → (⟨S16384, .i32⟩ : BufTy).Contents (Elt F)),
    StableHlo.binary main_v36 main_v60 main_v61 (cmpi .slt : (⟨S16384, .i32⟩ : BufTy).Contents (Elt F) → (⟨S16384, .i32⟩ : BufTy).Contents (Elt F) → (⟨S16384, .i1⟩ : BufTy).Contents (Elt F)),
    StableHlo.nullary main_c_26 (constantI S_ 32 49152#32),
    StableHlo.unary main_c_26 main_v62 (broadcastInDim S16384 ![] bcast_S_S16384 : (⟨S_, .i32⟩ : BufTy).Contents (Elt F) → (⟨S16384, .i32⟩ : BufTy).Contents (Elt F)),
    StableHlo.binary main_v36 main_v62 main_v63 (addi : (⟨S16384, .i32⟩ : BufTy).Contents (Elt F) → (⟨S16384, .i32⟩ : BufTy).Contents (Elt F) → (⟨S16384, .i32⟩ : BufTy).Contents (Elt F)),
    StableHlo.ternary main_v61 main_v63 main_v36 main_v64 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v64 main_v65 (broadcastInDim S16384x1 ![0] bcast_S16384_S16384x1_0 : (⟨S16384, .i32⟩ : BufTy).Contents (Elt F) → (⟨S16384x1, .i32⟩ : BufTy).Contents (Elt F)),
    StableHlo.binary main_v4 main_v65 main_v66 ((fun x i => Host.gather gather_S49152_S16384x1_S16384_n_0_n_n_0_1_1 x i) : (⟨S49152, .f32⟩ : BufTy).Contents (Elt F) → (⟨S16384x1, .i32⟩ : BufTy).Contents (Elt F) → (⟨S16384, .f32⟩ : BufTy).Contents (Elt F)),
    StableHlo.nullary main_c_27 (constantI S_ 32 0#32),
    StableHlo.unary main_c_27 main_v67 (broadcastInDim S16384 ![] bcast_S_S16384 : (⟨S_, .i32⟩ : BufTy).Contents (Elt F) → (⟨S16384, .i32⟩ : BufTy).Contents (Elt F)),
    StableHlo.binary main_v52 main_v67 main_v68 (cmpi .slt : (⟨S16384, .i32⟩ : BufTy).Contents (Elt F) → (⟨S16384, .i32⟩ : BufTy).Contents (Elt F) → (⟨S16384, .i1⟩ : BufTy).Contents (Elt F)),
    StableHlo.nullary main_c_28 (constantI S_ 32 49152#32),
    StableHlo.unary main_c_28 main_v69 (broadcastInDim S16384 ![] bcast_S_S16384 : (⟨S_, .i32⟩ : BufTy).Contents (Elt F) → (⟨S16384, .i32⟩ : BufTy).Contents (Elt F)),
    StableHlo.binary main_v52 main_v69 main_v70 (addi : (⟨S16384, .i32⟩ : BufTy).Contents (Elt F) → (⟨S16384, .i32⟩ : BufTy).Contents (Elt F) → (⟨S16384, .i32⟩ : BufTy).Contents (Elt F)),
    StableHlo.ternary main_v68 main_v70 main_v52 main_v71 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v71 main_v72 (broadcastInDim S16384x1 ![0] bcast_S16384_S16384x1_0 : (⟨S16384, .i32⟩ : BufTy).Contents (Elt F) → (⟨S16384x1, .i32⟩ : BufTy).Contents (Elt F)),
    StableHlo.binary main_v4 main_v72 main_v73 ((fun x i => Host.gather gather_S49152_S16384x1_S16384_n_0_n_n_0_1_1 x i) : (⟨S49152, .f32⟩ : BufTy).Contents (Elt F) → (⟨S16384x1, .i32⟩ : BufTy).Contents (Elt F) → (⟨S16384, .f32⟩ : BufTy).Contents (Elt F)),
    StableHlo.binary main_v59 main_v66 main_v74 (subf : (⟨S16384, .f32⟩ : BufTy).Contents (Elt F) → (⟨S16384, .f32⟩ : BufTy).Contents (Elt F) → (⟨S16384, .f32⟩ : BufTy).Contents (Elt F)),
    StableHlo.nullary main_cst_29 (constant S_ .f32 0x3F000000#32),
    StableHlo.unary main_cst_29 main_v75 (broadcastInDim S16384 ![] bcast_S_S16384 : (⟨S_, .f32⟩ : BufTy).Contents (Elt F) → (⟨S16384, .f32⟩ : BufTy).Contents (Elt F)),
    StableHlo.binary main_v74 main_v75 main_v76 (addf : (⟨S16384, .f32⟩ : BufTy).Contents (Elt F) → (⟨S16384, .f32⟩ : BufTy).Contents (Elt F) → (⟨S16384, .f32⟩ : BufTy).Contents (Elt F)) ]
theorem tail30_sub : (tail30 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub ..⟩
/-- 3 operations of @relu (main_call15), in order. -/
abbrev tail31 : List (HloOp τ sig (Elt F)) :=
  [ StableHlo.TRef.nullary (.of main_call15_cst : StableHlo.TRef sig ⟨S_, .f32⟩) (constant S_ .f32 0x00000000#32),
    StableHlo.TRef.unary (.of main_call15_cst : StableHlo.TRef sig ⟨S_, .f32⟩) (.of main_call15_v0 : StableHlo.TRef sig ⟨S16384, .f32⟩) (broadcastInDim S16384 ![] bcast_S_S16384),
    StableHlo.TRef.binary (.of main_v76 : StableHlo.TRef sig ⟨S16384, .f32⟩) (.of main_call15_v0 : StableHlo.TRef sig ⟨S16384, .f32⟩) (.of main_v77 : StableHlo.TRef sig ⟨S16384, .f32⟩) maximumf ]
theorem tail31_sub : (tail31 : List (HloOp τ sig (Elt F))).Forall fun op => op.bufs ⊆ StableHlo.tcRefs τ sig :=
  ⟨StableHlo.nullary_bufs_sub .., StableHlo.unary_bufs_sub .., StableHlo.binary_bufs_sub ..⟩
/-- 4 operations of @main, in order. -/
abbrev tail32 : List (HloOp τ sig (Elt F)) :=
  [ StableHlo.binary main_v66 main_v73 main_v78 (subf : (⟨S16384, .f32⟩ : BufTy).Contents (Elt F) → (⟨S16384, .f32⟩ : BufTy).Contents (Elt F) → (⟨S16384, .f32⟩ : BufTy).Contents (Elt F)),
    StableHlo.nullary main_cst_30 (constant S_ .f32 0x3F000000#32),
    StableHlo.unary main_cst_30 main_v79 (broadcastInDim S16384 ![] bcast_S_S16384 : (⟨S_, .f32⟩ : BufTy).Contents (Elt F) → (⟨S16384, .f32⟩ : BufTy).Contents (Elt F)),
    StableHlo.binary main_v78 main_v79 main_v80 (addf : (⟨S16384, .f32⟩ : BufTy).Contents (Elt F) → (⟨S16384, .f32⟩ : BufTy).Contents (Elt F) → (⟨S16384, .f32⟩ : BufTy).Contents (Elt F)) ]
theorem tail32_sub : (tail32 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub ..⟩
/-- 3 operations of @relu (main_call16), in order. -/
abbrev tail33 : List (HloOp τ sig (Elt F)) :=
  [ StableHlo.TRef.nullary (.of main_call16_cst : StableHlo.TRef sig ⟨S_, .f32⟩) (constant S_ .f32 0x00000000#32),
    StableHlo.TRef.unary (.of main_call16_cst : StableHlo.TRef sig ⟨S_, .f32⟩) (.of main_call16_v0 : StableHlo.TRef sig ⟨S16384, .f32⟩) (broadcastInDim S16384 ![] bcast_S_S16384),
    StableHlo.TRef.binary (.of main_v80 : StableHlo.TRef sig ⟨S16384, .f32⟩) (.of main_call16_v0 : StableHlo.TRef sig ⟨S16384, .f32⟩) (.of main_v81 : StableHlo.TRef sig ⟨S16384, .f32⟩) maximumf ]
theorem tail33_sub : (tail33 : List (HloOp τ sig (Elt F))).Forall fun op => op.bufs ⊆ StableHlo.tcRefs τ sig :=
  ⟨StableHlo.nullary_bufs_sub .., StableHlo.unary_bufs_sub .., StableHlo.binary_bufs_sub ..⟩
/-- 5 operations of @main, in order. -/
abbrev tail34 : List (HloOp τ sig (Elt F)) :=
  [ StableHlo.binary main_v77 main_v81 main_v82 (addf : (⟨S16384, .f32⟩ : BufTy).Contents (Elt F) → (⟨S16384, .f32⟩ : BufTy).Contents (Elt F) → (⟨S16384, .f32⟩ : BufTy).Contents (Elt F)),
    StableHlo.binary main_v59 main_v73 main_v83 (subf : (⟨S16384, .f32⟩ : BufTy).Contents (Elt F) → (⟨S16384, .f32⟩ : BufTy).Contents (Elt F) → (⟨S16384, .f32⟩ : BufTy).Contents (Elt F)),
    StableHlo.nullary main_cst_31 (constant S_ .f32 0x3F800000#32),
    StableHlo.unary main_cst_31 main_v84 (broadcastInDim S16384 ![] bcast_S_S16384 : (⟨S_, .f32⟩ : BufTy).Contents (Elt F) → (⟨S16384, .f32⟩ : BufTy).Contents (Elt F)),
    StableHlo.binary main_v83 main_v84 main_v85 (addf : (⟨S16384, .f32⟩ : BufTy).Contents (Elt F) → (⟨S16384, .f32⟩ : BufTy).Contents (Elt F) → (⟨S16384, .f32⟩ : BufTy).Contents (Elt F)) ]
theorem tail34_sub : (tail34 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub ..⟩
/-- 3 operations of @relu (main_call17), in order. -/
abbrev tail35 : List (HloOp τ sig (Elt F)) :=
  [ StableHlo.TRef.nullary (.of main_call17_cst : StableHlo.TRef sig ⟨S_, .f32⟩) (constant S_ .f32 0x00000000#32),
    StableHlo.TRef.unary (.of main_call17_cst : StableHlo.TRef sig ⟨S_, .f32⟩) (.of main_call17_v0 : StableHlo.TRef sig ⟨S16384, .f32⟩) (broadcastInDim S16384 ![] bcast_S_S16384),
    StableHlo.TRef.binary (.of main_v85 : StableHlo.TRef sig ⟨S16384, .f32⟩) (.of main_call17_v0 : StableHlo.TRef sig ⟨S16384, .f32⟩) (.of main_v86 : StableHlo.TRef sig ⟨S16384, .f32⟩) maximumf ]
theorem tail35_sub : (tail35 : List (HloOp τ sig (Elt F))).Forall fun op => op.bufs ⊆ StableHlo.tcRefs τ sig :=
  ⟨StableHlo.nullary_bufs_sub .., StableHlo.unary_bufs_sub .., StableHlo.binary_bufs_sub ..⟩
/-- 5 operations of @main, in order. -/
abbrev tail36 : List (HloOp τ sig (Elt F)) :=
  [ StableHlo.binary main_v82 main_v86 main_v87 (addf : (⟨S16384, .f32⟩ : BufTy).Contents (Elt F) → (⟨S16384, .f32⟩ : BufTy).Contents (Elt F) → (⟨S16384, .f32⟩ : BufTy).Contents (Elt F)),
    StableHlo.nullary main_cst_32 (constant S_ .f32 0x00000000#32),
    StableHlo.binary main_v87 main_cst_32 main_v88 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    StableHlo.nullary main_cst_33 (constant S_ .f32 0x46800000#32),
    StableHlo.binary main_v88 main_cst_33 main_v89 (Host.divf : (⟨S_, .f32⟩ : BufTy).Contents (Elt F) → (⟨S_, .f32⟩ : BufTy).Contents (Elt F) → (⟨S_, .f32⟩ : BufTy).Contents (Elt F)) ]
theorem tail36_sub : (tail36 : List (HloOp τ sig (Elt F))).Forall fun op => op.bufs ⊆ StableHlo.tcRefs τ sig :=
  ⟨StableHlo.binary_bufs_sub .., StableHlo.nullary_bufs_sub .., StableHlo.binary_bufs_sub .., StableHlo.nullary_bufs_sub .., StableHlo.binary_bufs_sub ..⟩
/-- Every operation of @main after the first six, in order: 252 operations, the called functions' bodies inlined. -/
abbrev opsTail : List (HloOp τ sig (Elt F)) :=
  List.flatten [tail0, tail1, tail2, tail3, tail4, tail5, tail6, tail7, tail8, tail9, tail10, tail11, tail12, tail13, tail14, tail15, tail16, tail17, tail18, tail19, tail20, tail21, tail22, tail23, tail24, tail25, tail26, tail27, tail28, tail29, tail30, tail31, tail32, tail33, tail34, tail35, tail36]

end Cert.ReferenceIdeal.RefRun

end
-- ==== Proof.RefRun.lean ====
import proofs.«125947_j52733608460723_1_alg».proof.Proof.RefOps
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem

/-! ## Lines of operations run one after the other

A chain of straight lines is the straight line of their concatenation; a property of every operation of every
piece is a property of every operation of the concatenation. -/

section Lines

variable {n : Nat} {T : Topo} {sg : RefSig} {Val : EltTy → Type} {L : Labels}

/-- The chain of the lines `ls`, each run as one line, is the one line of all their operations in order. -/
theorem chain_map_seq (ls : List (List (HloOp T sg Val))) :
    (Pipeline.chain (ls.map StableHlo.seq) : Prog (TpuEff n T sg Val L .tc) PUnit) = StableHlo.seq ls.flatten := by
  induction ls with
  | nil => rfl
  | cons l ls ih => simp only [List.map_cons, Pipeline.chain_cons, List.flatten_cons, StableHlo.seq_append, ih]

/-- The same for a chain that ends in the line `q` instead of the closing return. -/
theorem chainK_map_seq (ls : List (List (HloOp T sg Val))) (q : List (HloOp T sg Val)) :
    (Pipeline.chainK (ls.map StableHlo.seq) (StableHlo.seq q) : Prog (TpuEff n T sg Val L .tc) PUnit)
      = StableHlo.seq (ls.flatten ++ q) := by
  induction ls with
  | nil => rfl
  | cons l ls ih =>
    simp only [List.map_cons, Pipeline.chainK, List.flatten_cons, List.append_assoc, StableHlo.seq_append, ih]

/-- What holds of every operation of every piece holds of every operation of their concatenation. -/
theorem forall_flatten {α : Type} {p : α → Prop} :
    ∀ ls : List (List α), (ls.Forall fun l => l.Forall p) → ls.flatten.Forall p
  | [], _ => trivial
  | l :: ls, h => by
    rw [List.forall_cons] at h
    rw [List.flatten_cons, List.forall_append]
    exact ⟨h.1, forall_flatten ls h.2⟩

/-- A list cut in two and followed by `r` is the list followed by `r`. -/
theorem take_append_drop_append {α : Type} (k : Nat) (l r : List α) : l.take k ++ (l.drop k ++ r) = l ++ r := by
  rw [← List.append_assoc, List.take_append_drop]

end Lines

open Cert.ReferenceIdeal Cert.ReferenceIdeal.Gen

variable {F : FTy → Type} [FloatOps F]

/-! ## @main is the line of its operations

@main is printed in three windows. Each window is, by unfolding (the called functions' definitions at their calls,
the records at their fields), the chain of the pieces it covers: the first ends after the second operation of
`tail22`, the second after `tail34`. -/

/-- Window 0 (statements 1 … 60): the first six operations, `tail0` … `tail21`, and the first two operations of `tail22`. -/
theorem main_part0_chain (d : Dev nD) : main_part0 (F := F) d = (Pipeline.chainK
    (List.map StableHlo.seq [opsPre, tail0, tail1, tail2, tail3, tail4, tail5, tail6, tail7, tail8, tail9, tail10, tail11, tail12,
      tail13, tail14, tail15, tail16, tail17, tail18, tail19, tail20, tail21])
    (StableHlo.seq (tail22.take 2)) : Prog (TpuEff nD τ sig (Elt F) (Pipeline.Sig Λ₀ (Fin 0) fun p => (pcfgs (F := F) p).Adm) .tc) PUnit) := by
  chain_rfl

/-- Window 1 (statements 61 … 120): the last operation of `tail22`, `tail23` … `tail34`. -/
theorem main_part1_chain (d : Dev nD) : main_part1 (F := F) d = (Pipeline.chainK
    (List.map StableHlo.seq [tail22.drop 2, tail23, tail24, tail25, tail26, tail27, tail28, tail29, tail30, tail31, tail32,
      tail33])
    (StableHlo.seq tail34) : Prog (TpuEff nD τ sig (Elt F) (Pipeline.Sig Λ₀ (Fin 0) fun p => (pcfgs (F := F) p).Adm) .tc) PUnit) := by
  chain_rfl

/-- Window 2 (statements 121 … 127): `tail35`, `tail36` and the return. -/
theorem main_part2_chain (d : Dev nD) : main_part2 (F := F) d = (Pipeline.chain
    (List.map StableHlo.seq [tail35, tail36]) : Prog (TpuEff nD τ sig (Elt F) (Pipeline.Sig Λ₀ (Fin 0) fun p => (pcfgs (F := F) p).Adm) .tc) PUnit) := by
  chain_rfl

/-- The three windows' operations, in order, are the first six followed by `opsTail`: the two halves of `tail22`
    rejoined, the concatenations reassociated. -/
theorem windows_eq :
    (([opsPre, tail0, tail1, tail2, tail3, tail4, tail5, tail6, tail7, tail8, tail9, tail10, tail11, tail12,
        tail13, tail14, tail15, tail16, tail17, tail18, tail19, tail20, tail21] : List (List (HloOp τ sig (Elt F)))).flatten ++ tail22.take 2)
      ++ ((([tail22.drop 2, tail23, tail24, tail25, tail26, tail27, tail28, tail29, tail30, tail31, tail32,
        tail33] : List (List (HloOp τ sig (Elt F)))).flatten ++ tail34)
        ++ ([tail35, tail36] : List (List (HloOp τ sig (Elt F)))).flatten)
      = opsPre ++ opsTail := by
  simp only [opsTail, List.flatten_cons, List.flatten_nil, List.append_nil, List.append_assoc, take_append_drop_append]

/-- @main is the straight line of its 258 operations: the first six, then `opsTail`. -/
theorem main_eq (d : Dev nD) : main (F := F) d = StableHlo.seq (opsPre ++ opsTail) := by
  show (main_part0 (F := F) d >>= fun _ => main_part1 (F := F) d >>= fun _ => main_part2 (F := F) d) = _
  rw [main_part0_chain, main_part1_chain, main_part2_chain, chainK_map_seq, chainK_map_seq, chain_map_seq,
    ← StableHlo.seq_append, ← StableHlo.seq_append, windows_eq]

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (opsPre ++ opsTail : List (HloOp τ sig (Elt F))).Forall fun op => op.bufs ⊆ StableHlo.tcRefs τ sig :=
  List.forall_append.mpr ⟨opsPre_sub, forall_flatten _
    ⟨tail0_sub, tail1_sub, tail2_sub, tail3_sub, tail4_sub, tail5_sub, tail6_sub, tail7_sub, tail8_sub,
      tail9_sub, tail10_sub, tail11_sub, tail12_sub, tail13_sub, tail14_sub, tail15_sub, tail16_sub,
      tail17_sub, tail18_sub, tail19_sub, tail20_sub, tail21_sub, tail22_sub, tail23_sub, tail24_sub,
      tail25_sub, tail26_sub, tail27_sub, tail28_sub, tail29_sub, tail30_sub, tail31_sub, tail32_sub,
      tail33_sub, tail34_sub, tail35_sub, tail36_sub⟩⟩

/-- No operation leaves a result undetermined (none allocates an uninitialised buffer): each builder's set of such
    buffers is empty by definition. -/
theorem ops_fresh : ∀ op ∈ (opsPre ++ opsTail : List (HloOp τ sig (Elt F))), op.fresh = ∅ := by
  have h : ([opsPre, tail0, tail1, tail2, tail3, tail4, tail5, tail6, tail7, tail8, tail9, tail10, tail11, tail12,
      tail13, tail14, tail15, tail16, tail17, tail18, tail19, tail20, tail21, tail22, tail23, tail24,
      tail25, tail26, tail27, tail28, tail29, tail30, tail31, tail32, tail33, tail34, tail35, tail36] : List (List (HloOp τ sig (Elt F)))).Forall
      fun l => l.Forall fun op => op.fresh = ∅ := by
    simp only [List.Forall]; repeat' constructor
  exact List.forall_iff_forall_mem.mp (forall_flatten _ h)

/-- On every device, for any float values, from any memory with zero counters: every weakly fair execution of @main
    terminates, and every final state has each TensorCore buffer at the operations' fold over the launch contents. -/
theorem run (m : (ℓ : Loc nD τ sig) → Buf (Elt F) ℓ) (ρ : Dev nD → PrngReg) :
    θ_run (defs (F := F)) (onTc (τ := τ) (main (F := F))) ⟨m, fun _ => 0, ρ⟩ fun r => ∀ (d : Dev nD) (b : Ref sig .tc),
      r.2.mem ((d.tc : Thread nD τ).loc b)
        = StableHlo.after (opsPre ++ opsTail) (StableHlo.launchContents m d) (Proc.devRef .tc b) :=
  StableHlo.run_seq scopedRefs_eq scopedSems_eq defs main (fun _ => opsPre ++ opsTail) main_eq (fun _ => ops_sub) m ρ
    (fun _ => ops_fresh)

/-! ## The arguments are kept -/

/-- Splits a claim about every operation of literal lists into one claim per operation, reads off what each builder writes
    (its result buffer), and tells that buffer from the given reference by deciding the two references differ. -/
local macro "keeps" : tactic => `(tactic| (
  simp only [List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))

/-- No operation writes `main_arg0`: each writes its own result buffer only, a different reference. -/
theorem kept_arg0 (V : Valuation τ sig (Elt F)) :
    StableHlo.after (opsPre ++ opsTail) V (Proc.devRef .tc main_arg0) = V (Proc.devRef .tc main_arg0) :=
  StableHlo.after_of_forall_not_mem (b := Proc.devRef .tc main_arg0) _ _ (List.forall_iff_forall_mem.mp
    (List.forall_append.mpr ⟨by keeps, forall_flatten _ (by keeps)⟩))

/-- No operation writes `main_arg1`: each writes its own result buffer only, a different reference. -/
theorem kept_arg1 (V : Valuation τ sig (Elt F)) :
    StableHlo.after (opsPre ++ opsTail) V (Proc.devRef .tc main_arg1) = V (Proc.devRef .tc main_arg1) :=
  StableHlo.after_of_forall_not_mem (b := Proc.devRef .tc main_arg1) _ _ (List.forall_iff_forall_mem.mp
    (List.forall_append.mpr ⟨by keeps, forall_flatten _ (by keeps)⟩))

/-- No operation writes `main_arg2`: each writes its own result buffer only, a different reference. -/
theorem kept_arg2 (V : Valuation τ sig (Elt F)) :
    StableHlo.after (opsPre ++ opsTail) V (Proc.devRef .tc main_arg2) = V (Proc.devRef .tc main_arg2) :=
  StableHlo.after_of_forall_not_mem (b := Proc.devRef .tc main_arg2) _ _ (List.forall_iff_forall_mem.mp
    (List.forall_append.mpr ⟨by keeps, forall_flatten _ (by keeps)⟩))

/-- @main runs (terminates, no fault) and its three argument arrays end as launched. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (kept_arg0 _), (h c main_arg1).trans (kept_arg1 _),
      (h c main_arg2).trans (kept_arg2 _)⟩)
    (run m ρ)

end Cert.ReferenceIdeal.RefRun

end
-- ==== Proof.DistMath.lean ====
import proofs.«125947_j52733608460723_1_alg».proof.Proof.Gen.KernelIdeal.Skeleton
import proofs.«125947_j52733608460723_1_alg».proof.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.DistMath

open Idealize.ShloMosaic Idealize.ShloMosaic.ValueIdx
open scoped BigOperators

/-! # The squared distance, index by index

At the ideal values a float is an extended real and every operation is exact. Both programs compute, for a row `p` of the
embedding `e` and the prototype `c`, the finite sum `∑ k, (c k - e p k) * (c k - e p k)` over the 512 columns: one as a sum
along the lanes of a block of rows from the accumulator zero, the other as a sum along axis 1 from the initial value
zero. Only `0 + x = x` and the reading of each layout operation at an index are used; nothing is assumed finite. -/

/-! ## Indices and layout operations read at an index -/

/-- Over the row `r`, the index with the column `k` inserted on the summed axis is `(r, k)`. -/
theorem lift_row {m n : Nat} (h : (⟨2, ![m, n]⟩ : Shape).Reduces [1] ⟨1, ![m]⟩) (r : Fin m) (k : Fin n) :
    h.lift (ix1 r) k = ix2 r k := by
  funext c
  match c with
  | ⟨0, _⟩ => exact Fin.ext rfl
  | ⟨1, _⟩ => exact Fin.ext rfl

/-- A vector of length `m` viewed as a column `[m, 1]` reads, at `(r, u)`, the vector at `r`. -/
theorem shapeCast_col_apply {α : Type} {m : Nat} (x : (⟨1, ![m]⟩ : Shape).Idx → α)
    (h : (⟨1, ![m]⟩ : Shape).ShapeCasts ⟨2, ![m, 1]⟩) (r : Fin m) (u : Fin 1) :
    shapeCast ⟨2, ![m, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A vector laid as the one row of a `[1, n]` array reads, at `(u, k)`, the vector at `k`. -/
theorem bcast_row_apply {α : Type} {n : Nat}
    (h : (⟨1, ![n]⟩ : Shape).BroadcastsInDim ⟨2, ![1, n]⟩ (![1] : Fin 1 → Fin 2))
    (x : (⟨1, ![n]⟩ : Shape).Idx → α) (u : Fin 1) (k : Fin n) :
    broadcastInDim ⟨2, ![1, n]⟩ ![1] h x (ix2 u k) = x (ix1 k) := by
  refine broadcastInDim_apply _ h x (ix2 u k) (ix1 k) fun a => ?_
  match a with
  | ⟨0, _⟩ =>
    show k.val = if n = 1 then 0 else k.val
    split
    · have := k.isLt; omega
    · rfl

/-- A `[1, n]` array repeated over `m` rows reads, at `(p, k)`, its one row at `k`. -/
theorem bcast_rows_apply {α : Type} {m n : Nat}
    (h : (⟨2, ![1, n]⟩ : Shape).BroadcastsInDim ⟨2, ![m, n]⟩ (![0, 1] : Fin 2 → Fin 2))
    (x : (⟨2, ![1, n]⟩ : Shape).Idx → α) (p : Fin m) (k : Fin n) :
    broadcastInDim ⟨2, ![m, n]⟩ ![0, 1] h x (ix2 p k) = x (ix2 (0 : Fin 1) k) := by
  refine broadcastInDim_apply _ h x (ix2 p k) (ix2 (0 : Fin 1) k) fun a => ?_
  match a with
  | ⟨0, _⟩ => rfl
  | ⟨1, _⟩ =>
    show k.val = if n = 1 then 0 else k.val
    split
    · have := k.isLt; omega
    · rfl

/-! ## The kernel body's payload -/

/-- The body's payload at row `r` of its block (and the one column, however it is written): the sum over the 512 columns
    of the squared difference between the prototype and that row. The accumulator is the zero the lane sum starts from,
    and the reading of the lane sum drops it. -/
theorem pay1_apply_col (v0 : Vec Ideal Cert.KernelIdeal.S1x512 .f32) (v2 : Vec Ideal Cert.KernelIdeal.S4096x512 .f32)
    (r : Fin 4096) (u : Fin 1) :
    Cert.KernelIdeal.Gen.k0_pay1 (F := Ideal) v0 v2 (ix2 r u)
      = ∑ k : Fin 512, (v0 (ix2 (0 : Fin 1) k) - v2 (ix2 r k)) * (v0 (ix2 (0 : Fin 1) k) - v2 (ix2 r k)) := by
  unfold Cert.KernelIdeal.Gen.k0_pay1
  refine (shapeCast_col_apply _ _ r u).trans ?_
  refine (Ideal.multiReduction_add_single _ _ _ _ _ (ix1 r)).trans ?_
  refine Finset.sum_congr rfl fun (k : Fin 512) _ => ?_
  rw [lift_row, mulf_apply, subf_apply, broadcastTo_1b_ab_apply, shapeCast_self]

/-- The same at the column written `0`. -/
theorem pay1_apply (v0 : Vec Ideal Cert.KernelIdeal.S1x512 .f32) (v2 : Vec Ideal Cert.KernelIdeal.S4096x512 .f32)
    (r : Fin 4096) :
    Cert.KernelIdeal.Gen.k0_pay1 (F := Ideal) v0 v2 (ix2 r (0 : Fin 1))
      = ∑ k : Fin 512, (v0 (ix2 (0 : Fin 1) k) - v2 (ix2 r k)) * (v0 (ix2 (0 : Fin 1) k) - v2 (ix2 r k)) :=
  pay1_apply_col v0 v2 r 0

/-! ## The reference's distance -/

section Reference

open Cert.ReferenceIdeal Cert.ReferenceIdeal.Facts₀ Cert.ReferenceIdeal.Facts

variable [Cert.ReferenceIdeal.Facts]

/-- The reference's squared distance as one function of the embedding `a1` and the prototype `a2`: the prototype laid as
    one row, that row repeated over every row of the embedding, minus the embedding, times itself, summed along each row
    from the constant zero. -/
def refDist (a1 : (⟨S49152x512, .f32⟩ : BufTy).Contents (Elt Ideal)) (a2 : (⟨S512, .f32⟩ : BufTy).Contents (Elt Ideal)) :
    (⟨S49152, .f32⟩ : BufTy).Contents (Elt Ideal) :=
  Host.reduceAdd (F := Ideal)
    (mulf
      (subf (broadcastInDim S49152x512 ![0, 1] bcast_S1x512_S49152x512_0_1 (broadcastInDim S1x512 ![1] bcast_S512_S1x512_1 a2)) a1)
      (subf (broadcastInDim S49152x512 ![0, 1] bcast_S1x512_S49152x512_0_1 (broadcastInDim S1x512 ![1] bcast_S512_S1x512_1 a2)) a1))
    (constant (F := Ideal) S_ .f32 0x00000000#32) reducesTo_S49152x512_S49152_d1 h_S_

/-- Summing a `[49152, 512]` array along axis 1 leaves its 49152 rows. -/
theorem reduces_rows : S49152x512.Reduces [1] S49152 := by decide

/-- The reference's distance at row `p`: the initial value is the real zero, so what is left is the sum over the 512
    columns of the squared difference between the prototype and that row. -/
theorem refDist_apply (a1 : (⟨S49152x512, .f32⟩ : BufTy).Contents (Elt Ideal)) (a2 : (⟨S512, .f32⟩ : BufTy).Contents (Elt Ideal))
    (p : Fin 49152) :
    refDist a1 a2 (ix1 p)
      = ∑ k : Fin 512, (a2 (ix1 k) - a1 (ix2 p k)) * (a2 (ix1 k) - a1 (ix2 p k)) := by
  unfold refDist
  refine (Ideal.hostReduceAdd_single reducesTo_S49152x512_S49152_d1 reduces_rows _ _ (ix1 p)).trans ?_
  rw [constant_apply, Ideal.ofBits_zero_f32, zero_add]
  refine Finset.sum_congr rfl fun (k : Fin 512) _ => ?_
  rw [lift_row, mulf_apply, subf_apply, bcast_rows_apply, bcast_row_apply]

end Reference

end Cert.DistMath

end
-- ==== Proof.KIValue.lean ====
/-
  What the region leaves in its output array, at the ideal values.

  Point t of the grid holds the prototype row and rows 4096·t … 4096·t+4095 of the embedding, and writes back, as
  block t of a [49152,1] column, the row sums of squared differences. Row p of the column is therefore written by
  point p / 4096 and holds  ∑ k, (proto k − e p k)²; the 12 blocks tile the column, so the whole column is that function
  of the two arrays the region found.
-/
import proofs.«125947_j52733608460723_1_alg».proof.Proof.KIFrame
import proofs.«125947_j52733608460723_1_alg».proof.Proof.DistMath
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr
open scoped BigOperators

variable (m : (ℓ : Loc nD τ sig) → Buf (Elt Ideal) ℓ)

theorem hz : (![0, 0] : Fin 2 → Nat) = fun _ => 0 := funext fun a => by fin_cases a <;> rfl

/-- The row of an index of the column. -/
def row (i : S49152x1.Idx) : Fin 49152 := ⟨(i 0).val, (i 0).isLt⟩

/-- The column of squared distances of the rows of `A1` to the row `A0`. -/
def Dcol (A0 : Vec Ideal S1x512 .f32) (A1 : Vec Ideal S49152x512 .f32) : Vec Ideal S49152x1 .f32 :=
  fun i => ∑ k : Fin 512, (A0 (ix2 (0 : Fin 1) k) - A1 (ix2 (row i) k)) * (A0 (ix2 (0 : Fin 1) k) - A1 (ix2 (row i) k))

/-- Where the three windows sit at point `t`: the prototype row never moves, the embedding's and the column's blocks
    are block `t`. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One entry of what a point writes: from blocks that agree with the arrays at the row the entry lands on. -/
theorem point_eq (x0 : Vec Ideal S1x512 .f32) (x1 : Vec Ideal S4096x512 .f32) (A0 : Vec Ideal S1x512 .f32) (A1 : Vec Ideal S49152x512 .f32)
    (i : S49152x1.Idx) (r : Fin 4096) (u : Fin 1)
    (h0 : ∀ k : Fin 512, x0 (ix2 (0 : Fin 1) k) = A0 (ix2 (0 : Fin 1) k))
    (h1 : ∀ k : Fin 512, x1 (ix2 r k) = A1 (ix2 (row i) k)) :
    k0_pay1 (F := Ideal) x0 x1 (ix2 r u) = Dcol A0 A1 i := by
  rw [Cert.DistMath.pay1_apply_col]; unfold Dcol
  exact Finset.sum_congr rfl fun k _ => by rw [h0 k, h1 k]

/-- What point `t` writes back is block `t` of the column of squared distances. -/
theorem flushed_eq (c : Dev nD) (t : Fin cfg0.N) :
    (dats m 0 c).flushed 2 t = ((cfg0.win 2).blk t).view.read (Elt Ideal) (Dcol (V m c main_v0) (V m c main_arg1)) := by
  show (cfg0.win 2).cut (grid0.coords t) ((dats m 0 c).after 2 t) = _
  rw [after0_2]
  unfold out0_2
  rw [View.canon_unit_zero hz]
  simp only [View.ld_unit_zero (S := S1x512) hz, View.ld_unit_zero (S := S4096x512) hz]
  obtain ⟨e00, e01, e10, e11, e20, e21⟩ := idx_facts t
  funext j
  obtain ⟨r, u, rfl⟩ : ∃ (r : Fin 4096) (u : Fin 1), j = ix2 r u := ⟨j 0, j 1, eq_ix2 j⟩
  show k0_pay1 (F := Ideal) (iblk m c 0 t) (iblk m c 1 t) (ix2 r u)
    = Dcol (V m c main_v0) (V m c main_arg1) (((cfg0.win 2).blk t).view.emb (ix2 r u))
  refine point_eq (iblk m c 0 t) (iblk m c 1 t) _ _ _ r u ?_ ?_
  · intro k
    show V m c main_v0 (((cfg0.win 0).blk t).view.emb (ix2 (0 : Fin 1) k)) = V m c main_v0 (ix2 (0 : Fin 1) k)
    refine congrArg _ ?_
    funext a; apply Fin.ext
    match a with
    | ⟨0, _⟩ => show win0_0.index t (0 : Fin 2) * 1 + 1 * 0 = 0; omega
    | ⟨1, _⟩ => show win0_0.index t (1 : Fin 2) * 512 + 1 * k.val = k.val; omega
  · intro k
    show V m c main_arg1 (((cfg0.win 1).blk t).view.emb (ix2 r k))
      = V m c main_arg1 (ix2 (row (((cfg0.win 2).blk t).view.emb (ix2 r u))) k)
    refine congrArg _ ?_
    funext a; apply Fin.ext
    match a with
    | ⟨0, _⟩ => show win0_1.index t (0 : Fin 2) * 4096 + 1 * r.val = win0_2.index t (0 : Fin 2) * 4096 + 1 * r.val; omega
    | ⟨1, _⟩ => show win0_1.index t (1 : Fin 2) * 512 + 1 * k.val = k.val; omega

/-- An index of the column is in point `t`'s block iff each coordinate is in the block's range. -/
theorem mem_blk (t : Fin cfg0.N) (i : S49152x1.Idx) :
    i ∈ ((cfg0.win 2).blk t).view.set ↔ ∀ a : Fin 2, win0_2.index t a * S4096x1.size a ≤ (i a).val ∧ (i a).val < win0_2.index t a * S4096x1.size a + S4096x1.size a := by
  show i ∈ ((View.whole main_v1).slice (win0_2.rect t)).set ↔ _
  rw [View.set_slice_whole, Rect.mem_set_unit]
  exact Iff.rfl

/-- Row `p` of the column is written by point `p / 4096`. -/
theorem cover (i : S49152x1.Idx) : ∃ t : Fin cfg0.N, (cfg0.win 2).flush t = true ∧ i ∈ ((cfg0.win 2).blk t).view.set := by
  have hi0 : (i 0).val < 49152 := (i 0).isLt
  have hi1 : (i 1).val < 1 := (i 1).isLt
  have hN : grid0.N = 12 := N_0
  have hlt : (i 0).val / 4096 < grid0.N := by rw [hN]; omega
  refine ⟨⟨(i 0).val / 4096, hlt⟩, flush0_2 _, ?_⟩
  rw [mem_blk]
  obtain ⟨-, -, -, -, e20, e21⟩ := idx_facts ⟨(i 0).val / 4096, hlt⟩
  intro a
  match a with
  | ⟨0, _⟩ =>
    show win0_2.index ⟨(i 0).val / 4096, hlt⟩ (0 : Fin 2) * 4096 ≤ (i 0).val ∧ (i 0).val < win0_2.index ⟨(i 0).val / 4096, hlt⟩ (0 : Fin 2) * 4096 + 4096
    rw [e20]; show (i 0).val / 4096 * 4096 ≤ (i 0).val ∧ (i 0).val < (i 0).val / 4096 * 4096 + 4096; omega
  | ⟨1, _⟩ =>
    show win0_2.index ⟨(i 0).val / 4096, hlt⟩ (1 : Fin 2) * 1 ≤ (i 1).val ∧ (i 1).val < win0_2.index ⟨(i 0).val / 4096, hlt⟩ (1 : Fin 2) * 1 + 1
    rw [e21]; omega

/-- The column after the region: the squared distances of the embedding's rows to the prototype row, as the region
    found those two arrays. -/
theorem final (c : Dev nD) : (dats m 0 c).arrAt 2 cfg0.N = Dcol (V m c main_v0) (V m c main_arg1) :=
  (dats m 0 c).arrAt_eq_of_cover 2 (Dcol (V m c main_v0) (V m c main_arg1)) (fun t _ => flushed_eq m c t) cover

/-- The prototype row the region finds is the prototype vector laid as one row. -/
theorem V_v0 (c : Dev nD) : (V m c main_v0 : Vec Ideal S1x512 .f32)
    = shapeCast S1x512 (m ((c : Thread nD τ).loc main_arg2) : Vec Ideal S512 .f32) shapeCasts_S512_S1x512 := by
  show StableHlo.after (List.flatten [hostOps0]) (fun b => m (c, b)) (Proc.devRef .tc main_v0) = _
  simp only [hostOps0, List.flatten_cons, List.flatten_nil, List.append_nil]
  after_results
  rfl

end Cert.KernelIdeal.Val

end
-- ==== Proof.TailAgree.lean ====
/-
  The later host operations of the two programs agree.

  After the distance vector is known, both programs run the same line of operations on it and on the labels: for each
  of the three classes the mask, its running count, the positions of the class members, the gather of the distances at
  those positions, then the three margins, their positive parts, their sum and the mean. The two printed lines differ
  only in which buffer holds each intermediate value. So from the same labels and the same distance vector the two
  lines leave the same number in their result buffers: each line is read back as one term in the labels and the
  distances, and the two terms are the same term.
-/
import proofs.«125947_j52733608460723_1_alg».proof.Proof.Gen.KernelIdeal.Launch
import proofs.«125947_j52733608460723_1_alg».proof.Proof.RefOps
import Idealize.ShloMosaic.Lib.StableHlo.Run
import Idealize.ShloMosaic.PureOps.Ideal

set_option maxRecDepth 16384

noncomputable section

namespace Cert.TailAgree

open Idealize.ShloMosaic Idealize.ShloMosaic.TcCoe Idealize.SL.Sem Idealize.ShloMosaic.StableHlo

/-- The kernel program's operations after its region, stretch by stretch. -/
abbrev ktail : List (List (HloOp Cert.KernelIdeal.τ Cert.KernelIdeal.sig (Elt Ideal))) :=
  [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.KernelIdeal.Gen.hostOps1_30, Cert.KernelIdeal.Gen.hostOps1_31, Cert.KernelIdeal.Gen.hostOps1_32, Cert.KernelIdeal.Gen.hostOps1_33, Cert.KernelIdeal.Gen.hostOps1_34, Cert.KernelIdeal.Gen.hostOps1_35, Cert.KernelIdeal.Gen.hostOps1_36]

set_option maxHeartbeats 16000000 in
/-- From valuations that agree on the labels, and where the reference's distance vector is the kernel program's
    distance column read as a vector, the two lines of later operations end with the same result. -/
theorem tails_agree (Wk : Valuation Cert.KernelIdeal.τ Cert.KernelIdeal.sig (Elt Ideal))
    (Wr : Valuation Cert.ReferenceIdeal.τ Cert.ReferenceIdeal.sig (Elt Ideal))
    (X : (⟨Cert.KernelIdeal.S49152x1, .f32⟩ : BufTy).Contents (Elt Ideal))
    (hk0 : Wk (Proc.devRef .tc Cert.KernelIdeal.main_arg0) = Wr (Proc.devRef .tc Cert.ReferenceIdeal.main_arg0))
    (hk1 : Wk (Proc.devRef .tc Cert.KernelIdeal.main_v1) = X)
    (hr1 : Wr (Proc.devRef .tc Cert.ReferenceIdeal.main_v4)
      = shapeCast Cert.KernelIdeal.S49152 X Cert.KernelIdeal.Gen.shapeCasts_S49152x1_S49152) :
    StableHlo.after ktail.flatten Wk (Proc.devRef .tc Cert.KernelIdeal.main_v87)
      = StableHlo.after (Cert.ReferenceIdeal.RefRun.opsTail (F := Ideal)) Wr (Proc.devRef .tc Cert.ReferenceIdeal.main_v89) := by
  simp only [ktail, Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18, Cert.KernelIdeal.Gen.hostOps1_19, Cert.KernelIdeal.Gen.hostOps1_20, Cert.KernelIdeal.Gen.hostOps1_21, Cert.KernelIdeal.Gen.hostOps1_22, Cert.KernelIdeal.Gen.hostOps1_23, Cert.KernelIdeal.Gen.hostOps1_24, Cert.KernelIdeal.Gen.hostOps1_25, Cert.KernelIdeal.Gen.hostOps1_26, Cert.KernelIdeal.Gen.hostOps1_27, Cert.KernelIdeal.Gen.hostOps1_28, Cert.KernelIdeal.Gen.hostOps1_29, Cert.KernelIdeal.Gen.hostOps1_30, Cert.KernelIdeal.Gen.hostOps1_31, Cert.KernelIdeal.Gen.hostOps1_32, Cert.KernelIdeal.Gen.hostOps1_33, Cert.KernelIdeal.Gen.hostOps1_34, Cert.KernelIdeal.Gen.hostOps1_35, Cert.KernelIdeal.Gen.hostOps1_36,
    Cert.ReferenceIdeal.RefRun.opsTail, Cert.ReferenceIdeal.RefRun.tail0, Cert.ReferenceIdeal.RefRun.tail1, Cert.ReferenceIdeal.RefRun.tail2, Cert.ReferenceIdeal.RefRun.tail3, Cert.ReferenceIdeal.RefRun.tail4, Cert.ReferenceIdeal.RefRun.tail5, Cert.ReferenceIdeal.RefRun.tail6, Cert.ReferenceIdeal.RefRun.tail7, Cert.ReferenceIdeal.RefRun.tail8, Cert.ReferenceIdeal.RefRun.tail9, Cert.ReferenceIdeal.RefRun.tail10, Cert.ReferenceIdeal.RefRun.tail11, Cert.ReferenceIdeal.RefRun.tail12, Cert.ReferenceIdeal.RefRun.tail13, Cert.ReferenceIdeal.RefRun.tail14, Cert.ReferenceIdeal.RefRun.tail15, Cert.ReferenceIdeal.RefRun.tail16, Cert.ReferenceIdeal.RefRun.tail17, Cert.ReferenceIdeal.RefRun.tail18, Cert.ReferenceIdeal.RefRun.tail19, Cert.ReferenceIdeal.RefRun.tail20, Cert.ReferenceIdeal.RefRun.tail21, Cert.ReferenceIdeal.RefRun.tail22, Cert.ReferenceIdeal.RefRun.tail23, Cert.ReferenceIdeal.RefRun.tail24, Cert.ReferenceIdeal.RefRun.tail25, Cert.ReferenceIdeal.RefRun.tail26, Cert.ReferenceIdeal.RefRun.tail27, Cert.ReferenceIdeal.RefRun.tail28, Cert.ReferenceIdeal.RefRun.tail29, Cert.ReferenceIdeal.RefRun.tail30, Cert.ReferenceIdeal.RefRun.tail31, Cert.ReferenceIdeal.RefRun.tail32, Cert.ReferenceIdeal.RefRun.tail33, Cert.ReferenceIdeal.RefRun.tail34, Cert.ReferenceIdeal.RefRun.tail35, Cert.ReferenceIdeal.RefRun.tail36,
    List.flatten_cons, List.flatten_nil, List.append_nil, List.cons_append, List.nil_append]
  after_results_simp
  rw [hk0, hk1, hr1]
  rfl

end Cert.TailAgree

end
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.Bridge.lean ====
/-
  The two programs' results are the same number.

  The kernel program's later operations start from the region's exit contents: the labels as launched and the column of
  squared distances. The reference's later operations start from what its first six operations leave: the labels as
  launched and the vector of row sums of squared differences. Entry p of that vector and row p of that column are the
  same finite sum  ∑ k, (proto k − e p k)²  of the launch contents, so the two lines of later operations, which are the
  same operations, end with the same result.
-/
import proofs.«125947_j52733608460723_1_alg».proof.Proof.KIValue
import proofs.«125947_j52733608460723_1_alg».proof.Proof.TailAgree
import proofs.«125947_j52733608460723_1_alg».proof.Proof.DistMath
import proofs.«125947_j52733608460723_1_alg».proof.Proof.LibReshapeRead
import proofs.«125947_j52733608460723_1_alg».proof.Proof.RefOps

set_option maxRecDepth 16384

noncomputable section

namespace Cert.Bridge

open Idealize.ShloMosaic Idealize.ShloMosaic.TcCoe Idealize.SL.Sem Idealize.ShloMosaic.ValueIdx
open scoped BigOperators

/-- Running two lines one after the other is running their concatenation. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

section

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel program's buffer contents when its region is left. -/
abbrev Wk (c : Dev Cert.KernelIdeal.nD) : Valuation Cert.KernelIdeal.τ Cert.KernelIdeal.sig (Elt Ideal) :=
  Pipeline.withArrays Cert.KernelIdeal.spec0 c (Cert.KernelIdeal.Fr.V0 m c)
    (fun w => (Cert.KernelIdeal.Fr.dats m 0 c).arrAt w Cert.KernelIdeal.cfg0.N)

/-- The reference's buffer contents after its first six operations. -/
abbrev Wr (c : Dev Cert.ReferenceIdeal.nD) : Valuation Cert.ReferenceIdeal.τ Cert.ReferenceIdeal.sig (Elt Ideal) :=
  StableHlo.after (Cert.ReferenceIdeal.RefRun.opsPre (F := Ideal)) (StableHlo.launchContents m' c)

/-- The labels leave the region as launched. -/
theorem wk_arg0 (c : Dev Cert.KernelIdeal.nD) :
    Wk m c (Proc.devRef .tc Cert.KernelIdeal.main_arg0) = m ((c : Thread Cert.KernelIdeal.nD Cert.KernelIdeal.τ).loc Cert.KernelIdeal.main_arg0) := by
  refine (Pipeline.withArrays_of_ne _ c _ _ Cert.KernelIdeal.main_arg0
    (by decide : ∀ w, Pipeline.arrRef Cert.KernelIdeal.spec0 w ≠ Cert.KernelIdeal.main_arg0)).trans ?_
  exact Cert.KernelIdeal.Fr.V_arg m c Cert.KernelIdeal.main_arg0 (by decide)

/-- The column leaves the region holding the squared distances. -/
theorem wk_v1 (c : Dev Cert.KernelIdeal.nD) :
    Wk m c (Proc.devRef .tc Cert.KernelIdeal.main_v1)
      = Cert.KernelIdeal.Val.Dcol (Cert.KernelIdeal.Fr.V m c Cert.KernelIdeal.main_v0) (Cert.KernelIdeal.Fr.V m c Cert.KernelIdeal.main_arg1) :=
  (Pipeline.withArrays_arr Cert.KernelIdeal.spec0 Cert.KernelIdeal.Gen.launch0.win.arr_inj c _ _ 2).trans (Cert.KernelIdeal.Val.final m c)

/-- The reference's first six operations leave the labels as launched. -/
theorem wr_arg0 (c : Dev Cert.ReferenceIdeal.nD) :
    Wr m' c (Proc.devRef .tc Cert.ReferenceIdeal.main_arg0) = m' ((c : Thread Cert.ReferenceIdeal.nD Cert.ReferenceIdeal.τ).loc Cert.ReferenceIdeal.main_arg0) := by
  show StableHlo.after (Cert.ReferenceIdeal.RefRun.opsPre (F := Ideal)) (StableHlo.launchContents m' c) _ = _
  simp only [Cert.ReferenceIdeal.RefRun.opsPre]
  after_results

/-- They leave, in the distance buffer, the row sums of squared differences of the launch contents. -/
theorem wr_v4 (c : Dev Cert.ReferenceIdeal.nD) :
    Wr m' c (Proc.devRef .tc Cert.ReferenceIdeal.main_v4)
      = Cert.DistMath.refDist (m' ((c : Thread Cert.ReferenceIdeal.nD Cert.ReferenceIdeal.τ).loc Cert.ReferenceIdeal.main_arg1))
          (m' ((c : Thread Cert.ReferenceIdeal.nD Cert.ReferenceIdeal.τ).loc Cert.ReferenceIdeal.main_arg2)) := by
  show StableHlo.after (Cert.ReferenceIdeal.RefRun.opsPre (F := Ideal)) (StableHlo.launchContents m' c) _ = _
  simp only [Cert.ReferenceIdeal.RefRun.opsPre]
  after_results
  rfl

/-- The reference's distance vector is the kernel program's distance column read as a vector: entry by entry both are
    the sum over the 512 columns of the squared difference between the prototype and the embedding's row. -/
theorem dist_eq (c : Dev Cert.KernelIdeal.nD)
    (h1 : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2)) :
    Cert.DistMath.refDist (m' ((c : Thread Cert.ReferenceIdeal.nD Cert.ReferenceIdeal.τ).loc Cert.ReferenceIdeal.main_arg1))
        (m' ((c : Thread Cert.ReferenceIdeal.nD Cert.ReferenceIdeal.τ).loc Cert.ReferenceIdeal.main_arg2))
      = shapeCast Cert.KernelIdeal.S49152
          (Cert.KernelIdeal.Val.Dcol (Cert.KernelIdeal.Fr.V m c Cert.KernelIdeal.main_v0) (Cert.KernelIdeal.Fr.V m c Cert.KernelIdeal.main_arg1))
          Cert.KernelIdeal.Gen.shapeCasts_S49152x1_S49152 := by
  funext i
  obtain ⟨p, rfl⟩ : ∃ p : Fin 49152, i = ix1 p := ⟨i 0, eq_ix1 i⟩
  refine (Cert.DistMath.refDist_apply _ _ p).trans ?_
  refine Eq.trans ?_ (Cert.DistSeams.col_to_vec_apply _ _ p).symm
  unfold Cert.KernelIdeal.Val.Dcol
  refine Finset.sum_congr rfl fun (k : Fin 512) _ => ?_
  have e0 : Cert.KernelIdeal.Fr.V m c Cert.KernelIdeal.main_v0 (ix2 (0 : Fin 1) k)
      = m ((c : Thread Cert.KernelIdeal.nD Cert.KernelIdeal.τ).loc Cert.KernelIdeal.main_arg2) (ix1 k) := by
    rw [Cert.KernelIdeal.Val.V_v0]
    exact Cert.DistSeams.vec_to_row_apply _ _ (0 : Fin 1) k
  have e1 : Cert.KernelIdeal.Fr.V m c Cert.KernelIdeal.main_arg1
      = m ((c : Thread Cert.KernelIdeal.nD Cert.KernelIdeal.τ).loc Cert.KernelIdeal.main_arg1) :=
    Cert.KernelIdeal.Fr.V_arg m c Cert.KernelIdeal.main_arg1 (by decide)
  have er : Cert.KernelIdeal.Val.row (ix2 p (0 : Fin 1)) = p := Fin.ext rfl
  rw [e0, e1, er, h1, h2]

/-- The result buffers of the two programs end equal, from launch memories that agree on the three arguments. -/
theorem value_eq (c : Dev Cert.KernelIdeal.nD)
    (h0 : m' ((c : Thread Cert.ReferenceIdeal.nD Cert.ReferenceIdeal.τ).loc Cert.ReferenceIdeal.main_arg0)
      = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1)
      = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2)
      = m ((c : Thread Cert.KernelIdeal.nD Cert.KernelIdeal.τ).loc Cert.KernelIdeal.main_arg2)) :
    StableHlo.after (Cert.ReferenceIdeal.RefRun.opsPre ++ Cert.ReferenceIdeal.RefRun.opsTail) (StableHlo.launchContents m' c)
        (Proc.devRef .tc Cert.ReferenceIdeal.main_v89)
      = Pipeline.afterTail₀ Cert.KernelIdeal.cfgs (Cert.KernelIdeal.Fr.dats m) 0 (Cert.KernelIdeal.Fr.V0 m) Cert.KernelIdeal.Fr.tailOps c
          Cert.KernelIdeal.main_v87 := by
  rw [after_append]
  unfold Pipeline.afterTail₀
  exact (Cert.TailAgree.tails_agree (Wk m c) (Wr m' c) _
    ((wk_arg0 m c).trans ((wr_arg0 m' c).trans h0).symm) (wk_v1 m c)
    ((wr_v4 m' c).trans (dist_eq m m' c h1 h2))).symm

end

end Cert.Bridge

end
-- ==== Proof.lean ====
/-
  The certificate: a pipelined squared-distance kernel with a triplet-margin loss around it, against its jnp reference.

  Both programs take labels (int32[49152], the class 0, 1 or 2 of each sample), an embedding (f32[49152, 512]) and a
  prototype (f32[512]), and return one number: with d p = ∑ k, (proto k − e p k)² the squared distance of sample p to
  the prototype, and d1, d2, d3 the distances of the members of classes 0, 1, 2 taken in order of position (found
  from the class masks by running counts), the mean over the 16384 triples of
  max(d1 − d2 + 0.5, 0) + max(d2 − d3 + 0.5, 0) + max(d1 − d3 + 1, 0).

  The kernel program computes d in a pipelined region over 12 blocks of 4096 rows, each point writing the row sums
  of its block; the reference computes d by one broadcast, subtraction, square and sum along the rows. Over the
  extended reals these are the same finite sums, index by index, whatever the inputs (no finiteness is needed: a sum
  of products is the same expression on both sides). Everything after d is the same line of host operations in both
  programs, so the results agree. The frames: each program's run terminates and writes none of its three arguments
  (the region only reads the embedding and a reshaped copy of the prototype; every host operation writes a fresh buffer).
  The ideal pass rewrote nothing, so the kernel program's idealization is its own text.
-/
import proofs.«125947_j52733608460723_1_alg».proof.Defs
import proofs.«125947_j52733608460723_1_alg».proof.Proof.Gen.Kernel
import proofs.«125947_j52733608460723_1_alg».proof.Proof.Gen.KernelIdeal
import proofs.«125947_j52733608460723_1_alg».proof.Proof.Gen.ReferenceIdeal
import proofs.«125947_j52733608460723_1_alg».proof.Proof.Gen.Pre_finite_inputs
import proofs.«125947_j52733608460723_1_alg».proof.Proof.KFrame
import proofs.«125947_j52733608460723_1_alg».proof.Proof.KIFrame
import proofs.«125947_j52733608460723_1_alg».proof.Proof.RefRun
import proofs.«125947_j52733608460723_1_alg».proof.Proof.Bridge

noncomputable section

namespace Cert.Proof

open Idealize.ShloMosaic Idealize.SL.Sem

/-- The word-level kernel program runs to the end and keeps its arguments. -/
theorem frame_k : Cert.frame_Kernel := fun m ρ _ => Cert.Kernel.Fr.frame (F := Bits) m ρ

/-- So does it read at the extended reals. -/
theorem frame_ki : Cert.frame_KernelIdeal := fun m ρ _ => Cert.KernelIdeal.Fr.frame (F := Ideal) m ρ

/-- And the reference: a straight line of host operations, each writing its own result buffer. -/
theorem frame_ri : Cert.frame_ReferenceIdeal := fun m ρ _ => Cert.ReferenceIdeal.RefRun.frame (F := Ideal) m ρ

/-- No operation was rewritten for the ideal reading. -/
theorem preserves : Cert.preserves_Kernel_KernelIdeal := trivial

/-- From memories agreeing on the three arguments both programs end with the same number in their result buffers, the
    arguments unchanged: the kernel program's result is its later operations applied to the region's exit contents, the
    reference's the fold of its operations over the launch contents, and the two are equal (`Bridge.value_eq`). -/
theorem algebraic : Cert.algebraic_KernelIdeal_ReferenceIdeal := by
  intro m ρ m' ρ' _ hagree
  refine ⟨fun c => Pipeline.afterTail₀ Cert.KernelIdeal.cfgs (Cert.KernelIdeal.Fr.dats m) 0 (Cert.KernelIdeal.Fr.V0 m)
      Cert.KernelIdeal.Fr.tailOps c Cert.KernelIdeal.main_v87,
    Cert.KernelIdeal.Fr.run_post m ρ, ?_⟩
  refine (θ_run Cert.ReferenceIdeal.defs _ _).mono (fun r h c => ⟨?_, ?_, ?_, ?_⟩)
    (Cert.ReferenceIdeal.RefRun.run (F := Ideal) m' ρ')
  · exact (h c Cert.ReferenceIdeal.main_v89).trans
      (Cert.Bridge.value_eq m m' c (hagree c).1 (hagree c).2.1 (hagree c).2.2)
  · exact (h c Cert.ReferenceIdeal.main_arg0).trans (Cert.ReferenceIdeal.RefRun.kept_arg0 _)
  · exact (h c Cert.ReferenceIdeal.main_arg1).trans (Cert.ReferenceIdeal.RefRun.kept_arg1 _)
  · exact (h c Cert.ReferenceIdeal.main_arg2).trans (Cert.ReferenceIdeal.RefRun.kept_arg2 _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
